-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S1000000 : Shape := ⟨1, ![1000000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg8 : FVec F S64x16 .f32) (main_arg9 : FVec F S16 .f32) (main_v33 : IVec S_ 1) : IVec S_ 1 :=
  let main_v34 : FVec F S64x16 .f32 := Host.absf main_arg8
  let main_cst_12 : FVec F S_ .f32 := constant S_ .f32 0x7F800000#32
  let main_v35 : FVec F S64x16 .f32 := broadcastInDim S64x16 ![] bcast_S_S64x16 main_cst_12
  let main_v36 : IVec S64x16 1 := cmpf .olt main_v34 main_v35
  let main_c_13 : IVec S_ 1 := constantI S_ 1 1#1
  let main_v37 : IVec S_ 1 := (fun x v => Host.reduce IntOp.andi x v reducesTo_S64x16_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg5 : FVec F S128 .f32) (main_arg6 : FVec F S128x64 .f32) (main_arg7 : FVec F S64 .f32) (main_arg8 : FVec F S64x16 .f32) (main_arg9 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1000000 32) (main_arg2 : FVec F S1000000 .f32) (main_arg3 : FVec F S100000x128 .f32) (main_arg4 : FVec F S128x128 .f32) (main_arg5 : FVec F S128 .f32) (main_arg6 : FVec F S128x64 .f32) (main_arg7 : FVec F S64 .f32) (main_arg8 : FVec F S64x16 .f32) (main_arg9 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1000000 .f32 := Host.absf main_arg2
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S100000x128 .f32 := Host.absf main_arg3
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1000000 : Shape := ⟨2, ![2, 1000000]⟩
abbrev S1000000 : Shape := ⟨1, ![1000000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x16 : Shape := ⟨2, ![64, 16]⟩
abbrev S16 : Shape := ⟨1, ![16]⟩
abbrev S10000x128 : Shape := ⟨2, ![10000, 128]⟩
abbrev S1x1000000 : Shape := ⟨2, ![1, 1000000]⟩
abbrev S100000 : Shape := ⟨1, ![100000]⟩
abbrev S1100000 : Shape := ⟨1, ![1100000]⟩
abbrev S_ : Shape := ⟨0, ![]⟩
abbrev S1100000x1 : Shape := ⟨2, ![1100000, 1]⟩
abbrev S1100000x128 : Shape := ⟨2, ![1100000, 128]⟩
abbrev S1x128 : Shape := ⟨2, ![1, 128]⟩
abbrev S100000x64 : Shape := ⟨2, ![100000, 64]⟩
abbrev S10000x64 : Shape := ⟨2, ![10000, 64]⟩
abbrev S1100000x64 : Shape := ⟨2, ![1100000, 64]⟩
abbrev S1x64 : Shape := ⟨2, ![1, 64]⟩
abbrev S1x16 : Shape := ⟨2, ![1, 16]⟩
abbrev S100000x16 : Shape := ⟨2, ![100000, 16]⟩
abbrev S10000x16 : Shape := ⟨2, ![10000, 16]⟩
abbrev S10000 : Shape := ⟨1, ![10000]⟩
abbrev S10000x1 : Shape := ⟨2, ![10000, 1]⟩

abbrev nBuf : Space → Nat
  | .hbm => 134
  | .vmem => 26
  | .smem => 0
  | _ => 0

abbrev hbmTy0_0 (i : Nat) : BufTy := match i % 128 with
  | 0 => ⟨S100000x128, .f32⟩
  | 1 => ⟨S2x1000000, .i32⟩
  | 2 => ⟨S1000000, .f32⟩
  | 3 => ⟨S100000x128, .f32⟩
  | 4 => ⟨S128x128, .f32⟩
  | 5 => ⟨S128, .f32⟩
  | 6 => ⟨S128x64, .f32⟩
  | 7 => ⟨S64, .f32⟩
  | 8 => ⟨S64x16, .f32⟩
  | 9 => ⟨S16, .f32⟩
  | 10 => ⟨S100000x128, .f32⟩
  | 11 => ⟨S1x1000000, .i32⟩
  | 12 => ⟨S1000000, .i32⟩
  | 13 => ⟨S1x1000000, .i32⟩
  | 14 => ⟨S1000000, .i32⟩
  | 15 => ⟨S100000, .i32⟩
  | 16 => ⟨S1100000, .i32⟩
  | 17 => ⟨S1100000, .i32⟩
  | 18 => ⟨S_, .f32⟩
  | 19 => ⟨S100000, .f32⟩
  | 20 => ⟨S1100000, .f32⟩
  | 21 => ⟨S_, .f32⟩
  | 22 => ⟨S100000, .f32⟩
  | 23 => ⟨S1100000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1100000, .i32⟩
  | 35 => ⟨S1100000, .i1⟩
  | 36 => ⟨S_, .i32⟩
  | 37 => ⟨S1100000, .i32⟩
  | 38 => ⟨S1100000, .i32⟩
  | 39 => ⟨S1100000, .i32⟩
  | 40 => ⟨S1100000x1, .i32⟩
  | 41 => ⟨S1100000, .f32⟩
  | 42 => ⟨S1100000, .f32⟩
  | 43 => ⟨S_, .i32⟩
  | 44 => ⟨S1100000, .i32⟩
  | 45 => ⟨S1100000, .i1⟩
  | 46 => ⟨S_, .i32⟩
  | 47 => ⟨S1100000, .i32⟩
  | 48 => ⟨S1100000, .i32⟩
  | 49 => ⟨S1100000, .i32⟩
  | 50 => ⟨S1100000x1, .i32⟩
  | 51 => ⟨S1100000, .f32⟩
  | 52 => ⟨S1100000, .f32⟩
  | 53 => ⟨S_, .i32⟩
  | 54 => ⟨S1100000, .i32⟩
  | 55 => ⟨S1100000, .i1⟩
  | 56 => ⟨S_, .i32⟩
  | 57 => ⟨S1100000, .i32⟩
  | 58 => ⟨S1100000, .i32⟩
  | 59 => ⟨S1100000, .i32⟩
  | 60 => ⟨S1100000x1, .i32⟩
  | 61 => ⟨S1100000x128, .f32⟩
  | 62 => ⟨S1100000x1, .f32⟩
  | 63 => ⟨S1100000x128, .f32⟩
  | 64 => ⟨S1100000x128, .f32⟩
  | 65 => ⟨S_, .f32⟩
  | 66 => ⟨S100000x128, .f32⟩
  | 67 => ⟨S1100000x1, .i32⟩
  | 68 => ⟨S100000x128, .f32⟩
  | 69 => ⟨S1x128, .f32⟩
  | 70 => ⟨S100000x128, .f32⟩
  | 71 => ⟨S100000x64, .f32⟩
  | 72 => ⟨S1x1000000, .i32⟩
  | 73 => ⟨S1000000, .i32⟩
  | 74 => ⟨S1x1000000, .i32⟩
  | 75 => ⟨S1000000, .i32⟩
  | 76 => ⟨S100000, .i32⟩
  | 77 => ⟨S1100000, .i32⟩
  | 78 => ⟨S1100000, .i32⟩
  | 79 => ⟨S_, .f32⟩
  | 80 => ⟨S100000, .f32⟩
  | 81 => ⟨S1100000, .f32⟩
  | 82 => ⟨S_, .f32⟩
  | 83 => ⟨S100000, .f32⟩
  | 84 => ⟨S1100000x1, .i32⟩
  | 85 => ⟨S100000, .f32⟩
  | 86 => ⟨S_, .f32⟩
  | 87 => ⟨S100000, .f32⟩
  | 88 => ⟨S100000, .i1⟩
  | 89 => ⟨S100000, .f32⟩
  | 90 => ⟨S_, .f32⟩
  | 91 => ⟨S_, .f32⟩
  | 92 => ⟨S100000, .f32⟩
  | 93 => ⟨S100000, .f32⟩
  | 94 => ⟨S_, .i32⟩
  | 95 => ⟨S1100000, .i32⟩
  | 96 => ⟨S1100000, .i1⟩
  | 97 => ⟨S_, .i32⟩
  | 98 => ⟨S1100000, .i32⟩
  | 99 => ⟨S1100000, .i32⟩
  | 100 => ⟨S1100000, .i32⟩
  | 101 => ⟨S1100000x1, .i32⟩
  | 102 => ⟨S1100000, .f32⟩
  | 103 => ⟨S1100000, .f32⟩
  | 104 => ⟨S_, .i32⟩
  | 105 => ⟨S1100000, .i32⟩
  | 106 => ⟨S1100000, .i1⟩
  | 107 => ⟨S_, .i32⟩
  | 108 => ⟨S1100000, .i32⟩
  | 109 => ⟨S1100000, .i32⟩
  | 110 => ⟨S1100000, .i32⟩
  | 111 => ⟨S1100000x1, .i32⟩
  | 112 => ⟨S1100000, .f32⟩
  | 113 => ⟨S1100000, .f32⟩
  | 114 => ⟨S_, .i32⟩
  | 115 => ⟨S1100000, .i32⟩
  | 116 => ⟨S1100000, .i1⟩
  | 117 => ⟨S_, .i32⟩
  | 118 => ⟨S1100000, .i32⟩
  | 119 => ⟨S1100000, .i32⟩
  | 120 => ⟨S1100000, .i32⟩
  | 121 => ⟨S1100000x1, .i32⟩
  | 122 => ⟨S1100000x64, .f32⟩
  | 123 => ⟨S1100000x1, .f32⟩
  | 124 => ⟨S1100000x64, .f32⟩
  | 125 => ⟨S1100000x64, .f32⟩
  | 126 => ⟨S_, .f32⟩
  | 127 => ⟨S100000x64, .f32⟩
  | _ => ⟨S100000x128, .f32⟩

abbrev hbmTy0_1 (i : Nat) : BufTy := match i % 128 with
  | 0 => ⟨S1100000x1, .i32⟩
  | 1 => ⟨S100000x64, .f32⟩
  | 2 => ⟨S1x64, .f32⟩
  | 3 => ⟨S100000x64, .f32⟩
  | 4 => ⟨S1x16, .f32⟩
  | 5 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x16, .f32⟩
  | .local _ .vmem, ⟨23, _⟩ => ⟨S1x16, .f32⟩
  | .local _ .vmem, ⟨24, _⟩ => ⟨S10000x16, .f32⟩
  | .local _ .vmem, ⟨25, _⟩ => ⟨S10000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_4 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_9 : Ref sig .tc := ⟨.hbm, 79, rfl⟩
abbrev main_v56 : Ref sig .tc := ⟨.hbm, 80, rfl⟩
abbrev main_v57 : Ref sig .tc := ⟨.hbm, 81, rfl⟩
abbrev main_cst_10 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_11 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_12 : Ref sig .tc := ⟨.hbm, 90, rfl⟩
abbrev main_call1_v0 : Ref sig .tc := ⟨.hbm, 91, rfl⟩
abbrev main_call1_v1 : Ref sig .tc := ⟨.hbm, 92, rfl⟩
abbrev main_v64 : Ref sig .tc := ⟨.hbm, 93, rfl⟩
abbrev main_c_13 : Ref sig .tc := ⟨.hbm, 94, rfl⟩
abbrev main_v65 : Ref sig .tc := ⟨.hbm, 95, rfl⟩
abbrev main_v66 : Ref sig .tc := ⟨.hbm, 96, rfl⟩
abbrev main_c_14 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_c_15 : Ref sig .tc := ⟨.hbm, 104, rfl⟩
abbrev main_v73 : Ref sig .tc := ⟨.hbm, 105, rfl⟩
abbrev main_v74 : Ref sig .tc := ⟨.hbm, 106, rfl⟩
abbrev main_c_16 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c_17 : Ref sig .tc := ⟨.hbm, 114, rfl⟩
abbrev main_v81 : Ref sig .tc := ⟨.hbm, 115, rfl⟩
abbrev main_v82 : Ref sig .tc := ⟨.hbm, 116, rfl⟩
abbrev main_c_18 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_19 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x16 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  concatenates_S1000000_S100000_S1100000_d0 : Shape.Concatenates [S1000000, S100000] S1100000 0
  bcast_S_S100000 : S_.BroadcastsInDim S100000 (![] : Fin 0 → Fin S100000.rank)
  bcast_S1100000_S1100000x1_0 : S1100000.BroadcastsInDim S1100000x1 (![0] : Fin 1 → Fin S1100000x1.rank)
  bcast_S_S1100000 : S_.BroadcastsInDim S1100000 (![] : Fin 0 → Fin S1100000.rank)
  bcast_S1100000x1_S1100000x128_0_1 : S1100000x1.BroadcastsInDim S1100000x128 (![0, 1] : Fin 2 → Fin S1100000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S16_S1x16 : S16.ShapeCasts S1x16
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  reduces_S10000x16_S10000 : S10000x16.Reduces [1] S10000
  shapeCasts_S10000_S10000x1 : S10000.ShapeCasts S10000x1
  broadcasts_S10000x1_S10000x16 : S10000x1.Broadcasts S10000x16
  inb_S10000x16_S10000x16_0_0 : ∀ a, (![0, 0] : Fin 2 → Nat) a + S10000x16.size a ≤ S10000x16.size a
  h_S10000x16 : 0 < S10000x16.numel
  dot_S10000x128_S128x128_S10000x128_1_0_0_1_n_n_wf : DotDims.WF S10000x128 S128x128 S10000x128 [1] [0] [0] [1] [] []
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  gather_S100000x128_S1100000x1_S1100000x128_1_0_n_n_0_1_1128_wf : GatherDims.WF S100000x128 S1100000x1 S1100000x128 [1] [0] [] [0] [] 1 ![1, 128]
  scatter_S100000x128_S1100000x1_S1100000x128_1_0_0_1_wf : ScatterDims.WF S100000x128 S1100000x1 S1100000x128 [1] [0] [0] 1
  dot_S10000x128_S128x64_S10000x64_1_0_0_1_n_n_wf : DotDims.WF S10000x128 S128x64 S10000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S10000x64_S64x16_S10000x16_1_0_0_1_n_n_wf : DotDims.WF S10000x64 S64x16 S10000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x16.size a ≤ S64x16.size a
  hwx4_1 : ∀ i : grid4.Coords, EltTy.bits .f32 = 32 ∨ (Rect.block (s := S64x16) S64x16.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x16.size a ≤ S1x16.size a
  hwx4_2 : ∀ i : grid4.Coords, EltTy.bits .f32 = 32 ∨ (Rect.block (s := S1x16) S1x16.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x16.size a ≤ S100000x16.size a
  hwx4_3 : ∀ i : grid4.Coords, EltTy.bits .f32 = 32 ∨ (Rect.block (s := S100000x16) S10000x16.size (cc4_transform_3 i) (hinb4_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def gather_S100000x128_S1100000x1_S1100000x128_1_0_n_n_0_1_1128 : GatherDims S100000x128 S1100000x1 S1100000x128 where
  offsetDims := [1]
  collapsedSliceDims := [0]
  operandBatchingDims := []
  startIndicesBatchingDims := []
  startIndexMap := [0]
  indexVectorDim := 1
  sliceSizes := ![1, 128]
  wf := gather_S100000x128_S1100000x1_S1100000x128_1_0_n_n_0_1_1128_wf
def scatter_S100000x128_S1100000x1_S1100000x128_1_0_0_1 : ScatterDims S100000x128 S1100000x1 S1100000x128 where
  updateWindowDims := [1]
  insertedWindowDims := [0]
  scatterDimsToOperandDims := [0]
  indexVectorDim := 1
  wf := scatter_S100000x128_S1100000x1_S1100000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v93) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v94) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v95) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v95) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S64x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v96) S1x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v97) S10000x16.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S1000000 : Shape := ⟨1, ![1000000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x16 : Shape := ⟨2, ![64, 16]⟩
abbrev S16 : Shape := ⟨1, ![16]⟩
abbrev S1x1000000 : Shape := ⟨2, ![1, 1000000]⟩
abbrev S100000 : Shape := ⟨1, ![100000]⟩
abbrev S1100000 : Shape := ⟨1, ![1100000]⟩
abbrev S_ : Shape := ⟨0, ![]⟩
abbrev S1100000x1 : Shape := ⟨2, ![1100000, 1]⟩
abbrev S1100000x128 : Shape := ⟨2, ![1100000, 128]⟩
abbrev S1x128 : Shape := ⟨2, ![1, 128]⟩
abbrev S100000x64 : Shape := ⟨2, ![100000, 64]⟩
abbrev S1100000x64 : Shape := ⟨2, ![1100000, 64]⟩
abbrev S1x64 : Shape := ⟨2, ![1, 64]⟩
abbrev S100000x16 : Shape := ⟨2, ![100000, 16]⟩
abbrev S1x16 : Shape := ⟨2, ![1, 16]⟩
abbrev S100000x1 : Shape := ⟨2, ![100000, 1]⟩

abbrev nBuf : Space → Nat
  | .hbm => 159
  | .vmem => 0
  | .smem => 0
  | _ => 0

abbrev hbmTy0_0 (i : Nat) : BufTy := match i % 128 with
  | 0 => ⟨S100000x128, .f32⟩
  | 1 => ⟨S2x1000000, .i32⟩
  | 2 => ⟨S1000000, .f32⟩
  | 3 => ⟨S100000x128, .f32⟩
  | 4 => ⟨S128x128, .f32⟩
  | 5 => ⟨S128, .f32⟩
  | 6 => ⟨S128x64, .f32⟩
  | 7 => ⟨S64, .f32⟩
  | 8 => ⟨S64x16, .f32⟩
  | 9 => ⟨S16, .f32⟩
  | 10 => ⟨S1x1000000, .i32⟩
  | 11 => ⟨S1000000, .i32⟩
  | 12 => ⟨S1x1000000, .i32⟩
  | 13 => ⟨S1000000, .i32⟩
  | 14 => ⟨S100000, .i32⟩
  | 15 => ⟨S1100000, .i32⟩
  | 16 => ⟨S1100000, .i32⟩
  | 17 => ⟨S_, .f32⟩
  | 18 => ⟨S100000, .f32⟩
  | 19 => ⟨S1100000, .f32⟩
  | 20 => ⟨S_, .f32⟩
  | 21 => ⟨S100000, .f32⟩
  | 22 => ⟨S1100000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1100000, .i32⟩
  | 34 => ⟨S1100000, .i1⟩
  | 35 => ⟨S_, .i32⟩
  | 36 => ⟨S1100000, .i32⟩
  | 37 => ⟨S1100000, .i32⟩
  | 38 => ⟨S1100000, .i32⟩
  | 39 => ⟨S1100000x1, .i32⟩
  | 40 => ⟨S1100000, .f32⟩
  | 41 => ⟨S1100000, .f32⟩
  | 42 => ⟨S_, .i32⟩
  | 43 => ⟨S1100000, .i32⟩
  | 44 => ⟨S1100000, .i1⟩
  | 45 => ⟨S_, .i32⟩
  | 46 => ⟨S1100000, .i32⟩
  | 47 => ⟨S1100000, .i32⟩
  | 48 => ⟨S1100000, .i32⟩
  | 49 => ⟨S1100000x1, .i32⟩
  | 50 => ⟨S1100000, .f32⟩
  | 51 => ⟨S1100000, .f32⟩
  | 52 => ⟨S100000x128, .f32⟩
  | 53 => ⟨S_, .i32⟩
  | 54 => ⟨S1100000, .i32⟩
  | 55 => ⟨S1100000, .i1⟩
  | 56 => ⟨S_, .i32⟩
  | 57 => ⟨S1100000, .i32⟩
  | 58 => ⟨S1100000, .i32⟩
  | 59 => ⟨S1100000, .i32⟩
  | 60 => ⟨S1100000x1, .i32⟩
  | 61 => ⟨S1100000x128, .f32⟩
  | 62 => ⟨S1100000x1, .f32⟩
  | 63 => ⟨S1100000x128, .f32⟩
  | 64 => ⟨S1100000x128, .f32⟩
  | 65 => ⟨S_, .f32⟩
  | 66 => ⟨S100000x128, .f32⟩
  | 67 => ⟨S1100000x1, .i32⟩
  | 68 => ⟨S100000x128, .f32⟩
  | 69 => ⟨S1x128, .f32⟩
  | 70 => ⟨S100000x128, .f32⟩
  | 71 => ⟨S100000x128, .f32⟩
  | 72 => ⟨S_, .f32⟩
  | 73 => ⟨S100000x128, .f32⟩
  | 74 => ⟨S100000x128, .f32⟩
  | 75 => ⟨S1x1000000, .i32⟩
  | 76 => ⟨S1000000, .i32⟩
  | 77 => ⟨S1x1000000, .i32⟩
  | 78 => ⟨S1000000, .i32⟩
  | 79 => ⟨S100000, .i32⟩
  | 80 => ⟨S1100000, .i32⟩
  | 81 => ⟨S1100000, .i32⟩
  | 82 => ⟨S_, .f32⟩
  | 83 => ⟨S100000, .f32⟩
  | 84 => ⟨S1100000, .f32⟩
  | 85 => ⟨S_, .f32⟩
  | 86 => ⟨S100000, .f32⟩
  | 87 => ⟨S1100000x1, .i32⟩
  | 88 => ⟨S100000, .f32⟩
  | 89 => ⟨S_, .f32⟩
  | 90 => ⟨S100000, .f32⟩
  | 91 => ⟨S100000, .i1⟩
  | 92 => ⟨S100000, .f32⟩
  | 93 => ⟨S_, .f32⟩
  | 94 => ⟨S_, .f32⟩
  | 95 => ⟨S100000, .f32⟩
  | 96 => ⟨S100000, .f32⟩
  | 97 => ⟨S_, .i32⟩
  | 98 => ⟨S1100000, .i32⟩
  | 99 => ⟨S1100000, .i1⟩
  | 100 => ⟨S_, .i32⟩
  | 101 => ⟨S1100000, .i32⟩
  | 102 => ⟨S1100000, .i32⟩
  | 103 => ⟨S1100000, .i32⟩
  | 104 => ⟨S1100000x1, .i32⟩
  | 105 => ⟨S1100000, .f32⟩
  | 106 => ⟨S1100000, .f32⟩
  | 107 => ⟨S_, .i32⟩
  | 108 => ⟨S1100000, .i32⟩
  | 109 => ⟨S1100000, .i1⟩
  | 110 => ⟨S_, .i32⟩
  | 111 => ⟨S1100000, .i32⟩
  | 112 => ⟨S1100000, .i32⟩
  | 113 => ⟨S1100000, .i32⟩
  | 114 => ⟨S1100000x1, .i32⟩
  | 115 => ⟨S1100000, .f32⟩
  | 116 => ⟨S1100000, .f32⟩
  | 117 => ⟨S100000x64, .f32⟩
  | 118 => ⟨S_, .i32⟩
  | 119 => ⟨S1100000, .i32⟩
  | 120 => ⟨S1100000, .i1⟩
  | 121 => ⟨S_, .i32⟩
  | 122 => ⟨S1100000, .i32⟩
  | 123 => ⟨S1100000, .i32⟩
  | 124 => ⟨S1100000, .i32⟩
  | 125 => ⟨S1100000x1, .i32⟩
  | 126 => ⟨S1100000x64, .f32⟩
  | 127 => ⟨S1100000x1, .f32⟩
  | _ => ⟨S100000x128, .f32⟩

abbrev hbmTy0_1 (i : Nat) : BufTy := match i % 128 with
  | 0 => ⟨S1100000x64, .f32⟩
  | 1 => ⟨S1100000x64, .f32⟩
  | 2 => ⟨S_, .f32⟩
  | 3 => ⟨S100000x64, .f32⟩
  | 4 => ⟨S1100000x1, .i32⟩
  | 5 => ⟨S100000x64, .f32⟩
  | 6 => ⟨S1x64, .f32⟩
  | 7 => ⟨S100000x64, .f32⟩
  | 8 => ⟨S100000x64, .f32⟩
  | 9 => ⟨S_, .f32⟩
  | 10 => ⟨S100000x64, .f32⟩
  | 11 => ⟨S100000x64, .f32⟩
  | 12 => ⟨S100000x16, .f32⟩
  | 13 => ⟨S1x16, .f32⟩
  | 14 => ⟨S100000x16, .f32⟩
  | 15 => ⟨S100000x16, .f32⟩
  | 16 => ⟨S_, .f32⟩
  | 17 => ⟨S100000, .f32⟩
  | 18 => ⟨S_, .f32⟩
  | 19 => ⟨S100000, .f32⟩
  | 20 => ⟨S100000, .f32⟩
  | 21 => ⟨S100000x1, .f32⟩
  | 22 => ⟨S100000x16, .f32⟩
  | 23 => ⟨S100000x16, .f32⟩
  | 24 => ⟨S100000x16, .f32⟩
  | 25 => ⟨S_, .f32⟩
  | 26 => ⟨S100000, .f32⟩
  | 27 => ⟨S100000x1, .f32⟩
  | 28 => ⟨S100000x1, .f32⟩
  | 29 => ⟨S100000x16, .f32⟩
  | 30 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_9 : Ref sig .tc := ⟨.hbm, 82, rfl⟩
abbrev main_v57 : Ref sig .tc := ⟨.hbm, 83, rfl⟩
abbrev main_v58 : Ref sig .tc := ⟨.hbm, 84, rfl⟩
abbrev main_cst_10 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_11 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_12 : Ref sig .tc := ⟨.hbm, 93, rfl⟩
abbrev main_call2_v0 : Ref sig .tc := ⟨.hbm, 94, rfl⟩
abbrev main_call2_v1 : Ref sig .tc := ⟨.hbm, 95, rfl⟩
abbrev main_v65 : Ref sig .tc := ⟨.hbm, 96, rfl⟩
abbrev main_c_13 : Ref sig .tc := ⟨.hbm, 97, rfl⟩
abbrev main_v66 : Ref sig .tc := ⟨.hbm, 98, rfl⟩
abbrev main_v67 : Ref sig .tc := ⟨.hbm, 99, rfl⟩
abbrev main_c_14 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_c_15 : Ref sig .tc := ⟨.hbm, 107, rfl⟩
abbrev main_v74 : Ref sig .tc := ⟨.hbm, 108, rfl⟩
abbrev main_v75 : Ref sig .tc := ⟨.hbm, 109, rfl⟩
abbrev main_c_16 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_c_17 : Ref sig .tc := ⟨.hbm, 118, rfl⟩
abbrev main_v83 : Ref sig .tc := ⟨.hbm, 119, rfl⟩
abbrev main_v84 : Ref sig .tc := ⟨.hbm, 120, rfl⟩
abbrev main_c_18 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_19 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_call3_cst : Ref sig .tc := ⟨.hbm, 137, rfl⟩
abbrev main_call3_v0 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_call4_cst : Ref sig .tc := ⟨.hbm, 144, rfl⟩
abbrev main_call4_v0 : Ref sig .tc := ⟨.hbm, 145, rfl⟩
abbrev main_call4_cst_0 : Ref sig .tc := ⟨.hbm, 146, rfl⟩
abbrev main_call4_v1 : Ref sig .tc := ⟨.hbm, 147, rfl⟩
abbrev main_call4_v2 : Ref sig .tc := ⟨.hbm, 148, rfl⟩
abbrev main_call4_v3 : Ref sig .tc := ⟨.hbm, 149, rfl⟩
abbrev main_call4_v4 : Ref sig .tc := ⟨.hbm, 150, rfl⟩
abbrev main_call4_v5 : Ref sig .tc := ⟨.hbm, 151, rfl⟩
abbrev main_call4_v6 : Ref sig .tc := ⟨.hbm, 152, rfl⟩
abbrev main_call4_cst_1 : Ref sig .tc := ⟨.hbm, 153, rfl⟩
abbrev main_call4_v7 : Ref sig .tc := ⟨.hbm, 154, rfl⟩
abbrev main_call4_v8 : Ref sig .tc := ⟨.hbm, 155, rfl⟩
abbrev main_call4_v9 : Ref sig .tc := ⟨.hbm, 156, rfl⟩
abbrev main_call4_v10 : Ref sig .tc := ⟨.hbm, 157, rfl⟩
abbrev main_v104 : Ref sig .tc := ⟨.hbm, 158, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  concatenates_S1000000_S100000_S1100000_d0 : Shape.Concatenates [S1000000, S100000] S1100000 0
  bcast_S_S100000 : S_.BroadcastsInDim S100000 (![] : Fin 0 → Fin S100000.rank)
  bcast_S1100000_S1100000x1_0 : S1100000.BroadcastsInDim S1100000x1 (![0] : Fin 1 → Fin S1100000x1.rank)
  bcast_S_S1100000 : S_.BroadcastsInDim S1100000 (![] : Fin 0 → Fin S1100000.rank)
  bcast_S1100000x1_S1100000x128_0_1 : S1100000x1.BroadcastsInDim S1100000x128 (![0, 1] : Fin 2 → Fin S1100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S100000x128_S128x128_S100000x128_1_0_0_1_n_n_wf : DotDims.WF S100000x128 S128x128 S100000x128 [1] [0] [0] [1] [] []
  gather_S100000x128_S1100000x1_S1100000x128_1_0_n_n_0_1_1128_wf : GatherDims.WF S100000x128 S1100000x1 S1100000x128 [1] [0] [] [0] [] 1 ![1, 128]
  scatter_S100000x128_S1100000x1_S1100000x128_1_0_0_1_wf : ScatterDims.WF S100000x128 S1100000x1 S1100000x128 [1] [0] [0] 1
  dot_S100000x128_S128x64_S100000x64_1_0_0_1_n_n_wf : DotDims.WF S100000x128 S128x64 S100000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S100000x64_S64x16_S100000x16_1_0_0_1_n_n_wf : DotDims.WF S100000x64 S64x16 S100000x16 [1] [0] [0] [1] [] []

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1100000x1_S1100000x128_1_0_n_n_0_1_1128 : GatherDims S100000x128 S1100000x1 S1100000x128 where
  offsetDims := [1]
  collapsedSliceDims := [0]
  operandBatchingDims := []
  startIndicesBatchingDims := []
  startIndexMap := [0]
  indexVectorDim := 1
  sliceSizes := ![1, 128]
  wf := gather_S100000x128_S1100000x1_S1100000x128_1_0_n_n_0_1_1128_wf
def scatter_S100000x128_S1100000x1_S1100000x128_1_0_0_1 : ScatterDims S100000x128 S1100000x1 S1100000x128 where
  updateWindowDims := [1]
  insertedWindowDims := [0]
  scatterDimsToOperandDims := [0]
  indexVectorDim := 1
  wf := scatter_S100000x128_S1100000x1_S1100000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.KernelRun.lean ====
/-
  The kernel program's run with its RESULT named.

  The program is five kernel launches among stretches of host operations.  Its generated frame certificate runs
  that chain of segments from the launch memory and keeps, at every segment boundary, the contents of every
  buffer (the fold `W0 … W12` through the program); the frame claim then reads only the argument arrays off the
  last boundary.  Here the same run is read at the result buffer as well: after the last launch it holds what the
  fold's last stage `W12` holds there.
-/
import proofs.«167953_j30932354465858_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at the
    last boundary's contents and the argument arrays as launched: the segments' run, the last thread state read
    against the final memory at the result buffer and at each argument. -/
theorem run_named : θ_run defs (onTc (τ := τ) (main (F := F))) ⟨m, fun _ => 0, ρ⟩ (fun r => ∀ c : Dev nD,
      r.2.mem ((c.tc : Thread nD τ).loc main_v97) = W12 m ρ c (Proc.devRef .tc main_v97)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v97 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c)⟩)

end Cert.KernelIdeal.Named

end
-- ==== Proof.Spec.lean ====
/-
  The network as ONE function of its arguments, layer by layer, written over whole arrays.

  A graph-convolution layer is  relu (Agg (h · W) + b):  a dense product with the weight matrix, then the
  aggregation  Agg  over the edges with a self-loop added at every node (each row of the product gathered at an
  edge's source, scaled by the edge's symmetric normalisation  d(src)^(-1/2) · w · d(dst)^(-1/2),  d  the weighted
  in-degree, and summed into the edge's target row), then the bias and the rectifier.  Two such layers are followed
  by a dense layer into the 16 classes and a row-wise log-softmax  l - max l - log (sum (exp (l - max l))).

  Every stage below is a composition of the reference program's own operations on ABSTRACT input arrays, so that
  what the reference program computes is the composition by unfolding alone, and each stage can be compared
  separately with what one kernel region, or one stretch of host operations of the kernel program, computes.
-/
import proofs.«167953_j30932354465858_1_alg».proof.Proof.Gen.ReferenceIdeal

noncomputable section

namespace Cert.Gcn

open Cert.ReferenceIdeal Cert.ReferenceIdeal.Gen Idealize.ShloMosaic Idealize.ShloMosaic.TcCoe

variable {F : FTy → Type} [FloatOps F]

/-- An array of floats of a literal shape. -/
abbrev Arr (F : FTy → Type) [FloatOps F] (S : Shape) : Type := (⟨S, .f32⟩ : BufTy).Contents (Elt F)
/-- An array of 32-bit integers of a literal shape. -/
abbrev IArr (F : FTy → Type) [FloatOps F] (S : Shape) : Type := (⟨S, .i32⟩ : BufTy).Contents (Elt F)
/-- The edge list: row 0 the sources, row 1 the targets. -/
abbrev Edges (F : FTy → Type) [FloatOps F] : Type := IArr F S2x1000000

/-! ## The edges with self-loops, and their normalisation -/

/-- The sources of the edges, then every node once (its self-loop). -/
def srcs (e : Edges F) : IArr F S1100000 :=
  concatenate S1100000 0 [⟨S1000000, (shapeCast _ (extractStridedSlice S1x1000000 ![0, 0] e slices_S2x1000000_S1x1000000_0_0) shapeCasts_S1x1000000_S1000000)⟩, ⟨S100000, (iotaInDim S100000 32 0)⟩] concatenates_S1000000_S100000_S1100000_d0

/-- The targets of the edges, then every node once. -/
def dsts (e : Edges F) : IArr F S1100000 :=
  concatenate S1100000 0 [⟨S1000000, (shapeCast _ (extractStridedSlice S1x1000000 ![1, 0] e slices_S2x1000000_S1x1000000_1_0) shapeCasts_S1x1000000_S1000000)⟩, ⟨S100000, (iotaInDim S100000 32 0)⟩] concatenates_S1000000_S100000_S1100000_d0

/-- The edge weights, then weight one for every self-loop. -/
def weights (ew : Arr F S1000000) : Arr F S1100000 :=
  concatenate S1100000 0 [⟨S1000000, ew⟩, ⟨S100000, (broadcastInDim S100000 ![] bcast_S_S100000 (constant S_ .f32 0x3F800000#32))⟩] concatenates_S1000000_S100000_S1100000_d0

/-- An index list as the one-column index array a gather or a scatter takes. -/
def asColumn (v : IArr F S1100000) : IArr F S1100000x1 :=
  broadcastInDim S1100000x1 ![0] bcast_S1100000_S1100000x1_0 v

/-- A node's weighted in-degree: the weights summed into their targets from zero. -/
def degree (e : Edges F) (ew : Arr F S1000000) : Arr F S100000 :=
  Host.scatterAdd scatter_S100000_S1100000x1_S1100000_n_0_0_1 (broadcastInDim S100000 ![] bcast_S_S100000 (constant S_ .f32 0x00000000#32))
    (asColumn (dsts e)) (weights ew)

/-- d^(-1/2)  where the degree is positive, zero elsewhere. -/
def invSqrtDegree (e : Edges F) (ew : Arr F S1000000) : Arr F S100000 :=
  select (cmpf .ogt (degree e ew) (broadcastInDim S100000 ![] bcast_S_S100000 (constant S_ .f32 0x00000000#32)))
    (Host.rsqrt (degree e ew)) (broadcastInDim S100000 ![] bcast_S_S100000 (id (constant S_ .f32 0x00000000#32)))

/-- A node index as a gather takes it: a negative one counted from the end. -/
def wrapped (v : IArr F S1100000) : IArr F S1100000 :=
  select (cmpi .slt v (broadcastInDim S1100000 ![] bcast_S_S1100000 (constantI S_ 32 0#32)))
    (addi v (broadcastInDim S1100000 ![] bcast_S_S1100000 (constantI S_ 32 100000#32))) v

/-- An edge's normalisation  d(src)^(-1/2) · w · d(dst)^(-1/2). -/
def norm (e : Edges F) (ew : Arr F S1000000) : Arr F S1100000 :=
  mulf (mulf (Host.gather gather_S100000_S1100000x1_S1100000_n_0_n_n_0_1_1 (invSqrtDegree e ew) (asColumn (wrapped (srcs e)))) (weights ew))
    (Host.gather gather_S100000_S1100000x1_S1100000_n_0_n_n_0_1_1 (invSqrtDegree e ew) (asColumn (wrapped (dsts e))))

/-- The normalisations as a column. -/
def normColumn (e : Edges F) (ew : Arr F S1000000) : Arr F S1100000x1 :=
  broadcastInDim S1100000x1 ![0] bcast_S1100000_S1100000x1_0 (norm e ew)

/-! ## Layer 1 -/

/-- Layer 1's dense product  x · W1. -/
def lin1 (x : Arr F S100000x128) (w : Arr F S128x128) : Arr F S100000x128 :=
  Host.dotGeneral dot_S100000x128_S128x128_S100000x128_1_0_0_1_n_n none x w

/-- Layer 1's aggregation of a node-feature array  h  over the edges: rows of  h  gathered at the sources,
    scaled by the edges' normalisations, summed into the target rows from zero. -/
def agg1 (h : Arr F S100000x128) (e : Edges F) (ew : Arr F S1000000) : Arr F S100000x128 :=
  Host.scatterAdd scatter_S100000x128_S1100000x1_S1100000x128_1_0_0_1 (broadcastInDim S100000x128 ![] bcast_S_S100000x128 (constant S_ .f32 0x00000000#32))
    (asColumn (dsts e))
    (mulf (Host.gather gather_S100000x128_S1100000x1_S1100000x128_1_0_n_n_0_1_1128 h (asColumn (wrapped (srcs e))))
      (broadcastInDim S1100000x128 ![0, 1] bcast_S1100000x1_S1100000x128_0_1 (normColumn e ew)))

/-- Layer 1's bias and rectifier:  max (a + b, 0),  the bias laid along every row. -/
def act1 (a : Arr F S100000x128) (b : Arr F S128) : Arr F S100000x128 :=
  maximumf (addf a (broadcastInDim S100000x128 ![0, 1] bcast_S1x128_S100000x128_0_1 (broadcastInDim S1x128 ![1] bcast_S128_S1x128_1 b)))
    (broadcastInDim S100000x128 ![] bcast_S_S100000x128 (constant S_ .f32 0x00000000#32))

/-! ## Layer 2 -/

/-- Layer 2's dense product  h · W2. -/
def lin2 (h : Arr F S100000x128) (w : Arr F S128x64) : Arr F S100000x64 :=
  Host.dotGeneral dot_S100000x128_S128x64_S100000x64_1_0_0_1_n_n none h w

/-- Layer 2's aggregation (the same edges and normalisations, 64 features). -/
def agg2 (h : Arr F S100000x64) (e : Edges F) (ew : Arr F S1000000) : Arr F S100000x64 :=
  Host.scatterAdd scatter_S100000x64_S1100000x1_S1100000x64_1_0_0_1 (broadcastInDim S100000x64 ![] bcast_S_S100000x64 (constant S_ .f32 0x00000000#32))
    (asColumn (dsts e))
    (mulf (Host.gather gather_S100000x64_S1100000x1_S1100000x64_1_0_n_n_0_1_164 h (asColumn (wrapped (srcs e))))
      (broadcastInDim S1100000x64 ![0, 1] bcast_S1100000x1_S1100000x64_0_1 (normColumn e ew)))

/-- Layer 2's bias and rectifier. -/
def act2 (a : Arr F S100000x64) (b : Arr F S64) : Arr F S100000x64 :=
  maximumf (addf a (broadcastInDim S100000x64 ![0, 1] bcast_S1x64_S100000x64_0_1 (broadcastInDim S1x64 ![1] bcast_S64_S1x64_1 b)))
    (broadcastInDim S100000x64 ![] bcast_S_S100000x64 (constant S_ .f32 0x00000000#32))

/-! ## The output layer -/

/-- The class scores  h · W3 + b3. -/
def logits (h : Arr F S100000x64) (w : Arr F S64x16) (b : Arr F S16) : Arr F S100000x16 :=
  addf (Host.dotGeneral dot_S100000x64_S64x16_S100000x16_1_0_0_1_n_n none h w)
    (broadcastInDim S100000x16 ![0, 1] bcast_S1x16_S100000x16_0_1 (broadcastInDim S1x16 ![1] bcast_S16_S1x16_1 b))

/-- Each row's largest score (the fold of max from  -inf,  joined once more with  -inf). -/
def rowMax (l : Arr F S100000x16) : Arr F S100000 :=
  maximumf (broadcastInDim S100000 ![] bcast_S_S100000 (constant S_ .f32 0xFF800000#32))
    (Host.reduce FloatOps.maximumf l (constant S_ .f32 0xFF800000#32) reducesTo_S100000x16_S100000_d1 h_S_)

/-- The scores less their row's largest. -/
def shifted (l : Arr F S100000x16) : Arr F S100000x16 :=
  subf l (broadcastInDim S100000x16 ![0, 1] bcast_S100000x1_S100000x16_0_1
    (broadcastInDim S100000x1 ![0] bcast_S100000_S100000x1_0 (rowMax l)))

/-- Each row's  log (sum exp),  as a column. -/
def logSumExp (s : Arr F S100000x16) : Arr F S100000x1 :=
  Host.log (broadcastInDim S100000x1 ![0] bcast_S100000_S100000x1_0
    (Host.reduceAdd (Host.exp s) (constant S_ .f32 0x00000000#32) reducesTo_S100000x16_S100000_d1 h_S_))

/-- The row-wise log-softmax. -/
def logSoftmax (l : Arr F S100000x16) : Arr F S100000x16 :=
  subf (shifted l) (broadcastInDim S100000x16 ![0, 1] bcast_S100000x1_S100000x16_0_1 (logSumExp (shifted l)))

/-- The output layer: the class scores' log-softmax. -/
def outLayer (h : Arr F S100000x64) (w : Arr F S64x16) (b : Arr F S16) : Arr F S100000x16 :=
  logSoftmax (logits h w b)

/-! ## The network -/

/-- The first layer:  relu (Agg (x · W1) + b1). -/
def layer1 (x : Arr F S100000x128) (e : Edges F) (ew : Arr F S1000000) (w1 : Arr F S128x128) (b1 : Arr F S128) : Arr F S100000x128 :=
  act1 (agg1 (lin1 x w1) e ew) b1

/-- The second layer:  relu (Agg (h · W2) + b2). -/
def layer2 (h : Arr F S100000x128) (e : Edges F) (ew : Arr F S1000000) (w2 : Arr F S128x64) (b2 : Arr F S64) : Arr F S100000x64 :=
  act2 (agg2 (lin2 h w2) e ew) b2

/-- The whole network. -/
def net (x : Arr F S100000x128) (e : Edges F) (ew : Arr F S1000000) (w1 : Arr F S128x128) (b1 : Arr F S128)
    (w2 : Arr F S128x64) (b2 : Arr F S64) (w3 : Arr F S64x16) (b3 : Arr F S16) : Arr F S100000x16 :=
  outLayer (layer2 (layer1 x e ew w1 b1) e ew w2 b2) w3 b3

end Cert.Gcn

end
-- ==== Proof.KernelHost.lean ====
/-
  The kernel program's host operations, stretch by stretch.

  Between its launches the kernel program runs on the host exactly what the reference runs there: the edges with
  self-loops and their normalisation, the gather of the previous launch's output at the sources, the scaling, and
  the sum into the targets; and it reshapes each bias vector to the one-row matrix a launch takes.  From ANY buffer
  contents, the fold through a stretch leaves the aggregated array at the network's aggregation stage of the
  buffers the stretch reads, and writes no argument.
-/
import proofs.«167953_j30932354465858_1_alg».proof.Proof.Gen.KernelIdeal.Frame
import proofs.«167953_j30932354465858_1_alg».proof.Proof.Spec
import Idealize.ShloMosaic.Lib.StableHlo.Run

noncomputable section

namespace Cert.KernelIdeal.Stretch

open Cert.KernelIdeal Cert.KernelIdeal.Gen Idealize.ShloMosaic Idealize.ShloMosaic.TcCoe Idealize.SL.Sem Idealize.ShloMosaic.StableHlo

variable {F : FTy → Type} [FloatOps F]
variable (W : Valuation τ sig (Elt F))

set_option maxRecDepth 65536 in
set_option maxHeartbeats 4000000 in
/-- The host operations between the first and the second launch aggregate the first launch's output. -/
theorem first_agg : after hostOps1_2 (after hostOps1_1 (after hostOps1 W)) (Proc.devRef .tc main_v45)
    = Cert.Gcn.agg1 (W (Proc.devRef .tc main_v0)) (W (Proc.devRef .tc main_arg1)) (W (Proc.devRef .tc main_arg2)) := by
  after_results_simp
  rfl

set_option maxRecDepth 65536 in
set_option maxHeartbeats 4000000 in
/-- and lay the first bias vector out as one row. -/
theorem first_bias : after hostOps1_2 (after hostOps1_1 (after hostOps1 W)) (Proc.devRef .tc main_v46)
    = shapeCast S1x128 (W (Proc.devRef .tc main_arg5)) shapeCasts_S128_S1x128 := by
  after_results_simp
  rfl

set_option maxRecDepth 65536 in
set_option maxHeartbeats 4000000 in
/-- The host operations between the third and the fourth launch aggregate the third launch's output. -/
theorem second_agg : after hostOps3_2 (after hostOps3_1 (after hostOps3 W)) (Proc.devRef .tc main_v93)
    = Cert.Gcn.agg2 (W (Proc.devRef .tc main_v48)) (W (Proc.devRef .tc main_arg1)) (W (Proc.devRef .tc main_arg2)) := by
  after_results_simp
  rfl

set_option maxRecDepth 65536 in
set_option maxHeartbeats 4000000 in
/-- and lay the second bias vector out as one row. -/
theorem second_bias : after hostOps3_2 (after hostOps3_1 (after hostOps3 W)) (Proc.devRef .tc main_v94)
    = shapeCast S1x64 (W (Proc.devRef .tc main_arg7)) shapeCasts_S64_S1x64 := by
  after_results_simp
  rfl

/-- The one host operation before the last launch lays the third bias vector out as one row. -/
theorem third_bias : after hostOps4 W (Proc.devRef .tc main_v96)
    = shapeCast S1x16 (W (Proc.devRef .tc main_arg9)) shapeCasts_S16_S1x16 := by
  after_results_simp
  rfl

/-! ## What the stretches leave alone -/

section Keeps
set_option maxRecDepth 65536
set_option maxHeartbeats 4000000
theorem first_keeps_main_arg1 : after hostOps1_2 (after hostOps1_1 (after hostOps1 W)) (Proc.devRef .tc main_arg1) = W (Proc.devRef .tc main_arg1) := by
  after_results_simp
theorem first_keeps_main_arg2 : after hostOps1_2 (after hostOps1_1 (after hostOps1 W)) (Proc.devRef .tc main_arg2) = W (Proc.devRef .tc main_arg2) := by
  after_results_simp
theorem first_keeps_main_arg6 : after hostOps1_2 (after hostOps1_1 (after hostOps1 W)) (Proc.devRef .tc main_arg6) = W (Proc.devRef .tc main_arg6) := by
  after_results_simp
theorem first_keeps_main_arg7 : after hostOps1_2 (after hostOps1_1 (after hostOps1 W)) (Proc.devRef .tc main_arg7) = W (Proc.devRef .tc main_arg7) := by
  after_results_simp
theorem first_keeps_main_arg8 : after hostOps1_2 (after hostOps1_1 (after hostOps1 W)) (Proc.devRef .tc main_arg8) = W (Proc.devRef .tc main_arg8) := by
  after_results_simp
theorem first_keeps_main_arg9 : after hostOps1_2 (after hostOps1_1 (after hostOps1 W)) (Proc.devRef .tc main_arg9) = W (Proc.devRef .tc main_arg9) := by
  after_results_simp
theorem second_keeps_main_arg8 : after hostOps3_2 (after hostOps3_1 (after hostOps3 W)) (Proc.devRef .tc main_arg8) = W (Proc.devRef .tc main_arg8) := by
  after_results_simp
theorem second_keeps_main_arg9 : after hostOps3_2 (after hostOps3_1 (after hostOps3 W)) (Proc.devRef .tc main_arg9) = W (Proc.devRef .tc main_arg9) := by
  after_results_simp
theorem third_keeps_main_arg8 : after hostOps4 W (Proc.devRef .tc main_arg8) = W (Proc.devRef .tc main_arg8) := by
  after_results_simp
theorem third_keeps_main_v95 : after hostOps4 W (Proc.devRef .tc main_v95) = W (Proc.devRef .tc main_v95) := by
  after_results_simp
end Keeps

end Cert.KernelIdeal.Stretch

end
-- ==== Proof.Lin1.lean ====
/-
  The first layer's dense product  x · W1  as the kernel computes it.

  A kernel region computes the product a block of 10000 rows at a time: point `t` of its grid of ten loads rows
  10000·t … 10000·t + 9999 of the left operand and the whole weight matrix, multiplies them on the matrix unit into
  a zero accumulator, and writes the block of the product back to the same rows.  At the exact values every entry of
  that block is  Σ_k x(row, k) · w(k, col)  over the 128 contraction positions, which is the entry of the whole
  product; the ten blocks cover the array, so after the region the output array IS the whole product.
-/
import proofs.«167953_j30932354465858_1_alg».proof.Proof.Gen.KernelIdeal.Frame
import proofs.«167953_j30932354465858_1_alg».proof.Proof.Spec
import Idealize.ShloMosaic.Lib.ValueIdx
import Idealize.ShloMosaic.Lib.Pipeline.Value
import Idealize.ShloMosaic.Lib.KernelVsHost
import Idealize.ShloMosaic.PureOps.Ideal.Laws

set_option maxRecDepth 16384

noncomputable section

open Idealize.ShloMosaic Idealize.ShloMosaic.TcCoe Idealize.SL.Sem
open Idealize.ShloMosaic.Pipeline (Dat)

/-! ## A matrix product's entry as a sum over the contraction index -/

namespace Cert.Gcn.lin1Whole

open Cert.ReferenceIdeal Cert.ReferenceIdeal.Gen

/-- In the product's record the left operand's row is the output's row. -/
theorem prod_lhs_row (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
/-- The left operand's column is the contraction index. -/
theorem prod_lhs_col (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
/-- The right operand's row is the contraction index. -/
theorem prod_rhs_row (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
/-- The right operand's column is the output's column. -/
theorem prod_rhs_col (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl
/-- Entry (row of `i`, `k`) of the left operand. -/
abbrev prod_l (i : S100000x128.Idx) (k : Fin 128) : S100000x128.Idx := fun a => match a with
  | ⟨0, _⟩ => ⟨(i 0).val, (i 0).isLt⟩
  | ⟨1, _⟩ => ⟨k.val, k.isLt⟩
/-- Entry (`k`, column of `i`) of the right operand. -/
abbrev prod_r (i : S100000x128.Idx) (k : Fin 128) : S128x128.Idx := fun a => match a with
  | ⟨0, _⟩ => ⟨k.val, k.isLt⟩
  | ⟨1, _⟩ => ⟨(i 1).val, (i 1).isLt⟩
/-- The whole product at an index: the sum over the contraction index of the operands' products. -/
theorem prod_apply (l : FVec Ideal S100000x128 .f32) (r : FVec Ideal S128x128 .f32) (i : S100000x128.Idx) :
    Host.dotGeneral (F := Ideal) dot_S100000x128_S128x128_S100000x128_1_0_0_1_n_n none l r i = ∑ k : Fin 128, l (prod_l i k) * r (prod_r i k) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx i ((ValueIdx.contrEquiv1 dot_S100000x128_S128x128_S100000x128_1_0_0_1_n_n 128 rfl rfl).symm k) = prod_l i k := funext fun a => Fin.ext (by
    match a with
    | ⟨0, _⟩ => exact prod_lhs_row _ _
    | ⟨1, _⟩ => exact (prod_lhs_col _ _).trans hk)
  have er : dot_S100000x128_S128x128_S100000x128_1_0_0_1_n_n.rhsIdx i ((ValueIdx.contrEquiv1 dot_S100000x128_S128x128_S100000x128_1_0_0_1_n_n 128 rfl rfl).symm k) = prod_r i k := funext fun a => Fin.ext (by
    match a with
    | ⟨0, _⟩ => exact (prod_rhs_row _ _).trans hk
    | ⟨1, _⟩ => exact prod_rhs_col _ _)
  rw [el, er]

end Cert.Gcn.lin1Whole

namespace Cert.Gcn.lin1Block

open Cert.KernelIdeal Cert.KernelIdeal.Gen

/-- In the product's record the left operand's row is the output's row. -/
theorem prod_lhs_row (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- The left operand's column is the contraction index. -/
theorem prod_lhs_col (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- The right operand's row is the contraction index. -/
theorem prod_rhs_row (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- The right operand's column is the output's column. -/
theorem prod_rhs_col (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl
/-- Entry (row of `i`, `k`) of the left operand. -/
abbrev prod_l (i : S10000x128.Idx) (k : Fin 128) : S10000x128.Idx := fun a => match a with
  | ⟨0, _⟩ => ⟨(i 0).val, (i 0).isLt⟩
  | ⟨1, _⟩ => ⟨k.val, k.isLt⟩
/-- Entry (`k`, column of `i`) of the right operand. -/
abbrev prod_r (i : S10000x128.Idx) (k : Fin 128) : S128x128.Idx := fun a => match a with
  | ⟨0, _⟩ => ⟨k.val, k.isLt⟩
  | ⟨1, _⟩ => ⟨(i 1).val, (i 1).isLt⟩
/-- A block's product at an index: the sum over the contraction index of the operands' products. -/
theorem prod_apply (l : FVec Ideal S10000x128 .f32) (r : FVec Ideal S128x128 .f32) (i : S10000x128.Idx) :
    Host.dotGeneral (F := Ideal) dot_S10000x128_S128x128_S10000x128_1_0_0_1_n_n none l r i = ∑ k : Fin 128, l (prod_l i k) * r (prod_r i k) := by
  simp only [Host.dotGeneral]
  rw [Ideal.dotGeneral_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx i ((ValueIdx.contrEquiv1 dot_S10000x128_S128x128_S10000x128_1_0_0_1_n_n 128 rfl rfl).symm k) = prod_l i k := funext fun a => Fin.ext (by
    match a with
    | ⟨0, _⟩ => exact prod_lhs_row _ _
    | ⟨1, _⟩ => exact (prod_lhs_col _ _).trans hk)
  have er : dot_S10000x128_S128x128_S10000x128_1_0_0_1_n_n.rhsIdx i ((ValueIdx.contrEquiv1 dot_S10000x128_S128x128_S10000x128_1_0_0_1_n_n 128 rfl rfl).symm k) = prod_r i k := funext fun a => Fin.ext (by
    match a with
    | ⟨0, _⟩ => exact (prod_rhs_row _ _).trans hk
    | ⟨1, _⟩ => exact prod_rhs_col _ _)
  rw [el, er]

/-- The region's payload is the product of its two loaded blocks: a change of float format is the identity at the
    exact values, and the matrix unit's product into a zero accumulator is the plain product. -/
theorem payload_eq (x0 : Vec Ideal S10000x128 .f32) (x1 : Vec Ideal S128x128 .f32) :
    k0_pay1 (F := Ideal) x0 x1 = Host.dotGeneral (F := Ideal) (φ₁ := .f32) (φ₂ := .f32) dot_S10000x128_S128x128_S10000x128_1_0_0_1_n_n none x0 x1 := by
  unfold k0_pay1
  exact matmul_zero_eq_dotGeneral dot_S10000x128_S128x128_S10000x128_1_0_0_1_n_n none _ _

/-! ## From the blocks to the array -/

variable (V : (c : Dev nD) → (b : Ref sig .tc) → Buf (Elt Ideal) ((c : Thread nD τ).loc b))

theorem origin_eq : (![0, 0] : Fin 2 → Nat) = fun _ => 0 := funext fun a => by fin_cases a <;> rfl

/-- The index maps over the grid: the left operand's and the output's blocks are block row `t`, block column 0;
    the weight matrix is one block. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the arrays the region finds. -/
theorem flushed_eq (c : Dev nD) (t : Fin cfg0.N) :
    (dat0 V c).flushed 2 t = ((cfg0.win 2).blk t).view.read (Elt Ideal) (Cert.Gcn.lin1 (V c main_arg0) (V c main_arg4)) := by
  show (cfg0.win 2).cut (grid0.coords t) ((dat0 V c).after 2 t) = _
  rw [after0_2]
  unfold out0_2
  rw [View.canon_unit_zero origin_eq]
  simp only [View.ld_unit_zero (S := S10000x128) origin_eq, View.ld_unit_zero (S := S128x128) origin_eq]
  rw [payload_eq (iblk0 V c 0 t) (iblk0 V c 1 t)]
  obtain ⟨e0, e1, e2, e3, e4, e5⟩ := index_maps t
  funext y
  have hy0 : (y 0).val < 10000 := (y 0).isLt
  have hy1 : (y 1).val < 128 := (y 1).isLt
  refine (prod_apply (iblk0 V c 0 t) (iblk0 V c 1 t) y).trans (Eq.symm ?_)
  refine (Cert.Gcn.lin1Whole.prod_apply (V c main_arg0) (V c main_arg4) (((cfg0.win 2).blk t).view.emb y)).trans ?_
  refine Finset.sum_congr rfl fun k _ => ?_
  have hk : k.val < 128 := k.isLt
  have hl : Cert.Gcn.lin1Whole.prod_l (((cfg0.win 2).blk t).view.emb y) k = ((cfg0.win 0).blk t).view.emb (prod_l y k) := by
    funext a; apply Fin.ext
    match a with
    | ⟨0, _⟩ => show win0_2.index t (0 : Fin 2) * 10000 + 1 * (y 0).val = win0_0.index t (0 : Fin 2) * 10000 + 1 * (y 0).val; omega
    | ⟨1, _⟩ => show k.val = win0_0.index t (1 : Fin 2) * 128 + 1 * k.val; omega
  have hr : Cert.Gcn.lin1Whole.prod_r (((cfg0.win 2).blk t).view.emb y) k = ((cfg0.win 1).blk t).view.emb (prod_r y k) := by
    funext a; apply Fin.ext
    match a with
    | ⟨0, _⟩ => show k.val = win0_1.index t (0 : Fin 2) * 128 + 1 * k.val; omega
    | ⟨1, _⟩ => show win0_2.index t (1 : Fin 2) * 128 + 1 * (y 1).val = win0_1.index t (1 : Fin 2) * 128 + 1 * (y 1).val; omega
  rw [hl, hr]
  rfl

/-- An index of the output array is in point `t`'s block iff each coordinate is in the block's range on its axis. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v0).slice (win0_2.rect t)).set ↔ _
  rw [View.set_slice_whole, Rect.mem_set_unit]
  exact Iff.rfl

/-- Every row of the output array lies in some point's block: row `r` in point `r / 10000`'s. -/
theorem covered (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  refine ⟨⟨(i 0).val / 10000, by rw [hN]; omega⟩, flush0_2 _, ?_⟩
  rw [mem_blk]
  obtain ⟨e0, e1, e2, e3, e4, e5⟩ := index_maps ⟨(i 0).val / 10000, by rw [hN]; omega⟩
  intro a
  match a with
  | ⟨0, _⟩ => show win0_2.index _ (0 : Fin 2) * 10000 ≤ (i 0).val ∧ (i 0).val < win0_2.index _ (0 : Fin 2) * 10000 + 10000; rw [e4]; show (i 0).val / 10000 * 10000 ≤ (i 0).val ∧ (i 0).val < (i 0).val / 10000 * 10000 + 10000; omega
  | ⟨1, _⟩ => show win0_2.index _ (1 : Fin 2) * 128 ≤ (i 1).val ∧ (i 1).val < win0_2.index _ (1 : Fin 2) * 128 + 128; rw [e5]; omega

end Cert.Gcn.lin1Block

namespace Cert.Gcn

open Cert.KernelIdeal Cert.KernelIdeal.Gen

/-- After the region its output array is the whole product of the two arrays it was entered with. -/
theorem lin1_region (V : (c : Dev nD) → (b : Ref sig .tc) → Buf (Elt Ideal) ((c : Thread nD τ).loc b)) (c : Dev nD) :
    (dat0 V c).arrAt 2 cfg0.N = lin1 (V c main_arg0) (V c main_arg4) :=
  (dat0 V c).arrAt_eq_of_cover 2 (lin1 (V c main_arg0) (V c main_arg4)) (fun t _ => lin1Block.flushed_eq V c t) lin1Block.covered

end Cert.Gcn

end
-- ==== Proof.Lin2.lean ====
/-
  The second layer's dense product  h · W2  as the kernel computes it.

  A kernel region computes the product a block of 10000 rows at a time: point `t` of its grid of ten loads rows
  10000·t … 10000·t + 9999 of the left operand and the whole weight matrix, multiplies them on the matrix unit into
  a zero accumulator, and writes the block of the product back to the same rows.  At the exact values every entry of
  that block is  Σ_k x(row, k) · w(k, col)  over the 128 contraction positions, which is the entry of the whole
  product; the ten blocks cover the array, so after the region the output array IS the whole product.
-/
import proofs.«167953_j30932354465858_1_alg».proof.Proof.Gen.KernelIdeal.Frame
import proofs.«167953_j30932354465858_1_alg».proof.Proof.Spec
import Idealize.ShloMosaic.Lib.ValueIdx
import Idealize.ShloMosaic.Lib.Pipeline.Value
import Idealize.ShloMosaic.Lib.KernelVsHost
import Idealize.ShloMosaic.PureOps.Ideal.Laws

set_option maxRecDepth 16384

noncomputable section

open Idealize.ShloMosaic Idealize.ShloMosaic.TcCoe Idealize.SL.Sem
open Idealize.ShloMosaic.Pipeline (Dat)

/-! ## A matrix product's entry as a sum over the contraction index -/

namespace Cert.Gcn.lin2Whole

open Cert.ReferenceIdeal Cert.ReferenceIdeal.Gen

/-- In the product's record the left operand's row is the output's row. -/
theorem prod_lhs_row (i : S100000x64.Idx) (q : dot_S100000x128_S128x64_S100000x64_1_0_0_1_n_n.contr.Idx) :
    (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
/-- The left operand's column is the contraction index. -/
theorem prod_lhs_col (i : S100000x64.Idx) (q : dot_S100000x128_S128x64_S100000x64_1_0_0_1_n_n.contr.Idx) :
    (dot_S100000x128_S128x64_S100000x64_1_0_0_1_n_n.lhsIdx i q 1).val = (q ⟨0, by decide⟩).val :=
  dot_S100000x128_S128x64_S100000x64_1_0_0_1_n_n.lhsIdx_val_of_single rfl i q
/-- The right operand's row is the contraction index. -/
theorem prod_rhs_row (i : S100000x64.Idx) (q : dot_S100000x128_S128x64_S100000x64_1_0_0_1_n_n.contr.Idx) :
    (dot_S100000x128_S128x64_S100000x64_1_0_0_1_n_n.rhsIdx i q 0).val = (q ⟨0, by decide⟩).val :=
  dot_S100000x128_S128x64_S100000x64_1_0_0_1_n_n.rhsIdx_val_of_single rfl i q
/-- The right operand's column is the output's column. -/
theorem prod_rhs_col (i : S100000x64.Idx) (q : dot_S100000x128_S128x64_S100000x64_1_0_0_1_n_n.contr.Idx) :
    (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl
/-- Entry (row of `i`, `k`) of the left operand. -/
abbrev prod_l (i : S100000x64.Idx) (k : Fin 128) : S100000x128.Idx := fun a => match a with
  | ⟨0, _⟩ => ⟨(i 0).val, (i 0).isLt⟩
  | ⟨1, _⟩ => ⟨k.val, k.isLt⟩
/-- Entry (`k`, column of `i`) of the right operand. -/
abbrev prod_r (i : S100000x64.Idx) (k : Fin 128) : S128x64.Idx := fun a => match a with
  | ⟨0, _⟩ => ⟨k.val, k.isLt⟩
  | ⟨1, _⟩ => ⟨(i 1).val, (i 1).isLt⟩
/-- The whole product at an index: the sum over the contraction index of the operands' products. -/
theorem prod_apply (l : FVec Ideal S100000x128 .f32) (r : FVec Ideal S128x64 .f32) (i : S100000x64.Idx) :
    Host.dotGeneral (F := Ideal) dot_S100000x128_S128x64_S100000x64_1_0_0_1_n_n none l r i = ∑ k : Fin 128, l (prod_l i k) * r (prod_r i k) := by
  simp only [Host.dotGeneral]
  rw [Ideal.dotGeneral_apply, ← Equiv.sum_comp (ValueIdx.contrEquiv1 dot_S100000x128_S128x64_S100000x64_1_0_0_1_n_n 128 rfl rfl).symm]
  refine Finset.sum_congr rfl fun k _ => ?_
  have hk := ValueIdx.contrEquiv1_symm_val dot_S100000x128_S128x64_S100000x64_1_0_0_1_n_n 128 rfl rfl k
  have el : dot_S100000x128_S128x64_S100000x64_1_0_0_1_n_n.lhsIdx i ((ValueIdx.contrEquiv1 dot_S100000x128_S128x64_S100000x64_1_0_0_1_n_n 128 rfl rfl).symm k) = prod_l i k := funext fun a => Fin.ext (by
    match a with
    | ⟨0, _⟩ => exact prod_lhs_row _ _
    | ⟨1, _⟩ => exact (prod_lhs_col _ _).trans hk)
  have er : dot_S100000x128_S128x64_S100000x64_1_0_0_1_n_n.rhsIdx i ((ValueIdx.contrEquiv1 dot_S100000x128_S128x64_S100000x64_1_0_0_1_n_n 128 rfl rfl).symm k) = prod_r i k := funext fun a => Fin.ext (by
    match a with
    | ⟨0, _⟩ => exact (prod_rhs_row _ _).trans hk
    | ⟨1, _⟩ => exact prod_rhs_col _ _)
  rw [el, er]

end Cert.Gcn.lin2Whole

namespace Cert.Gcn.lin2Block

open Cert.KernelIdeal Cert.KernelIdeal.Gen

/-- In the product's record the left operand's row is the output's row. -/
theorem prod_lhs_row (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
/-- The left operand's column is the contraction index. -/
theorem prod_lhs_col (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
/-- The right operand's row is the contraction index. -/
theorem prod_rhs_row (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
/-- The right operand's column is the output's column. -/
theorem prod_rhs_col (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl
/-- Entry (row of `i`, `k`) of the left operand. -/
abbrev prod_l (i : S10000x64.Idx) (k : Fin 128) : S10000x128.Idx := fun a => match a with
  | ⟨0, _⟩ => ⟨(i 0).val, (i 0).isLt⟩
  | ⟨1, _⟩ => ⟨k.val, k.isLt⟩
/-- Entry (`k`, column of `i`) of the right operand. -/
abbrev prod_r (i : S10000x64.Idx) (k : Fin 128) : S128x64.Idx := fun a => match a with
  | ⟨0, _⟩ => ⟨k.val, k.isLt⟩
  | ⟨1, _⟩ => ⟨(i 1).val, (i 1).isLt⟩
/-- A block's product at an index: the sum over the contraction index of the operands' products. -/
theorem prod_apply (l : FVec Ideal S10000x128 .f32) (r : FVec Ideal S128x64 .f32) (i : S10000x64.Idx) :
    Host.dotGeneral (F := Ideal) dot_S10000x128_S128x64_S10000x64_1_0_0_1_n_n none l r i = ∑ k : Fin 128, l (prod_l i k) * r (prod_r i k) := by
  simp only [Host.dotGeneral]
  rw [Ideal.dotGeneral_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx i ((ValueIdx.contrEquiv1 dot_S10000x128_S128x64_S10000x64_1_0_0_1_n_n 128 rfl rfl).symm k) = prod_l i k := funext fun a => Fin.ext (by
    match a with
    | ⟨0, _⟩ => exact prod_lhs_row _ _
    | ⟨1, _⟩ => exact (prod_lhs_col _ _).trans hk)
  have er : dot_S10000x128_S128x64_S10000x64_1_0_0_1_n_n.rhsIdx i ((ValueIdx.contrEquiv1 dot_S10000x128_S128x64_S10000x64_1_0_0_1_n_n 128 rfl rfl).symm k) = prod_r i k := funext fun a => Fin.ext (by
    match a with
    | ⟨0, _⟩ => exact (prod_rhs_row _ _).trans hk
    | ⟨1, _⟩ => exact prod_rhs_col _ _)
  rw [el, er]

/-- The region's payload is the product of its two loaded blocks: a change of float format is the identity at the
    exact values, a shape cast to the same shape likewise, and the matrix unit's product into a zero accumulator is the plain product. -/
theorem payload_eq (x0 : Vec Ideal S10000x128 .f32) (x1 : Vec Ideal S128x64 .f32) :
    k2_pay1 (F := Ideal) x0 x1 = Host.dotGeneral (F := Ideal) (φ₁ := .f32) (φ₂ := .f32) dot_S10000x128_S128x64_S10000x64_1_0_0_1_n_n none x0 x1 := by
  unfold k2_pay1
  rw [shapeCast_self]
  exact matmul_zero_eq_dotGeneral dot_S10000x128_S128x64_S10000x64_1_0_0_1_n_n none _ _

/-! ## From the blocks to the array -/

variable (V : (c : Dev nD) → (b : Ref sig .tc) → Buf (Elt Ideal) ((c : Thread nD τ).loc b))

theorem origin_eq : (![0, 0] : Fin 2 → Nat) = fun _ => 0 := funext fun a => by fin_cases a <;> rfl

/-- The index maps over the grid: the left operand's and the output's blocks are block row `t`, block column 0;
    the weight matrix is one block. -/
theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole product of the arrays the region finds. -/
theorem flushed_eq (c : Dev nD) (t : Fin cfg2.N) :
    (dat2 V c).flushed 2 t = ((cfg2.win 2).blk t).view.read (Elt Ideal) (Cert.Gcn.lin2 (V c main_v47) (V c main_arg6)) := by
  show (cfg2.win 2).cut (grid2.coords t) ((dat2 V c).after 2 t) = _
  rw [after2_2]
  unfold out2_2
  rw [View.canon_unit_zero origin_eq]
  simp only [View.ld_unit_zero (S := S10000x128) origin_eq, View.ld_unit_zero (S := S128x64) origin_eq]
  rw [payload_eq (iblk2 V c 0 t) (iblk2 V c 1 t)]
  obtain ⟨e0, e1, e2, e3, e4, e5⟩ := index_maps t
  funext y
  have hy0 : (y 0).val < 10000 := (y 0).isLt
  have hy1 : (y 1).val < 64 := (y 1).isLt
  refine (prod_apply (iblk2 V c 0 t) (iblk2 V c 1 t) y).trans (Eq.symm ?_)
  refine (Cert.Gcn.lin2Whole.prod_apply (V c main_v47) (V c main_arg6) (((cfg2.win 2).blk t).view.emb y)).trans ?_
  refine Finset.sum_congr rfl fun k _ => ?_
  have hk : k.val < 128 := k.isLt
  have hl : Cert.Gcn.lin2Whole.prod_l (((cfg2.win 2).blk t).view.emb y) k = ((cfg2.win 0).blk t).view.emb (prod_l y k) := by
    funext a; apply Fin.ext
    match a with
    | ⟨0, _⟩ => show win2_2.index t (0 : Fin 2) * 10000 + 1 * (y 0).val = win2_0.index t (0 : Fin 2) * 10000 + 1 * (y 0).val; omega
    | ⟨1, _⟩ => show k.val = win2_0.index t (1 : Fin 2) * 128 + 1 * k.val; omega
  have hr : Cert.Gcn.lin2Whole.prod_r (((cfg2.win 2).blk t).view.emb y) k = ((cfg2.win 1).blk t).view.emb (prod_r y k) := by
    funext a; apply Fin.ext
    match a with
    | ⟨0, _⟩ => show k.val = win2_1.index t (0 : Fin 2) * 128 + 1 * k.val; omega
    | ⟨1, _⟩ => show win2_2.index t (1 : Fin 2) * 64 + 1 * (y 1).val = win2_1.index t (1 : Fin 2) * 64 + 1 * (y 1).val; omega
  rw [hl, hr]
  rfl

/-- An index of the output array is in point `t`'s block iff each coordinate is in the block's range on its axis. -/
theorem mem_blk (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v48).slice (win2_2.rect t)).set ↔ _
  rw [View.set_slice_whole, Rect.mem_set_unit]
  exact Iff.rfl

/-- Every row of the output array lies in some point's block: row `r` in point `r / 10000`'s. -/
theorem covered (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := N_2
  refine ⟨⟨(i 0).val / 10000, by rw [hN]; omega⟩, flush2_2 _, ?_⟩
  rw [mem_blk]
  obtain ⟨e0, e1, e2, e3, e4, e5⟩ := index_maps ⟨(i 0).val / 10000, by rw [hN]; omega⟩
  intro a
  match a with
  | ⟨0, _⟩ => show win2_2.index _ (0 : Fin 2) * 10000 ≤ (i 0).val ∧ (i 0).val < win2_2.index _ (0 : Fin 2) * 10000 + 10000; rw [e4]; show (i 0).val / 10000 * 10000 ≤ (i 0).val ∧ (i 0).val < (i 0).val / 10000 * 10000 + 10000; omega
  | ⟨1, _⟩ => show win2_2.index _ (1 : Fin 2) * 64 ≤ (i 1).val ∧ (i 1).val < win2_2.index _ (1 : Fin 2) * 64 + 64; rw [e5]; omega

end Cert.Gcn.lin2Block

namespace Cert.Gcn

open Cert.KernelIdeal Cert.KernelIdeal.Gen

/-- After the region its output array is the whole product of the two arrays it was entered with. -/
theorem lin2_region (V : (c : Dev nD) → (b : Ref sig .tc) → Buf (Elt Ideal) ((c : Thread nD τ).loc b)) (c : Dev nD) :
    (dat2 V c).arrAt 2 cfg2.N = lin2 (V c main_v47) (V c main_arg6) :=
  (dat2 V c).arrAt_eq_of_cover 2 (lin2 (V c main_v47) (V c main_arg6)) (fun t _ => lin2Block.flushed_eq V c t) lin2Block.covered

end Cert.Gcn

end
-- ==== Proof.KernelValue.lean ====
/-
  What the kernel program leaves in its result buffer: the network of its arguments.

  The kernel program's run keeps the contents of every buffer at every boundary between its segments.  Walking
  that fold forward from the launch memory: the first launch leaves  x · W1;  the host operations aggregate it and
  lay the bias out as a row; the second launch adds the bias and rectifies; the third multiplies by W2; the host
  aggregates again; the fourth launch adds the second bias and rectifies; the last launch multiplies by W3, adds the
  third bias and takes the row-wise log-softmax.  No segment writes an argument array, so every stage reads the
  arguments as launched, and the composition is the network.
-/
import proofs.«167953_j30932354465858_1_alg».proof.Proof.KernelHost
import proofs.«167953_j30932354465858_1_alg».proof.Proof.Lin1
import proofs.«167953_j30932354465858_1_alg».proof.Proof.Lin2

set_option maxRecDepth 16384

noncomputable section

namespace Cert.KernelIdeal.Whole

open Cert.KernelIdeal Cert.KernelIdeal.Gen Idealize.ShloMosaic Idealize.ShloMosaic.TcCoe Idealize.SL.Sem

/-- Buffer contents at a launch's entry. -/
abbrev Entry : Type := (c : Dev nD) → (b : Ref sig .tc) → Buf (Elt Ideal) ((c : Thread nD τ).loc b)

variable (m : (ℓ : Loc nD τ sig) → Buf (Elt Ideal) ℓ) (ρ : Dev nD → PrngReg) (c : Dev nD)

/-- The result buffer after the last launch, given what the three launches with a bias do as whole-array
    functions (the two products are `lin1_region`, `lin2_region`). -/
theorem result_of_regions
    (hact1 : ∀ (V : Entry) (c : Dev nD) (bias : Cert.Gcn.Arr Ideal Cert.ReferenceIdeal.S128),
      V c main_v46 = shapeCast S1x128 bias shapeCasts_S128_S1x128 →
      (dat1 V c).arrAt 2 cfg1.N = Cert.Gcn.act1 (V c main_v45) bias)
    (hact2 : ∀ (V : Entry) (c : Dev nD) (bias : Cert.Gcn.Arr Ideal Cert.ReferenceIdeal.S64),
      V c main_v94 = shapeCast S1x64 bias shapeCasts_S64_S1x64 →
      (dat3 V c).arrAt 2 cfg3.N = Cert.Gcn.act2 (V c main_v93) bias)
    (hout : ∀ (V : Entry) (c : Dev nD) (bias : Cert.Gcn.Arr Ideal Cert.ReferenceIdeal.S16),
      V c main_v96 = shapeCast S1x16 bias shapeCasts_S16_S1x16 →
      (dat4 V c).arrAt 3 cfg4.N = Cert.Gcn.outLayer (V c main_v95) (V c main_arg8) bias) :
    W12 m ρ c (Proc.devRef .tc main_v97)
      = Cert.Gcn.net (m ((c : Thread nD τ).loc main_arg0)) (m ((c : Thread nD τ).loc main_arg1)) (m ((c : Thread nD τ).loc main_arg2)) (m ((c : Thread nD τ).loc main_arg4)) (m ((c : Thread nD τ).loc main_arg5))
          (m ((c : Thread nD τ).loc main_arg6)) (m ((c : Thread nD τ).loc main_arg7)) (m ((c : Thread nD τ).loc main_arg8)) (m ((c : Thread nD τ).loc main_arg9)) := by
  -- the arguments, boundary by boundary: no launch and no host operation writes one
  have w1_1 : W1 m ρ c (Proc.devRef .tc main_arg1) = m ((c : Thread nD τ).loc main_arg1) := W1_of_ne m ρ c main_arg1 (by decide)
  have w1_2 : W1 m ρ c (Proc.devRef .tc main_arg2) = m ((c : Thread nD τ).loc main_arg2) := W1_of_ne m ρ c main_arg2 (by decide)
  have w1_5 : W1 m ρ c (Proc.devRef .tc main_arg5) = m ((c : Thread nD τ).loc main_arg5) := W1_of_ne m ρ c main_arg5 (by decide)
  have w1_6 : W1 m ρ c (Proc.devRef .tc main_arg6) = m ((c : Thread nD τ).loc main_arg6) := W1_of_ne m ρ c main_arg6 (by decide)
  have w1_7 : W1 m ρ c (Proc.devRef .tc main_arg7) = m ((c : Thread nD τ).loc main_arg7) := W1_of_ne m ρ c main_arg7 (by decide)
  have w1_8 : W1 m ρ c (Proc.devRef .tc main_arg8) = m ((c : Thread nD τ).loc main_arg8) := W1_of_ne m ρ c main_arg8 (by decide)
  have w1_9 : W1 m ρ c (Proc.devRef .tc main_arg9) = m ((c : Thread nD τ).loc main_arg9) := W1_of_ne m ρ c main_arg9 (by decide)
  have w4_1 : W4 m ρ c (Proc.devRef .tc main_arg1) = m ((c : Thread nD τ).loc main_arg1) := (Stretch.first_keeps_main_arg1 (W1 m ρ c)).trans w1_1
  have w4_2 : W4 m ρ c (Proc.devRef .tc main_arg2) = m ((c : Thread nD τ).loc main_arg2) := (Stretch.first_keeps_main_arg2 (W1 m ρ c)).trans w1_2
  have w4_6 : W4 m ρ c (Proc.devRef .tc main_arg6) = m ((c : Thread nD τ).loc main_arg6) := (Stretch.first_keeps_main_arg6 (W1 m ρ c)).trans w1_6
  have w4_7 : W4 m ρ c (Proc.devRef .tc main_arg7) = m ((c : Thread nD τ).loc main_arg7) := (Stretch.first_keeps_main_arg7 (W1 m ρ c)).trans w1_7
  have w4_8 : W4 m ρ c (Proc.devRef .tc main_arg8) = m ((c : Thread nD τ).loc main_arg8) := (Stretch.first_keeps_main_arg8 (W1 m ρ c)).trans w1_8
  have w4_9 : W4 m ρ c (Proc.devRef .tc main_arg9) = m ((c : Thread nD τ).loc main_arg9) := (Stretch.first_keeps_main_arg9 (W1 m ρ c)).trans w1_9
  have w5_1 : W5 m ρ c (Proc.devRef .tc main_arg1) = m ((c : Thread nD τ).loc main_arg1) := (W5_of_ne m ρ c main_arg1 (by decide)).trans w4_1
  have w5_2 : W5 m ρ c (Proc.devRef .tc main_arg2) = m ((c : Thread nD τ).loc main_arg2) := (W5_of_ne m ρ c main_arg2 (by decide)).trans w4_2
  have w5_6 : W5 m ρ c (Proc.devRef .tc main_arg6) = m ((c : Thread nD τ).loc main_arg6) := (W5_of_ne m ρ c main_arg6 (by decide)).trans w4_6
  have w5_7 : W5 m ρ c (Proc.devRef .tc main_arg7) = m ((c : Thread nD τ).loc main_arg7) := (W5_of_ne m ρ c main_arg7 (by decide)).trans w4_7
  have w5_8 : W5 m ρ c (Proc.devRef .tc main_arg8) = m ((c : Thread nD τ).loc main_arg8) := (W5_of_ne m ρ c main_arg8 (by decide)).trans w4_8
  have w5_9 : W5 m ρ c (Proc.devRef .tc main_arg9) = m ((c : Thread nD τ).loc main_arg9) := (W5_of_ne m ρ c main_arg9 (by decide)).trans w4_9
  have w6_1 : W6 m ρ c (Proc.devRef .tc main_arg1) = m ((c : Thread nD τ).loc main_arg1) := (W6_of_ne m ρ c main_arg1 (by decide)).trans w5_1
  have w6_2 : W6 m ρ c (Proc.devRef .tc main_arg2) = m ((c : Thread nD τ).loc main_arg2) := (W6_of_ne m ρ c main_arg2 (by decide)).trans w5_2
  have w6_7 : W6 m ρ c (Proc.devRef .tc main_arg7) = m ((c : Thread nD τ).loc main_arg7) := (W6_of_ne m ρ c main_arg7 (by decide)).trans w5_7
  have w6_8 : W6 m ρ c (Proc.devRef .tc main_arg8) = m ((c : Thread nD τ).loc main_arg8) := (W6_of_ne m ρ c main_arg8 (by decide)).trans w5_8
  have w6_9 : W6 m ρ c (Proc.devRef .tc main_arg9) = m ((c : Thread nD τ).loc main_arg9) := (W6_of_ne m ρ c main_arg9 (by decide)).trans w5_9
  have w9_8 : W9 m ρ c (Proc.devRef .tc main_arg8) = m ((c : Thread nD τ).loc main_arg8) := (Stretch.second_keeps_main_arg8 (W6 m ρ c)).trans w6_8
  have w9_9 : W9 m ρ c (Proc.devRef .tc main_arg9) = m ((c : Thread nD τ).loc main_arg9) := (Stretch.second_keeps_main_arg9 (W6 m ρ c)).trans w6_9
  have w10_8 : W10 m ρ c (Proc.devRef .tc main_arg8) = m ((c : Thread nD τ).loc main_arg8) := (W10_of_ne m ρ c main_arg8 (by decide)).trans w9_8
  have w10_9 : W10 m ρ c (Proc.devRef .tc main_arg9) = m ((c : Thread nD τ).loc main_arg9) := (W10_of_ne m ρ c main_arg9 (by decide)).trans w9_9
  have w11_8 : W11 m ρ c (Proc.devRef .tc main_arg8) = m ((c : Thread nD τ).loc main_arg8) := (Stretch.third_keeps_main_arg8 (W10 m ρ c)).trans w10_8
  -- the stages
  have h0 : W1 m ρ c (Proc.devRef .tc main_v0) = Cert.Gcn.lin1 (m ((c : Thread nD τ).loc main_arg0)) (m ((c : Thread nD τ).loc main_arg4)) :=
    (W1_arr m ρ c 2).trans (Cert.Gcn.lin1_region (V0 m ρ) c)
  have h1 : W4 m ρ c (Proc.devRef .tc main_v45) = Cert.Gcn.agg1 (W1 m ρ c (Proc.devRef .tc main_v0)) (m ((c : Thread nD τ).loc main_arg1)) (m ((c : Thread nD τ).loc main_arg2)) :=
    (Stretch.first_agg (W1 m ρ c)).trans (by rw [w1_1, w1_2])
  have hb1 : V4 m ρ c main_v46 = shapeCast S1x128 (m ((c : Thread nD τ).loc main_arg5)) shapeCasts_S128_S1x128 :=
    (Stretch.first_bias (W1 m ρ c)).trans (by rw [w1_5])
  have h2 : W5 m ρ c (Proc.devRef .tc main_v47) = Cert.Gcn.act1 (W4 m ρ c (Proc.devRef .tc main_v45)) (m ((c : Thread nD τ).loc main_arg5)) :=
    (W5_arr m ρ c 2).trans (hact1 (V4 m ρ) c _ hb1)
  have h3 : W6 m ρ c (Proc.devRef .tc main_v48) = Cert.Gcn.lin2 (W5 m ρ c (Proc.devRef .tc main_v47)) (m ((c : Thread nD τ).loc main_arg6)) :=
    ((W6_arr m ρ c 2).trans (Cert.Gcn.lin2_region (V5 m ρ) c)).trans (by rw [show V5 m ρ c main_arg6 = W5 m ρ c (Proc.devRef .tc main_arg6) from rfl, w5_6])
  have h4 : W9 m ρ c (Proc.devRef .tc main_v93) = Cert.Gcn.agg2 (W6 m ρ c (Proc.devRef .tc main_v48)) (m ((c : Thread nD τ).loc main_arg1)) (m ((c : Thread nD τ).loc main_arg2)) :=
    (Stretch.second_agg (W6 m ρ c)).trans (by rw [w6_1, w6_2])
  have hb2 : V9 m ρ c main_v94 = shapeCast S1x64 (m ((c : Thread nD τ).loc main_arg7)) shapeCasts_S64_S1x64 :=
    (Stretch.second_bias (W6 m ρ c)).trans (by rw [w6_7])
  have h5 : W10 m ρ c (Proc.devRef .tc main_v95) = Cert.Gcn.act2 (W9 m ρ c (Proc.devRef .tc main_v93)) (m ((c : Thread nD τ).loc main_arg7)) :=
    (W10_arr m ρ c 2).trans (hact2 (V9 m ρ) c _ hb2)
  have hb3 : V11 m ρ c main_v96 = shapeCast S1x16 (m ((c : Thread nD τ).loc main_arg9)) shapeCasts_S16_S1x16 :=
    (Stretch.third_bias (W10 m ρ c)).trans (by rw [w10_9])
  have h6 : W11 m ρ c (Proc.devRef .tc main_v95) = W10 m ρ c (Proc.devRef .tc main_v95) := Stretch.third_keeps_main_v95 (W10 m ρ c)
  have h7 : W12 m ρ c (Proc.devRef .tc main_v97) = Cert.Gcn.outLayer (W10 m ρ c (Proc.devRef .tc main_v95)) (m ((c : Thread nD τ).loc main_arg8)) (m ((c : Thread nD τ).loc main_arg9)) :=
    ((W12_arr m ρ c 3).trans (hout (V11 m ρ) c _ hb3)).trans (by
      rw [show V11 m ρ c main_v95 = W11 m ρ c (Proc.devRef .tc main_v95) from rfl, show V11 m ρ c main_arg8 = W11 m ρ c (Proc.devRef .tc main_arg8) from rfl, h6, w11_8])
  rw [h7, h5, h4, h3, h2, h1, h0]
  rfl

end Cert.KernelIdeal.Whole

end
-- ==== Proof.Act1.lean ====
/-
  Layer 1's bias and rectifier, as the kernel program computes it: one launch over ten row blocks.

  The launch walks a grid of ten points.  Point  t  is handed rows  10000·t … 10000·t + 9999  of the node-feature
  array (a block of 10000 × 128) together with the whole one-row bias, and writes back the same rows of the result.
  Inside a block the body adds the bias row to every row and takes the maximum with zero, entry by entry:

      out (p, q) = max (x (p, q) + bias (0, q), 0).

  Row  p  of point  t's  block is row  10000·t + p  of the array, and the ten blocks tile the 100000 rows, so the array
  the launch leaves is the ONE function  (i, q) ↦ max (a (i, q) + b q, 0)  of the array  a  it found and the bias
  vector  b  (which the program reshapes to one row before the launch).  The reference's bias and rectifier is the
  same function: its bias is broadcast first to one row and then down the rows, its zero broadcast from a scalar.
-/
import proofs.«167953_j30932354465858_1_alg».proof.Proof.Gen.KernelIdeal.Frame
import proofs.«167953_j30932354465858_1_alg».proof.Proof.Spec
import Idealize.ShloMosaic.Lib.ValueIdx
import Idealize.ShloMosaic.Lib.Pipeline.Value
import Idealize.ShloMosaic.Lib.ValueLayout
import Idealize.ShloMosaic.Lib.KernelVsHost
import Idealize.ShloMosaic.PureOps.Ideal.Laws

set_option maxRecDepth 16384

noncomputable section

namespace Cert.Gcn

namespace Act1

open Idealize.ShloMosaic Idealize.ShloMosaic.TcCoe Idealize.ShloMosaic.ValueIdx Idealize.SL.Sem
open Idealize.ShloMosaic.Pipeline (Dat)
open Cert.KernelIdeal Cert.KernelIdeal.Gen

-- the contents of the TensorCore's buffers when the launch begins
variable (V : (c : Dev nD) → (b : Ref sig .tc) → Buf (Elt Ideal) ((c : Thread nD τ).loc b))

/-- The offsets (0, 0) are zero on both axes. -/
theorem zero_offsets : (![0, 0] : Fin 2 → Nat) = fun _ => 0 := funext fun a => by fin_cases a <;> rfl

/-! ## The function of the whole array -/

/-- Bias and rectifier, entry by entry:  (i, q) ↦ max (a (i, q) + b q, 0). -/
def biasRelu (a : S100000x128.Idx → EReal) (b : S128.Idx → EReal) : S100000x128.Idx → EReal :=
  fun i => max (a i + b (ix1 (i 1))) (Ideal.ofBits .f32 0x00000000#32)

/-- The reference's bias and rectifier is that function: the bias vector broadcast to one row and the row broadcast
    down the 100000 rows reads  b q  at  (i, q);  the scalar zero broadcast to the array reads zero everywhere. -/
theorem act_eq_biasRelu (a : Arr Ideal Cert.ReferenceIdeal.S100000x128) (b : Arr Ideal Cert.ReferenceIdeal.S128) :
    act1 a b = biasRelu a b := by
  funext i
  obtain ⟨r, q, rfl⟩ : ∃ (r : Fin 100000) (q : Fin 128), i = ix2 r q := ⟨i 0, i 1, eq_ix2 i⟩
  unfold act1 biasRelu
  rw [maximumf_apply, addf_apply, broadcastInDim_oneRow_apply, broadcastInDim_constant, broadcast_apply]
  rw [broadcastInDim_apply ![1] _ b (ix2 (0 : Fin 1) q) (ix1 q) (fun ax => match ax with
    | ⟨0, _⟩ => by show q.val = if (128 : Nat) = 1 then 0 else q.val; rw [if_neg (by decide)])]
  rfl

/-! ## One block -/

/-- What the body stores at  (p, q)  of its block, from the block  x0  of the array and the bias row  x1:
    max (x0 (p, q) + x1 (0, q), 0).  The two casts are to the same shape, the row is broadcast down the block's
    rows, the zero is a scalar broadcast to the block. -/
theorem payload_apply (x0 : Vec Ideal S10000x128 .f32) (x1 : Vec Ideal S1x128 .f32) (p : Fin 10000) (q : Fin 128) :
    k1_pay1 x0 x1 (ix2 p q) = max (x0 (ix2 p q) + x1 (ix2 (0 : Fin 1) q)) (Ideal.ofBits .f32 0x00000000#32) := by
  unfold k1_pay1
  rw [shapeCast_self, shapeCast_self]
  rw [maximumf_apply, addf_apply, broadcastTo_1b_ab_apply, broadcast_apply]
  rfl

/-- So if entry  y  of the block  x0  is entry  i  of an array  a  in the same column, and the bias row  x1  is the
    vector  b  laid as one row, the body stores at  y  the value of the whole-array function at  i. -/
theorem point_value (x0 : Vec Ideal S10000x128 .f32) (x1 : Vec Ideal S1x128 .f32)
    (a : S100000x128.Idx → EReal) (b : S128.Idx → EReal) (y : S10000x128.Idx) (i : S100000x128.Idx)
    (h0 : x0 y = a i) (h1 : ∀ q : Fin 128, x1 (ix2 (0 : Fin 1) q) = b (ix1 q)) (hi : i 1 = y 1) :
    k1_pay1 x0 x1 y = biasRelu a b i := by
  obtain ⟨p, q, rfl⟩ : ∃ (p : Fin 10000) (q : Fin 128), y = ix2 p q := ⟨y 0, y 1, eq_ix2 y⟩
  rw [payload_apply, h0, h1]
  unfold biasRelu
  rw [hi]

/-! ## The ten blocks -/

/-- Where each window's block sits at grid point  t:  the array's and the result's are row block  t  (block index
    (t, 0)),  the bias row's is the whole row (block index (0, 0)).  Decided over the ten points. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point  t  writes back is block  t  of the whole-array function of the array the launch found and the bias
    vector.  Entry  y  of a block sits at  block index × block size + y  on each axis: the input's and the result's
    blocks have the same block index, so they are the same rows; the bias row's block is the row itself, and the row
    is the vector read in row-major order. -/
theorem flushed_eq (c : Dev nD) (b : S128.Idx → EReal) (hc : S128.ShapeCasts S1x128)
    (hb : V c main_v46 = shapeCast S1x128 b hc) (t : Fin cfg1.N) :
    (dat1 V c).flushed 2 t = ((cfg1.win 2).blk t).view.read (Elt Ideal) (biasRelu (V c main_v45) b) := by
  show (cfg1.win 2).cut (grid1.coords t) ((dat1 V c).after 2 t) = _
  rw [after1_2]
  unfold out1_2
  rw [View.canon_unit_zero zero_offsets]
  simp only [View.ld_unit_zero (S := S10000x128) zero_offsets, View.ld_unit_zero (S := S1x128) zero_offsets]
  obtain ⟨e00, e01, e10, e11, e20, e21⟩ := index_facts t
  funext j
  show k1_pay1 (iblk1 V c 0 t) (iblk1 V c 1 t) j = biasRelu (V c main_v45) b (((cfg1.win 2).blk t).view.emb j)
  refine point_value (iblk1 V c 0 t) (iblk1 V c 1 t) (V c main_v45) b j _ ?_ ?_ ?_
  · show V c main_v45 (((cfg1.win 0).blk t).view.emb j) = V c main_v45 (((cfg1.win 2).blk t).view.emb j)
    refine congrArg (V c main_v45) (funext fun ax => Fin.ext ?_)
    match ax with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * (j 1).val = win1_2.index t (1 : Fin 2) * 128 + 1 * (j 1).val; omega
  · intro q
    show V c main_v46 (((cfg1.win 1).blk t).view.emb (ix2 (0 : Fin 1) q)) = b (ix1 q)
    rw [hb]
    refine shapeCast_apply b hc _ (ix1 q) ?_
    rw [Shape.rowMajor_val_two, Shape.rowMajor_val_one]
    show q.val = (win1_1.index t (0 : Fin 2) * 1 + 1 * 0) * 128 + (win1_1.index t (1 : Fin 2) * 128 + 1 * q.val)
    omega
  · apply Fin.ext
    show win1_2.index t (1 : Fin 2) * 128 + 1 * (j 1).val = (j 1).val
    omega

/-- An entry of the result is in point  t's  block iff each coordinate is in the block's range on its axis. -/
theorem mem_block (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v47).slice (win1_2.rect t)).set ↔ _
  rw [View.set_slice_whole, Rect.mem_set_unit]
  exact Iff.rfl

/-- The blocks tile the result: row  r  is in the block of point  r / 10000,  which writes back. -/
theorem covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : grid1.N = 10 := N_1
  obtain ⟨t, ht⟩ : ∃ t : Fin cfg1.N, t.val = (i 0).val / 10000 :=
    ⟨⟨(i 0).val / 10000, by show (i 0).val / 10000 < grid1.N; omega⟩, rfl⟩
  obtain ⟨-, -, -, -, e20, e21⟩ := index_facts t
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- The array the launch leaves is the whole-array function of the array it found and the bias vector: every point
    writes back its block of that one function, and the blocks cover the array. -/
theorem region_biasRelu (c : Dev nD) (b : S128.Idx → EReal) (hc : S128.ShapeCasts S1x128)
    (hb : V c main_v46 = shapeCast S1x128 b hc) :
    (dat1 V c).arrAt 2 cfg1.N = biasRelu (V c main_v45) b :=
  (dat1 V c).arrAt_eq_of_cover 2 (biasRelu (V c main_v45) b) (fun t _ => flushed_eq V c b hc hb t) covered

end Act1

open Idealize.ShloMosaic Idealize.ShloMosaic.TcCoe Idealize.SL.Sem

/-- Layer 1's bias-and-rectifier launch, whatever one-row cast of the bias vector it found in the bias buffer: the
    result array it leaves is the reference's bias and rectifier of the array it found and the bias vector. -/
theorem act1_region_of (V : (c : Dev Cert.KernelIdeal.nD) → (b : Ref Cert.KernelIdeal.sig .tc) → Buf (Elt Ideal) ((c : Thread Cert.KernelIdeal.nD Cert.KernelIdeal.τ).loc b))
    (c : Dev Cert.KernelIdeal.nD) (bias : Arr Ideal Cert.ReferenceIdeal.S128)
    (hc : Cert.KernelIdeal.S128.ShapeCasts Cert.KernelIdeal.S1x128)
    (hb : V c Cert.KernelIdeal.main_v46 = shapeCast Cert.KernelIdeal.S1x128 bias hc) :
    (Cert.KernelIdeal.Gen.dat1 V c).arrAt 2 Cert.KernelIdeal.cfg1.N = act1 (V c Cert.KernelIdeal.main_v45) bias :=
  (Act1.region_biasRelu V c bias hc hb).trans (Act1.act_eq_biasRelu (V c Cert.KernelIdeal.main_v45) bias).symm

/-- The same with the program's own one-row cast. -/
theorem act1_region (V : (c : Dev Cert.KernelIdeal.nD) → (b : Ref Cert.KernelIdeal.sig .tc) → Buf (Elt Ideal) ((c : Thread Cert.KernelIdeal.nD Cert.KernelIdeal.τ).loc b))
    (c : Dev Cert.KernelIdeal.nD) (bias : Arr Ideal Cert.ReferenceIdeal.S128)
    (hb : V c Cert.KernelIdeal.main_v46 = shapeCast Cert.KernelIdeal.S1x128 bias Cert.KernelIdeal.Gen.shapeCasts_S128_S1x128) :
    (Cert.KernelIdeal.Gen.dat1 V c).arrAt 2 Cert.KernelIdeal.cfg1.N = act1 (V c Cert.KernelIdeal.main_v45) bias :=
  act1_region_of V c bias _ hb

end Cert.Gcn

end
-- ==== Proof.Act2.lean ====
/-
  Layer 2's bias and rectifier, as the kernel program computes it: one launch over ten row blocks.

  The launch walks a grid of ten points.  Point  t  is handed rows  10000·t … 10000·t + 9999  of the node-feature
  array (a block of 10000 × 64) together with the whole one-row bias, and writes back the same rows of the result.
  Inside a block the body adds the bias row to every row and takes the maximum with zero, entry by entry:

      out (p, q) = max (x (p, q) + bias (0, q), 0).

  Row  p  of point  t's  block is row  10000·t + p  of the array, and the ten blocks tile the 100000 rows, so the array
  the launch leaves is the ONE function  (i, q) ↦ max (a (i, q) + b q, 0)  of the array  a  it found and the bias
  vector  b  (which the program reshapes to one row before the launch).  The reference's bias and rectifier is the
  same function: its bias is broadcast first to one row and then down the rows, its zero broadcast from a scalar.
-/
import proofs.«167953_j30932354465858_1_alg».proof.Proof.Gen.KernelIdeal.Frame
import proofs.«167953_j30932354465858_1_alg».proof.Proof.Spec
import Idealize.ShloMosaic.Lib.ValueIdx
import Idealize.ShloMosaic.Lib.Pipeline.Value
import Idealize.ShloMosaic.Lib.ValueLayout
import Idealize.ShloMosaic.Lib.KernelVsHost
import Idealize.ShloMosaic.PureOps.Ideal.Laws

set_option maxRecDepth 16384

noncomputable section

namespace Cert.Gcn

namespace Act2

open Idealize.ShloMosaic Idealize.ShloMosaic.TcCoe Idealize.ShloMosaic.ValueIdx Idealize.SL.Sem
open Idealize.ShloMosaic.Pipeline (Dat)
open Cert.KernelIdeal Cert.KernelIdeal.Gen

-- the contents of the TensorCore's buffers when the launch begins
variable (V : (c : Dev nD) → (b : Ref sig .tc) → Buf (Elt Ideal) ((c : Thread nD τ).loc b))

/-- The offsets (0, 0) are zero on both axes. -/
theorem zero_offsets : (![0, 0] : Fin 2 → Nat) = fun _ => 0 := funext fun a => by fin_cases a <;> rfl

/-! ## The function of the whole array -/

/-- Bias and rectifier, entry by entry:  (i, q) ↦ max (a (i, q) + b q, 0). -/
def biasRelu (a : S100000x64.Idx → EReal) (b : S64.Idx → EReal) : S100000x64.Idx → EReal :=
  fun i => max (a i + b (ix1 (i 1))) (Ideal.ofBits .f32 0x00000000#32)

/-- The reference's bias and rectifier is that function: the bias vector broadcast to one row and the row broadcast
    down the 100000 rows reads  b q  at  (i, q);  the scalar zero broadcast to the array reads zero everywhere. -/
theorem act_eq_biasRelu (a : Arr Ideal Cert.ReferenceIdeal.S100000x64) (b : Arr Ideal Cert.ReferenceIdeal.S64) :
    act2 a b = biasRelu a b := by
  funext i
  obtain ⟨r, q, rfl⟩ : ∃ (r : Fin 100000) (q : Fin 64), i = ix2 r q := ⟨i 0, i 1, eq_ix2 i⟩
  unfold act2 biasRelu
  rw [maximumf_apply, addf_apply, broadcastInDim_oneRow_apply, broadcastInDim_constant, broadcast_apply]
  rw [broadcastInDim_apply ![1] _ b (ix2 (0 : Fin 1) q) (ix1 q) (fun ax => match ax with
    | ⟨0, _⟩ => by show q.val = if (64 : Nat) = 1 then 0 else q.val; rw [if_neg (by decide)])]
  rfl

/-! ## One block -/

/-- What the body stores at  (p, q)  of its block, from the block  x0  of the array and the bias row  x1:
    max (x0 (p, q) + x1 (0, q), 0).  The two casts are to the same shape, the row is broadcast down the block's
    rows, the zero is a scalar broadcast to the block. -/
theorem payload_apply (x0 : Vec Ideal S10000x64 .f32) (x1 : Vec Ideal S1x64 .f32) (p : Fin 10000) (q : Fin 64) :
    k3_pay1 x0 x1 (ix2 p q) = max (x0 (ix2 p q) + x1 (ix2 (0 : Fin 1) q)) (Ideal.ofBits .f32 0x00000000#32) := by
  unfold k3_pay1
  rw [shapeCast_self, shapeCast_self]
  rw [maximumf_apply, addf_apply, broadcastTo_1b_ab_apply, broadcast_apply]
  rfl

/-- So if entry  y  of the block  x0  is entry  i  of an array  a  in the same column, and the bias row  x1  is the
    vector  b  laid as one row, the body stores at  y  the value of the whole-array function at  i. -/
theorem point_value (x0 : Vec Ideal S10000x64 .f32) (x1 : Vec Ideal S1x64 .f32)
    (a : S100000x64.Idx → EReal) (b : S64.Idx → EReal) (y : S10000x64.Idx) (i : S100000x64.Idx)
    (h0 : x0 y = a i) (h1 : ∀ q : Fin 64, x1 (ix2 (0 : Fin 1) q) = b (ix1 q)) (hi : i 1 = y 1) :
    k3_pay1 x0 x1 y = biasRelu a b i := by
  obtain ⟨p, q, rfl⟩ : ∃ (p : Fin 10000) (q : Fin 64), y = ix2 p q := ⟨y 0, y 1, eq_ix2 y⟩
  rw [payload_apply, h0, h1]
  unfold biasRelu
  rw [hi]

/-! ## The ten blocks -/

/-- Where each window's block sits at grid point  t:  the array's and the result's are row block  t  (block index
    (t, 0)),  the bias row's is the whole row (block index (0, 0)).  Decided over the ten points. -/
theorem index_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point  t  writes back is block  t  of the whole-array function of the array the launch found and the bias
    vector.  Entry  y  of a block sits at  block index × block size + y  on each axis: the input's and the result's
    blocks have the same block index, so they are the same rows; the bias row's block is the row itself, and the row
    is the vector read in row-major order. -/
theorem flushed_eq (c : Dev nD) (b : S64.Idx → EReal) (hc : S64.ShapeCasts S1x64)
    (hb : V c main_v94 = shapeCast S1x64 b hc) (t : Fin cfg3.N) :
    (dat3 V c).flushed 2 t = ((cfg3.win 2).blk t).view.read (Elt Ideal) (biasRelu (V c main_v93) b) := by
  show (cfg3.win 2).cut (grid3.coords t) ((dat3 V c).after 2 t) = _
  rw [after3_2]
  unfold out3_2
  rw [View.canon_unit_zero zero_offsets]
  simp only [View.ld_unit_zero (S := S10000x64) zero_offsets, View.ld_unit_zero (S := S1x64) zero_offsets]
  obtain ⟨e00, e01, e10, e11, e20, e21⟩ := index_facts t
  funext j
  show k3_pay1 (iblk3 V c 0 t) (iblk3 V c 1 t) j = biasRelu (V c main_v93) b (((cfg3.win 2).blk t).view.emb j)
  refine point_value (iblk3 V c 0 t) (iblk3 V c 1 t) (V c main_v93) b j _ ?_ ?_ ?_
  · show V c main_v93 (((cfg3.win 0).blk t).view.emb j) = V c main_v93 (((cfg3.win 2).blk t).view.emb j)
    refine congrArg (V c main_v93) (funext fun ax => Fin.ext ?_)
    match ax with
    | ⟨0, _⟩ => show win3_0.index t (0 : Fin 2) * 10000 + 1 * (j 0).val = win3_2.index t (0 : Fin 2) * 10000 + 1 * (j 0).val; omega
    | ⟨1, _⟩ => show win3_0.index t (1 : Fin 2) * 64 + 1 * (j 1).val = win3_2.index t (1 : Fin 2) * 64 + 1 * (j 1).val; omega
  · intro q
    show V c main_v94 (((cfg3.win 1).blk t).view.emb (ix2 (0 : Fin 1) q)) = b (ix1 q)
    rw [hb]
    refine shapeCast_apply b hc _ (ix1 q) ?_
    rw [Shape.rowMajor_val_two, Shape.rowMajor_val_one]
    show q.val = (win3_1.index t (0 : Fin 2) * 1 + 1 * 0) * 64 + (win3_1.index t (1 : Fin 2) * 64 + 1 * q.val)
    omega
  · apply Fin.ext
    show win3_2.index t (1 : Fin 2) * 64 + 1 * (j 1).val = (j 1).val
    omega

/-- An entry of the result is in point  t's  block iff each coordinate is in the block's range on its axis. -/
theorem mem_block (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v95).slice (win3_2.rect t)).set ↔ _
  rw [View.set_slice_whole, Rect.mem_set_unit]
  exact Iff.rfl

/-- The blocks tile the result: row  r  is in the block of point  r / 10000,  which writes back. -/
theorem covered (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : grid3.N = 10 := N_3
  obtain ⟨t, ht⟩ : ∃ t : Fin cfg3.N, t.val = (i 0).val / 10000 :=
    ⟨⟨(i 0).val / 10000, by show (i 0).val / 10000 < grid3.N; omega⟩, rfl⟩
  obtain ⟨-, -, -, -, e20, e21⟩ := index_facts t
  refine ⟨t, flush3_2 t, ?_⟩
  rw [mem_block]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- The array the launch leaves is the whole-array function of the array it found and the bias vector: every point
    writes back its block of that one function, and the blocks cover the array. -/
theorem region_biasRelu (c : Dev nD) (b : S64.Idx → EReal) (hc : S64.ShapeCasts S1x64)
    (hb : V c main_v94 = shapeCast S1x64 b hc) :
    (dat3 V c).arrAt 2 cfg3.N = biasRelu (V c main_v93) b :=
  (dat3 V c).arrAt_eq_of_cover 2 (biasRelu (V c main_v93) b) (fun t _ => flushed_eq V c b hc hb t) covered

end Act2

open Idealize.ShloMosaic Idealize.ShloMosaic.TcCoe Idealize.SL.Sem

/-- Layer 2's bias-and-rectifier launch, whatever one-row cast of the bias vector it found in the bias buffer: the
    result array it leaves is the reference's bias and rectifier of the array it found and the bias vector. -/
theorem act2_region_of (V : (c : Dev Cert.KernelIdeal.nD) → (b : Ref Cert.KernelIdeal.sig .tc) → Buf (Elt Ideal) ((c : Thread Cert.KernelIdeal.nD Cert.KernelIdeal.τ).loc b))
    (c : Dev Cert.KernelIdeal.nD) (bias : Arr Ideal Cert.ReferenceIdeal.S64)
    (hc : Cert.KernelIdeal.S64.ShapeCasts Cert.KernelIdeal.S1x64)
    (hb : V c Cert.KernelIdeal.main_v94 = shapeCast Cert.KernelIdeal.S1x64 bias hc) :
    (Cert.KernelIdeal.Gen.dat3 V c).arrAt 2 Cert.KernelIdeal.cfg3.N = act2 (V c Cert.KernelIdeal.main_v93) bias :=
  (Act2.region_biasRelu V c bias hc hb).trans (Act2.act_eq_biasRelu (V c Cert.KernelIdeal.main_v93) bias).symm

/-- The same with the program's own one-row cast. -/
theorem act2_region (V : (c : Dev Cert.KernelIdeal.nD) → (b : Ref Cert.KernelIdeal.sig .tc) → Buf (Elt Ideal) ((c : Thread Cert.KernelIdeal.nD Cert.KernelIdeal.τ).loc b))
    (c : Dev Cert.KernelIdeal.nD) (bias : Arr Ideal Cert.ReferenceIdeal.S64)
    (hb : V c Cert.KernelIdeal.main_v94 = shapeCast Cert.KernelIdeal.S1x64 bias Cert.KernelIdeal.Gen.shapeCasts_S64_S1x64) :
    (Cert.KernelIdeal.Gen.dat3 V c).arrAt 2 Cert.KernelIdeal.cfg3.N = act2 (V c Cert.KernelIdeal.main_v93) bias :=
  act2_region_of V c bias _ hb

end Cert.Gcn

end
-- ==== Proof.OutLayer.lean ====
/-
  The output layer as the kernel program computes it: one launch over ten row blocks.

  The launch walks a grid of ten points.  Point  t  is handed rows  10000·t … 10000·t + 9999  of the node-feature array
  (a block of 10000 × 64), the whole 64 × 16 weight matrix and the bias as one row of 16, and writes back the same rows
  of the result.  Inside a block the body forms the class scores

      l (p, j) = Σ_k x (p, k) · w (k, j) + b (0, j)

  (the matrix product into a zero accumulator; a change of float format is the identity at the exact values) and then,
  row by row, the log-softmax

      l (p, j) − M p − log (Σ_j' exp (l (p, j') − M p)),      M p = the maximum of row p's sixteen scores,

  the maximum folded from minus infinity, the sum from zero, each laid back along its row as a column broadcast.

  The reference computes the same on the whole array: its product is the host's, its bias a vector broadcast first to one
  row and then down the rows, its row maximum the host's fold joined once more with minus infinity (which changes
  nothing), its row sum the host's sum from zero.  Both sides are therefore ONE function of a row's sixteen scores
  (`rowLogSoftmax`), applied to the same scores: row  p  of point  t's  block is row  10000·t + p  of the array, the
  weights' block is the weights, and the bias row is the bias vector read in row-major order.  The ten blocks tile the
  100000 rows, so the array the launch leaves is the reference's output layer of the arrays it found.
-/
import proofs.«167953_j30932354465858_1_alg».proof.Proof.Gen.KernelIdeal.Frame
import proofs.«167953_j30932354465858_1_alg».proof.Proof.Spec
import Idealize.ShloMosaic.Lib.ValueIdx
import Idealize.ShloMosaic.Lib.Pipeline.Value
import Idealize.ShloMosaic.Lib.ValueLayout
import Idealize.ShloMosaic.Lib.KernelVsHost
import Idealize.ShloMosaic.Lib.IdealHost
import Idealize.ShloMosaic.PureOps.Ideal.Laws
import Idealize.ShloMosaic.PureOps.Reduce

set_option maxRecDepth 16384

noncomputable section

open Idealize.ShloMosaic Idealize.ShloMosaic.TcCoe Idealize.SL.Sem
open Idealize.ShloMosaic.Pipeline (Dat)
open Idealize.ShloMosaic.ValueIdx

/-! ## One row of sixteen class scores -/

namespace Cert.Gcn

/-- A row's largest score: the fold of the maximum over the sixteen classes, from minus infinity. -/
def rowTop (r : Fin 16 → EReal) : EReal :=
  (Finset.univ : Finset (Fin 16)).fold max (Ideal.ofBits .f32 0xFF800000#32) r

/-- A row's log-softmax at class `j`:  r j - max r - log (Σ_k exp (r k - max r)). -/
def rowLogSoftmax (r : Fin 16 → EReal) (j : Fin 16) : EReal :=
  (r j - rowTop r) - Ideal.log (∑ k : Fin 16, Ideal.exp (r k - rowTop r))

/-- The word of minus infinity is the least extended real. -/
theorem negInf_eq_bot : Ideal.ofBits .f32 0xFF800000#32 = (⊥ : EReal) := by
  simp [Ideal.ofBits, Ideal.ieee]

/-! ## The column forms of a row statistic -/

/-- A vector of `a` entries cast to a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Gcn

namespace Cert.Gcn

/-- A vector of `a` entries broadcast to a column `[a, 1]` (the host's form) reads, at `(p, u)`, the vector at `p`. -/
theorem broadcastInDim_a_a1_apply {α : Type} {a : ℕ} (h : (⟨1, ![a]⟩ : Shape).BroadcastsInDim ⟨2, ![a, 1]⟩ ![0])
    (x : (⟨1, ![a]⟩ : Shape).Idx → α) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- A column `[a, 1]` broadcast along the rows to `[a, b]` (the host's form) reads, at `(p, c)`, the column at `p`. -/
theorem broadcastInDim_a1_ab_apply {α : Type} {a b : ℕ} (h : (⟨2, ![a, 1]⟩ : Shape).BroadcastsInDim ⟨2, ![a, b]⟩ ![0, 1])
    (y : (⟨2, ![a, 1]⟩ : Shape).Idx → α) (p : Fin a) (c : Fin b) :
    broadcastInDim ⟨2, ![a, b]⟩ ![0, 1] h y (ix2 p c) = y (ix2 p (0 : Fin 1)) := by
  refine broadcastInDim_apply ![0, 1] h y (ix2 p c) (ix2 p (0 : Fin 1)) fun ax => ?_
  match ax with
  | ⟨0, _⟩ =>
    show p.val = if a = 1 then 0 else p.val
    split
    · have := p.isLt; omega
    · rfl
  | ⟨1, _⟩ => rfl

/-- A vector of `n` entries broadcast to one row `[1, n]` (the host's form) reads, at `(u, c)`, the vector at `c`. -/
theorem broadcastInDim_n_1n_apply {α : Type} {n : ℕ} (h : (⟨1, ![n]⟩ : Shape).BroadcastsInDim ⟨2, ![1, n]⟩ ![1])
    (x : (⟨1, ![n]⟩ : Shape).Idx → α) (u : Fin 1) (c : Fin n) :
    broadcastInDim ⟨2, ![1, n]⟩ ![1] h x (ix2 u c) = x (ix1 c) := by
  refine broadcastInDim_apply ![1] h x (ix2 u c) (ix1 c) fun ax => ?_
  match ax with
  | ⟨0, _⟩ =>
    show c.val = if n = 1 then 0 else c.val
    split
    · have := c.isLt; omega
    · rfl

end Cert.Gcn

/-! ## What the region's body computes on one block -/

namespace Cert.Gcn.outBlock

open Cert.KernelIdeal Cert.KernelIdeal.Gen

/-- The block's class scores: the block's rows times the weights, plus the bias row. -/
def scores (x0 : FVec Ideal S10000x64 .f32) (x1 : FVec Ideal S64x16 .f32) (x2 : FVec Ideal S1x16 .f32) : FVec Ideal S10000x16 .f32 :=
  addf (matmul dot_S10000x64_S64x16_S10000x16_1_0_0_1_n_n none
      (truncf .bf16 (shapeCast S10000x64 x0 shapeCasts_S10000x64_S10000x64) bitsLt_bf16_f32) (truncf .bf16 x1 bitsLt_bf16_f32)
      (constant S10000x16 .f32 0x00000000#32))
    (broadcastTo S10000x16 (shapeCast S1x16 x2 shapeCasts_S1x16_S1x16) broadcasts_S1x16_S10000x16)

/-- Each row's largest score, laid along the row. -/
def rowTops (l : FVec Ideal S10000x16 .f32) : FVec Ideal S10000x16 .f32 :=
  broadcastTo S10000x16 (shapeCast S10000x1 (multiReduction .maximumf [1] S10000 l 0xFF800000#32 reduces_S10000x16_S10000 (.inl rfl) rfl)
    shapeCasts_S10000_S10000x1) broadcasts_S10000x1_S10000x16

/-- Each row's  log (sum exp),  laid along the row. -/
def rowLogSums (s : FVec Ideal S10000x16 .f32) : FVec Ideal S10000x16 .f32 :=
  broadcastTo S10000x16 (log (shapeCast S10000x1 (multiReduction .add [1] S10000 (exp s) 0x00000000#32 reduces_S10000x16_S10000 (.inl rfl) rfl)
    shapeCasts_S10000_S10000x1)) broadcasts_S10000x1_S10000x16

/-- The body's payload is the log-softmax of the block's scores, in three named stages. -/
theorem payload_eq (x0 : Vec Ideal S10000x64 .f32) (x1 : Vec Ideal S64x16 .f32) (x2 : Vec Ideal S1x16 .f32) :
    k4_pay1 (F := Ideal) x0 x1 x2
      = subf (subf (scores x0 x1 x2) (rowTops (scores x0 x1 x2))) (rowLogSums (subf (scores x0 x1 x2) (rowTops (scores x0 x1 x2)))) := rfl

/-- In the block product's record the left operand's row is the output's row. -/
theorem prod_lhs_row (i : S10000x16.Idx) (q : dot_S10000x64_S64x16_S10000x16_1_0_0_1_n_n.contr.Idx) :
    (dot_S10000x64_S64x16_S10000x16_1_0_0_1_n_n.lhsIdx i q 0).val = (i 0).val := by
  unfold DotDims.lhsIdx
  rw [dif_neg (show ¬(0 : Fin S10000x64.rank) ∈ dot_S10000x64_S64x16_S10000x16_1_0_0_1_n_n.lhsBatch by decide), dif_pos (show (0 : Fin S10000x64.rank) ∈ dot_S10000x64_S64x16_S10000x16_1_0_0_1_n_n.lhsNonContracting by decide)]
  rfl
/-- The left operand's column is the contraction index. -/
theorem prod_lhs_col (i : S10000x16.Idx) (q : dot_S10000x64_S64x16_S10000x16_1_0_0_1_n_n.contr.Idx) :
    (dot_S10000x64_S64x16_S10000x16_1_0_0_1_n_n.lhsIdx i q 1).val = (q ⟨0, by decide⟩).val :=
  dot_S10000x64_S64x16_S10000x16_1_0_0_1_n_n.lhsIdx_val_of_single rfl i q
/-- The right operand's row is the contraction index. -/
theorem prod_rhs_row (i : S10000x16.Idx) (q : dot_S10000x64_S64x16_S10000x16_1_0_0_1_n_n.contr.Idx) :
    (dot_S10000x64_S64x16_S10000x16_1_0_0_1_n_n.rhsIdx i q 0).val = (q ⟨0, by decide⟩).val :=
  dot_S10000x64_S64x16_S10000x16_1_0_0_1_n_n.rhsIdx_val_of_single rfl i q
/-- The right operand's column is the output's column. -/
theorem prod_rhs_col (i : S10000x16.Idx) (q : dot_S10000x64_S64x16_S10000x16_1_0_0_1_n_n.contr.Idx) :
    (dot_S10000x64_S64x16_S10000x16_1_0_0_1_n_n.rhsIdx i q 1).val = (i 1).val := by
  unfold DotDims.rhsIdx
  rw [dif_neg (show ¬(1 : Fin S64x16.rank) ∈ dot_S10000x64_S64x16_S10000x16_1_0_0_1_n_n.rhsBatch by decide), dif_pos (show (1 : Fin S64x16.rank) ∈ dot_S10000x64_S64x16_S10000x16_1_0_0_1_n_n.rhsNonContracting by decide)]
  rfl

/-- A score of the block: the row of the block against the column of the weights, plus the bias of the class. -/
theorem scores_apply (x0 : FVec Ideal S10000x64 .f32) (x1 : FVec Ideal S64x16 .f32) (x2 : FVec Ideal S1x16 .f32) (p : Fin 10000) (j : Fin 16) :
    scores x0 x1 x2 (ix2 p j) = (∑ k : Fin 64, x0 (ix2 p k) * x1 (ix2 k j)) + x2 (ix2 (0 : Fin 1) j) := by
  unfold scores
  rw [shapeCast_self x0, shapeCast_self x2]
  show matmul dot_S10000x64_S64x16_S10000x16_1_0_0_1_n_n none _ _ (constant S10000x16 .f32 0x00000000#32) (ix2 p j) + broadcastTo S10000x16 x2 broadcasts_S1x16_S10000x16 (ix2 p j) = _
  refine congrArg₂ (· + ·) ?_ (broadcastTo_1b_ab_apply x2 _ p j)
  refine (Ideal.matmul_constant_zero_apply dot_S10000x64_S64x16_S10000x16_1_0_0_1_n_n none _ _ (ix2 p j)).trans ?_
  rw [← Equiv.sum_comp (contrEquiv1 dot_S10000x64_S64x16_S10000x16_1_0_0_1_n_n 64 rfl rfl).symm]
  refine Finset.sum_congr rfl fun k _ => ?_
  have hk := contrEquiv1_symm_val dot_S10000x64_S64x16_S10000x16_1_0_0_1_n_n 64 rfl rfl k
  have el : dot_S10000x64_S64x16_S10000x16_1_0_0_1_n_n.lhsIdx (ix2 p j) ((contrEquiv1 dot_S10000x64_S64x16_S10000x16_1_0_0_1_n_n 64 rfl rfl).symm k) = ix2 p k := funext fun a => Fin.ext (by
    match a with
    | ⟨0, _⟩ => exact prod_lhs_row _ _
    | ⟨1, _⟩ => exact (prod_lhs_col _ _).trans hk)
  have er : dot_S10000x64_S64x16_S10000x16_1_0_0_1_n_n.rhsIdx (ix2 p j) ((contrEquiv1 dot_S10000x64_S64x16_S10000x16_1_0_0_1_n_n 64 rfl rfl).symm k) = ix2 k j := funext fun a => Fin.ext (by
    match a with
    | ⟨0, _⟩ => exact (prod_rhs_row _ _).trans hk
    | ⟨1, _⟩ => exact prod_rhs_col _ _)
  rw [el, er]
  rfl

/-- Over a row index the sixteen entries of the row are the indices that reduce to it. -/
theorem lift_row (h : S10000x16.Reduces [1] S10000) (p : Fin 10000) (k : Fin 16) : h.lift (ix1 p) k = ix2 p k :=
  funext fun a => Fin.ext (by match a with | ⟨0, _⟩ => rfl | ⟨1, _⟩ => rfl)

/-- The row's largest score, wherever along the row it is read. -/
theorem rowTops_apply (l : FVec Ideal S10000x16 .f32) (p : Fin 10000) (j : Fin 16) :
    rowTops l (ix2 p j) = rowTop fun k => l (ix2 p k) := by
  unfold rowTops
  refine (broadcastTo_a1_ab_apply _ _ p j).trans ?_
  refine (shapeCast_a_a1_apply _ _ p 0).trans ?_
  refine (Ideal.multiReduction_maximumf_single l _ reduces_S10000x16_S10000 (.inl rfl) rfl (ix1 p)).trans ?_
  unfold rowTop
  exact congrArg (fun f : Fin 16 → EReal => (Finset.univ : Finset (Fin 16)).fold max (Ideal.ofBits .f32 0xFF800000#32) f)
    (funext fun k => congrArg l (lift_row reduces_S10000x16_S10000 p k))

/-- The row's  log (sum exp),  wherever along the row it is read. -/
theorem rowLogSums_apply (s : FVec Ideal S10000x16 .f32) (p : Fin 10000) (j : Fin 16) :
    rowLogSums s (ix2 p j) = Ideal.log (∑ k : Fin 16, Ideal.exp (s (ix2 p k))) := by
  unfold rowLogSums
  refine (broadcastTo_a1_ab_apply _ _ p j).trans ?_
  refine congrArg Ideal.log ?_
  refine (shapeCast_a_a1_apply _ _ p 0).trans ?_
  refine (Ideal.multiReduction_add_single (exp s) _ reduces_S10000x16_S10000 (.inl rfl) rfl (ix1 p)).trans ?_
  exact Finset.sum_congr rfl fun k _ => congrArg (fun i => Ideal.exp (s i)) (lift_row reduces_S10000x16_S10000 p k)

/-- THE PAYLOAD AT AN INDEX: entry (p, j) of what the body stores is the log-softmax, at class j, of row p's scores. -/
theorem payload_apply (x0 : Vec Ideal S10000x64 .f32) (x1 : Vec Ideal S64x16 .f32) (x2 : Vec Ideal S1x16 .f32) (p : Fin 10000) (j : Fin 16) :
    k4_pay1 (F := Ideal) x0 x1 x2 (ix2 p j)
      = rowLogSoftmax (fun j' => (∑ k : Fin 64, x0 (ix2 p k) * x1 (ix2 k j')) + x2 (ix2 (0 : Fin 1) j')) j := by
  rw [payload_eq]
  have hr : (fun j' => scores x0 x1 x2 (ix2 p j')) = fun j' => (∑ k : Fin 64, x0 (ix2 p k) * x1 (ix2 k j')) + x2 (ix2 (0 : Fin 1) j') :=
    funext (scores_apply x0 x1 x2 p)
  rw [← hr]
  generalize scores x0 x1 x2 = l
  have hs : ∀ j', subf l (rowTops l) (ix2 p j') = l (ix2 p j') - rowTop (fun k => l (ix2 p k)) := fun j' =>
    congrArg (l (ix2 p j') - ·) (rowTops_apply l p j')
  show subf l (rowTops l) (ix2 p j) - rowLogSums (subf l (rowTops l)) (ix2 p j) = _
  rw [rowLogSums_apply, hs j]
  exact congrArg (fun z => (l (ix2 p j) - rowTop fun k => l (ix2 p k)) - Ideal.log z)
    (Finset.sum_congr rfl fun k _ => congrArg Ideal.exp (hs k))

end Cert.Gcn.outBlock

/-! ## The output layer of the network at an index -/

namespace Cert.Gcn.outWhole

open Cert.ReferenceIdeal Cert.ReferenceIdeal.Gen

/-- In the whole product's record the left operand's row is the output's row. -/
theorem prod_lhs_row (i : S100000x16.Idx) (q : dot_S100000x64_S64x16_S100000x16_1_0_0_1_n_n.contr.Idx) :
    (dot_S100000x64_S64x16_S100000x16_1_0_0_1_n_n.lhsIdx i q 0).val = (i 0).val := by
  unfold DotDims.lhsIdx
  rw [dif_neg (show ¬(0 : Fin S100000x64.rank) ∈ dot_S100000x64_S64x16_S100000x16_1_0_0_1_n_n.lhsBatch by decide), dif_pos (show (0 : Fin S100000x64.rank) ∈ dot_S100000x64_S64x16_S100000x16_1_0_0_1_n_n.lhsNonContracting by decide)]
  rfl
/-- The left operand's column is the contraction index. -/
theorem prod_lhs_col (i : S100000x16.Idx) (q : dot_S100000x64_S64x16_S100000x16_1_0_0_1_n_n.contr.Idx) :
    (dot_S100000x64_S64x16_S100000x16_1_0_0_1_n_n.lhsIdx i q 1).val = (q ⟨0, by decide⟩).val :=
  dot_S100000x64_S64x16_S100000x16_1_0_0_1_n_n.lhsIdx_val_of_single rfl i q
/-- The right operand's row is the contraction index. -/
theorem prod_rhs_row (i : S100000x16.Idx) (q : dot_S100000x64_S64x16_S100000x16_1_0_0_1_n_n.contr.Idx) :
    (dot_S100000x64_S64x16_S100000x16_1_0_0_1_n_n.rhsIdx i q 0).val = (q ⟨0, by decide⟩).val :=
  dot_S100000x64_S64x16_S100000x16_1_0_0_1_n_n.rhsIdx_val_of_single rfl i q
/-- The right operand's column is the output's column. -/
theorem prod_rhs_col (i : S100000x16.Idx) (q : dot_S100000x64_S64x16_S100000x16_1_0_0_1_n_n.contr.Idx) :
    (dot_S100000x64_S64x16_S100000x16_1_0_0_1_n_n.rhsIdx i q 1).val = (i 1).val := by
  unfold DotDims.rhsIdx
  rw [dif_neg (show ¬(1 : Fin S64x16.rank) ∈ dot_S100000x64_S64x16_S100000x16_1_0_0_1_n_n.rhsBatch by decide), dif_pos (show (1 : Fin S64x16.rank) ∈ dot_S100000x64_S64x16_S100000x16_1_0_0_1_n_n.rhsNonContracting by decide)]
  rfl

/-- The whole product at an index: the node's row against the column of the weights. -/
theorem prod_apply (h : FVec Ideal S100000x64 .f32) (w : FVec Ideal S64x16 .f32) (r : Fin 100000) (j : Fin 16) :
    Host.dotGeneral (F := Ideal) dot_S100000x64_S64x16_S100000x16_1_0_0_1_n_n none h w (ix2 r j) = ∑ k : Fin 64, h (ix2 r k) * w (ix2 k j) := by
  simp only [Host.dotGeneral]
  rw [Ideal.dotGeneral_apply, ← Equiv.sum_comp (contrEquiv1 dot_S100000x64_S64x16_S100000x16_1_0_0_1_n_n 64 rfl rfl).symm]
  refine Finset.sum_congr rfl fun k _ => ?_
  have hk := contrEquiv1_symm_val dot_S100000x64_S64x16_S100000x16_1_0_0_1_n_n 64 rfl rfl k
  have el : dot_S100000x64_S64x16_S100000x16_1_0_0_1_n_n.lhsIdx (ix2 r j) ((contrEquiv1 dot_S100000x64_S64x16_S100000x16_1_0_0_1_n_n 64 rfl rfl).symm k) = ix2 r k := funext fun a => Fin.ext (by
    match a with
    | ⟨0, _⟩ => exact prod_lhs_row _ _
    | ⟨1, _⟩ => exact (prod_lhs_col _ _).trans hk)
  have er : dot_S100000x64_S64x16_S100000x16_1_0_0_1_n_n.rhsIdx (ix2 r j) ((contrEquiv1 dot_S100000x64_S64x16_S100000x16_1_0_0_1_n_n 64 rfl rfl).symm k) = ix2 k j := funext fun a => Fin.ext (by
    match a with
    | ⟨0, _⟩ => exact (prod_rhs_row _ _).trans hk
    | ⟨1, _⟩ => exact prod_rhs_col _ _)
  rw [el, er]

/-- A class score of the network: the node's row against the column of the weights, plus the bias of the class. -/
theorem logits_apply (h : FVec Ideal S100000x64 .f32) (w : FVec Ideal S64x16 .f32) (b : FVec Ideal S16 .f32) (r : Fin 100000) (j : Fin 16) :
    logits (F := Ideal) h w b (ix2 r j) = (∑ k : Fin 64, h (ix2 r k) * w (ix2 k j)) + b (ix1 j) := by
  unfold logits
  rw [addf_apply, prod_apply, broadcastInDim_oneRow_apply, broadcastInDim_n_1n_apply]

/-- The shape fact that names, over a node, the sixteen entries of its row. -/
theorem rows_reduce : S100000x16.Reduces [1] S100000 := by decide

/-- Over a node the sixteen entries of its row are the indices that reduce to it. -/
theorem lift_row (p : Fin 100000) (k : Fin 16) : rows_reduce.lift (ix1 p) k = ix2 p k :=
  funext fun a => Fin.ext (by match a with | ⟨0, _⟩ => rfl | ⟨1, _⟩ => rfl)

/-- The fold of the host's maximum over a row's sixteen entries, from minus infinity, is the row's largest score. -/
theorem fold_row (l : FVec Ideal S100000x16 .f32) (r : Fin 100000) :
    (Finset.univ : Finset (Fin (S100000x16.size 1))).fold (FloatOps.maximumf (F := Ideal) (φ := .f32)) (Ideal.ofBits .f32 0xFF800000#32)
        (l ∘ rows_reduce.lift (ix1 r)) = rowTop fun k => l (ix2 r k) := by
  unfold rowTop
  exact congrArg (fun f : Fin 16 → EReal => (Finset.univ : Finset (Fin 16)).fold max (Ideal.ofBits .f32 0xFF800000#32) f)
    (funext fun k => congrArg l (lift_row r k))

/-- A node's largest score: joining once more with minus infinity changes nothing. -/
theorem rowMax_apply (l : FVec Ideal S100000x16 .f32) (r : Fin 100000) :
    rowMax (F := Ideal) l (ix1 r) = rowTop fun k => l (ix2 r k) := by
  unfold rowMax
  rw [maximumf_apply, broadcastInDim_scalar_apply, constant_apply,
    Host.reduce_eq_fold_single FloatOps.maximumf l _ reducesTo_S100000x16_S100000_d1 rows_reduce h_S_ (ix1 r), constant_apply, fold_row,
    negInf_eq_bot]
  exact max_eq_right bot_le

/-- A score less its row's largest. -/
theorem shifted_apply (l : FVec Ideal S100000x16 .f32) (r : Fin 100000) (j : Fin 16) :
    shifted (F := Ideal) l (ix2 r j) = l (ix2 r j) - rowTop fun k => l (ix2 r k) := by
  unfold shifted
  rw [subf_apply, broadcastInDim_a1_ab_apply, broadcastInDim_a_a1_apply, rowMax_apply]

/-- The host's exponential and logarithm of an array, entry by entry. -/
theorem hostExp_apply {s : Shape} (x : FVec Ideal s .f32) (i : s.Idx) : Host.exp x i = Ideal.exp (x i) := rfl
theorem hostLog_apply {s : Shape} (x : FVec Ideal s .f32) (i : s.Idx) : Host.log x i = Ideal.log (x i) := rfl

/-- A node's  log (sum exp). -/
theorem logSumExp_apply (s : FVec Ideal S100000x16 .f32) (r : Fin 100000) :
    logSumExp (F := Ideal) s (ix2 r (0 : Fin 1)) = Ideal.log (∑ k : Fin 16, Ideal.exp (s (ix2 r k))) := by
  unfold logSumExp
  rw [hostLog_apply, broadcastInDim_a_a1_apply, hostReduceAdd_apply, Ideal.hostReduceAdd_single reducesTo_S100000x16_S100000_d1 rows_reduce,
    constant_apply, Ideal.ofBits_zero_f32, zero_add]
  exact congrArg Ideal.log (Finset.sum_congr rfl fun k _ => (congrArg (Host.exp s) (lift_row r k)).trans (hostExp_apply s _))

/-- THE OUTPUT LAYER AT AN INDEX: entry (r, j) is the log-softmax, at class j, of node r's scores. -/
theorem outLayer_apply (h : FVec Ideal S100000x64 .f32) (w : FVec Ideal S64x16 .f32) (b : FVec Ideal S16 .f32) (r : Fin 100000) (j : Fin 16) :
    outLayer (F := Ideal) h w b (ix2 r j)
      = rowLogSoftmax (fun j' => (∑ k : Fin 64, h (ix2 r k) * w (ix2 k j')) + b (ix1 j')) j := by
  unfold outLayer logSoftmax
  have hr : (fun j' => logits (F := Ideal) h w b (ix2 r j')) = fun j' => (∑ k : Fin 64, h (ix2 r k) * w (ix2 k j')) + b (ix1 j') :=
    funext (logits_apply h w b r)
  rw [← hr]
  generalize logits (F := Ideal) h w b = l
  rw [subf_apply, broadcastInDim_a1_ab_apply, logSumExp_apply, shifted_apply]
  exact congrArg (fun z => (l (ix2 r j) - rowTop fun k => l (ix2 r k)) - Ideal.log z)
    (Finset.sum_congr rfl fun k _ => congrArg Ideal.exp (shifted_apply l r k))

end Cert.Gcn.outWhole

/-! ## From the blocks to the array -/

namespace Cert.Gcn.outBlock

open Cert.KernelIdeal Cert.KernelIdeal.Gen

-- the contents of the TensorCore's buffers when the region is entered
variable (V : (c : Dev nD) → (b : Ref sig .tc) → Buf (Elt Ideal) ((c : Thread nD τ).loc b))

/-- The offsets (0, 0) are zero on both axes. -/
theorem origin_eq : (![0, 0] : Fin 2 → Nat) = fun _ => 0 := funext fun a => by fin_cases a <;> rfl

/-- Where each window's block sits at grid point `t`: the node features' and the result's are row block `t`; the
    weights and the bias row are one block each. Decided over the ten points. -/
theorem index_maps : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What the body leaves in the result's buffer is its payload over the three blocks it loaded. -/
theorem out_eq_payload (x0 : Vec Ideal S10000x64 .f32) (x1 : Vec Ideal S64x16 .f32) (x2 : Vec Ideal S1x16 .f32) :
    out4_3 (F := Ideal) x0 x1 x2 = k4_pay1 (F := Ideal) x0 x1 x2 := by
  unfold out4_3
  rw [View.canon_unit_zero origin_eq]
  simp only [View.ld_unit_zero (S := S10000x64) origin_eq, View.ld_unit_zero (S := S64x16) origin_eq, View.ld_unit_zero (S := S1x16) origin_eq]

/-- THE POINT FACT. Entry `y = (p, j)` of what point `t` leaves is the output layer of the arrays the region found,
    at row `10000 t + p` and class `j`: row `p` of the point's block of node features is row `10000 t + p` of the array, the
    weights' block is the weights, and the bias row's block is the bias vector laid as one row. -/
theorem point_value (c : Dev nD) (bias : FVec Ideal S16 .f32) (hc : S16.ShapeCasts S1x16)
    (hb : V c main_v96 = shapeCast S1x16 bias hc) (t : Fin cfg4.N) (y : S10000x16.Idx) :
    out4_3 (F := Ideal) (iblk4 V c 0 t) (iblk4 V c 1 t) (iblk4 V c 2 t) y
      = outLayer (F := Ideal) (V c main_v95) (V c main_arg8) bias (((cfg4.win 3).blk t).view.emb y) := by
  obtain ⟨e00, e01, e10, e11, e20, e21, e30, e31⟩ := index_maps t
  have hN : grid4.N = 10 := N_4
  have ht : t.val < 10 := by have h := t.isLt; have h' : t.val < grid4.N := h; omega
  obtain ⟨p, j, rfl⟩ : ∃ (p : Fin 10000) (j : Fin 16), y = ix2 p j := ⟨y 0, y 1, eq_ix2 y⟩
  have hp : p.val < 10000 := p.isLt
  have hemb : ((cfg4.win 3).blk t).view.emb (ix2 p j) = ix2 (⟨t.val * 10000 + p.val, by omega⟩ : Fin 100000) j :=
    funext fun a => Fin.ext (by
      match a with
      | ⟨0, _⟩ => show win4_3.index t (0 : Fin 2) * 10000 + 1 * p.val = t.val * 10000 + p.val; omega
      | ⟨1, _⟩ => show win4_3.index t (1 : Fin 2) * 16 + 1 * j.val = j.val; omega)
  refine ((congrFun (out_eq_payload (iblk4 V c 0 t) (iblk4 V c 1 t) (iblk4 V c 2 t)) (ix2 p j)).trans
    (payload_apply (iblk4 V c 0 t) (iblk4 V c 1 t) (iblk4 V c 2 t) p j)).trans (Eq.symm ?_)
  refine ((congrArg (outLayer (F := Ideal) (V c main_v95) (V c main_arg8) bias) hemb).trans
    (outWhole.outLayer_apply (V c main_v95) (V c main_arg8) bias ⟨t.val * 10000 + p.val, by omega⟩ j)).trans ?_
  refine congrArg (fun r => rowLogSoftmax r j) (funext fun j' => ?_)
  refine congrArg₂ (· + ·) (Finset.sum_congr rfl fun k _ => congrArg₂ (· * ·) (Eq.symm ?_) (Eq.symm ?_)) (Eq.symm ?_)
  · show V c main_v95 (((cfg4.win 0).blk t).view.emb (ix2 p k)) = V c main_v95 (ix2 (⟨t.val * 10000 + p.val, by omega⟩ : Fin 100000) k)
    refine congrArg (V c main_v95) (funext fun a => Fin.ext ?_)
    match a with
    | ⟨0, _⟩ => show win4_0.index t (0 : Fin 2) * 10000 + 1 * p.val = t.val * 10000 + p.val; omega
    | ⟨1, _⟩ => show win4_0.index t (1 : Fin 2) * 64 + 1 * k.val = k.val; omega
  · show V c main_arg8 (((cfg4.win 1).blk t).view.emb (ix2 k j')) = V c main_arg8 (ix2 k j')
    refine congrArg (V c main_arg8) (funext fun a => Fin.ext ?_)
    match a with
    | ⟨0, _⟩ => show win4_1.index t (0 : Fin 2) * 64 + 1 * k.val = k.val; omega
    | ⟨1, _⟩ => show win4_1.index t (1 : Fin 2) * 16 + 1 * j'.val = j'.val; omega
  · show V c main_v96 (((cfg4.win 2).blk t).view.emb (ix2 (0 : Fin 1) j')) = bias (ix1 j')
    rw [hb]
    refine shapeCast_apply bias hc _ (ix1 j') ?_
    rw [Shape.rowMajor_val_two, Shape.rowMajor_val_one]
    show j'.val = (win4_2.index t (0 : Fin 2) * 1 + 1 * 0) * 16 + (win4_2.index t (1 : Fin 2) * 16 + 1 * j'.val)
    omega

/-- An entry of the result is in point `t`'s block iff each coordinate is in the block's range on its axis. -/
theorem mem_block (t : Fin cfg4.N) (i : S100000x16.Idx) :
    i ∈ ((cfg4.win 3).blk t).view.set ↔ ∀ a : Fin 2, win4_3.index t a * S10000x16.size a ≤ (i a).val ∧ (i a).val < win4_3.index t a * S10000x16.size a + S10000x16.size a := by
  show i ∈ ((View.whole main_v97).slice (win4_3.rect t)).set ↔ _
  rw [View.set_slice_whole, Rect.mem_set_unit]
  exact Iff.rfl

/-- The blocks tile the result: row `r` is in the block of point `r / 10000`, which writes back. -/
theorem covered (i : S100000x16.Idx) :
    ∃ t : Fin cfg4.N, (cfg4.win 3).flush t = true ∧ i ∈ ((cfg4.win 3).blk t).view.set := by
  have hi0 : (i 0).val < 100000 := (i 0).isLt
  have hi1 : (i 1).val < 16 := (i 1).isLt
  have hN : grid4.N = 10 := N_4
  obtain ⟨t, ht⟩ : ∃ t : Fin cfg4.N, t.val = (i 0).val / 10000 :=
    ⟨⟨(i 0).val / 10000, by show (i 0).val / 10000 < grid4.N; omega⟩, rfl⟩
  obtain ⟨-, -, -, -, -, -, e30, e31⟩ := index_maps t
  refine ⟨t, flush4_3 t, ?_⟩
  rw [mem_block]
  intro a
  match a with
  | ⟨0, _⟩ => show win4_3.index t (0 : Fin 2) * 10000 ≤ (i 0).val ∧ (i 0).val < win4_3.index t (0 : Fin 2) * 10000 + 10000; omega
  | ⟨1, _⟩ => show win4_3.index t (1 : Fin 2) * 16 ≤ (i 1).val ∧ (i 1).val < win4_3.index t (1 : Fin 2) * 16 + 16; omega

/-- What point `t` writes back is block `t` of the output layer of the arrays the region found. -/
theorem flushed_eq (c : Dev nD) (bias : FVec Ideal S16 .f32) (hc : S16.ShapeCasts S1x16)
    (hb : V c main_v96 = shapeCast S1x16 bias hc) (t : Fin cfg4.N) :
    (dat4 V c).flushed 3 t = ((cfg4.win 3).blk t).view.read (Elt Ideal) (outLayer (F := Ideal) (V c main_v95) (V c main_arg8) bias) := by
  show (cfg4.win 3).cut (grid4.coords t) ((dat4 V c).after 3 t) = _
  rw [after4_3]
  funext y
  exact point_value V c bias hc hb t y

end Cert.Gcn.outBlock

namespace Cert.Gcn

/-- THE OUTPUT LAYER'S REGION, as one function of what it finds: the result array it leaves is the output layer (the
    class scores  h · W3 + b3  and their row-wise log-softmax) of the node-feature array and the weights it found and
    the bias vector, whose one-row cast it found in the bias buffer. -/
theorem out_region (V : (c : Dev Cert.KernelIdeal.nD) → (b : Ref Cert.KernelIdeal.sig .tc) → Buf (Elt Ideal) ((c : Thread Cert.KernelIdeal.nD Cert.KernelIdeal.τ).loc b))
    (c : Dev Cert.KernelIdeal.nD) (bias : Arr Ideal Cert.ReferenceIdeal.S16)
    (hb : V c Cert.KernelIdeal.main_v96 = shapeCast Cert.KernelIdeal.S1x16 bias Cert.KernelIdeal.Gen.shapeCasts_S16_S1x16) :
    (Cert.KernelIdeal.Gen.dat4 V c).arrAt 3 Cert.KernelIdeal.cfg4.N = outLayer (V c Cert.KernelIdeal.main_v95) (V c Cert.KernelIdeal.main_arg8) bias :=
  (Cert.KernelIdeal.Gen.dat4 V c).arrAt_eq_of_cover 3 (outLayer (V c Cert.KernelIdeal.main_v95) (V c Cert.KernelIdeal.main_arg8) bias)
    (fun t _ => outBlock.flushed_eq V c bias _ hb t) outBlock.covered

end Cert.Gcn

end
-- ==== Proof.RefOps.lean ====
/-
  The reference program as a straight line of 149 host operations, cut into its layers.

  The line is the edges with self-loops and their normalisation, the product with W1, the aggregation, the bias and
  the rectifier (layer 1); the same over layer 1's output with W2, b2 (layer 2); the product with W3 and the bias
  (the class scores); the scores less their row maxima; and the subtraction of each row's log-sum-exp.  A called
  function's operations stand in its call's place.
-/
import proofs.«167953_j30932354465858_1_alg».proof.Proof.Gen.ReferenceIdeal
import proofs.«167953_j30932354465858_1_alg».proof.Proof.Spec
import Idealize.ShloMosaic.Lib.StableHlo.Run

noncomputable section

namespace Cert.ReferenceIdeal.Layers

open Cert.ReferenceIdeal Cert.ReferenceIdeal.Gen Idealize.ShloMosaic Idealize.ShloMosaic.TcCoe Idealize.SL.Sem Idealize.ShloMosaic.StableHlo

variable {F : FTy → Type} [FloatOps F]

/-- Layer 1's operations. -/
abbrev ops1 : List (HloOp τ sig (Elt F)) :=
  [ unary main_arg1 main_v0 ((extractStridedSlice S1x1000000 ![0, 0] · slices_S2x1000000_S1x1000000_0_0) : (⟨S2x1000000, .i32⟩ : BufTy).Contents (Elt F) → (⟨S1x1000000, .i32⟩ : BufTy).Contents (Elt F)),
    reshape main_v0 main_v1 rfl shapeCasts_S1x1000000_S1000000,
    unary main_arg1 main_v2 ((extractStridedSlice S1x1000000 ![1, 0] · slices_S2x1000000_S1x1000000_1_0) : (⟨S2x1000000, .i32⟩ : BufTy).Contents (Elt F) → (⟨S1x1000000, .i32⟩ : BufTy).Contents (Elt F)),
    reshape main_v2 main_v3 rfl shapeCasts_S1x1000000_S1000000,
    nullary main_v4 (iotaInDim S100000 32 0),
    binary main_v1 main_v4 main_v5 ((fun a b => concatenate S1100000 0 [⟨S1000000, a⟩, ⟨S100000, b⟩] concatenates_S1000000_S100000_S1100000_d0) : (⟨S1000000, .i32⟩ : BufTy).Contents (Elt F) → (⟨S100000, .i32⟩ : BufTy).Contents (Elt F) → (⟨S1100000, .i32⟩ : BufTy).Contents (Elt F)),
    binary main_v3 main_v4 main_v6 ((fun a b => concatenate S1100000 0 [⟨S1000000, a⟩, ⟨S100000, b⟩] concatenates_S1000000_S100000_S1100000_d0) : (⟨S1000000, .i32⟩ : BufTy).Contents (Elt F) → (⟨S100000, .i32⟩ : BufTy).Contents (Elt F) → (⟨S1100000, .i32⟩ : BufTy).Contents (Elt F)),
    nullary main_cst (constant S_ .f32 0x3F800000#32),
    unary main_cst main_v7 (broadcastInDim S100000 ![] bcast_S_S100000 : (⟨S_, .f32⟩ : BufTy).Contents (Elt F) → (⟨S100000, .f32⟩ : BufTy).Contents (Elt F)),
    binary main_arg2 main_v7 main_v8 ((fun a b => concatenate S1100000 0 [⟨S1000000, a⟩, ⟨S100000, b⟩] concatenates_S1000000_S100000_S1100000_d0) : (⟨S1000000, .f32⟩ : BufTy).Contents (Elt F) → (⟨S100000, .f32⟩ : BufTy).Contents (Elt F) → (⟨S1100000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S1100000x1 ![0] bcast_S1100000_S1100000x1_0 : (⟨S1100000, .i32⟩ : BufTy).Contents (Elt F) → (⟨S1100000x1, .i32⟩ : BufTy).Contents (Elt F)),
    ternary main_v9 main_v10 main_v8 main_v11 ((fun x i u => Host.scatterAdd scatter_S100000_S1100000x1_S1100000_n_0_0_1 x i u) : (⟨S100000, .f32⟩ : BufTy).Contents (Elt F) → (⟨S1100000x1, .i32⟩ : BufTy).Contents (Elt F) → (⟨S1100000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select,
    nullary main_c (constantI S_ 32 0#32),
    unary main_c main_v16 (broadcastInDim S1100000 ![] bcast_S_S1100000 : (⟨S_, .i32⟩ : BufTy).Contents (Elt F) → (⟨S1100000, .i32⟩ : BufTy).Contents (Elt F)),
    binary main_v5 main_v16 main_v17 (cmpi .slt : (⟨S1100000, .i32⟩ : BufTy).Contents (Elt F) → (⟨S1100000, .i32⟩ : BufTy).Contents (Elt F) → (⟨S1100000, .i1⟩ : BufTy).Contents (Elt F)),
    nullary main_c_3 (constantI S_ 32 100000#32),
    unary main_c_3 main_v18 (broadcastInDim S1100000 ![] bcast_S_S1100000 : (⟨S_, .i32⟩ : BufTy).Contents (Elt F) → (⟨S1100000, .i32⟩ : BufTy).Contents (Elt F)),
    binary main_v5 main_v18 main_v19 (addi : (⟨S1100000, .i32⟩ : BufTy).Contents (Elt F) → (⟨S1100000, .i32⟩ : BufTy).Contents (Elt F) → (⟨S1100000, .i32⟩ : BufTy).Contents (Elt F)),
    ternary main_v17 main_v19 main_v5 main_v20 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    unary main_v20 main_v21 (broadcastInDim S1100000x1 ![0] bcast_S1100000_S1100000x1_0 : (⟨S1100000, .i32⟩ : BufTy).Contents (Elt F) → (⟨S1100000x1, .i32⟩ : BufTy).Contents (Elt F)),
    binary main_v15 main_v21 main_v22 ((fun x i => Host.gather gather_S100000_S1100000x1_S1100000_n_0_n_n_0_1_1 x i) : (⟨S100000, .f32⟩ : BufTy).Contents (Elt F) → (⟨S1100000x1, .i32⟩ : BufTy).Contents (Elt F) → (⟨S1100000, .f32⟩ : BufTy).Contents (Elt F)),
    binary main_v22 main_v8 main_v23 (mulf : (⟨S1100000, .f32⟩ : BufTy).Contents (Elt F) → (⟨S1100000, .f32⟩ : BufTy).Contents (Elt F) → (⟨S1100000, .f32⟩ : BufTy).Contents (Elt F)),
    nullary main_c_4 (constantI S_ 32 0#32),
    unary main_c_4 main_v24 (broadcastInDim S1100000 ![] bcast_S_S1100000 : (⟨S_, .i32⟩ : BufTy).Contents (Elt F) → (⟨S1100000, .i32⟩ : BufTy).Contents (Elt F)),
    binary main_v6 main_v24 main_v25 (cmpi .slt : (⟨S1100000, .i32⟩ : BufTy).Contents (Elt F) → (⟨S1100000, .i32⟩ : BufTy).Contents (Elt F) → (⟨S1100000, .i1⟩ : BufTy).Contents (Elt F)),
    nullary main_c_5 (constantI S_ 32 100000#32),
    unary main_c_5 main_v26 (broadcastInDim S1100000 ![] bcast_S_S1100000 : (⟨S_, .i32⟩ : BufTy).Contents (Elt F) → (⟨S1100000, .i32⟩ : BufTy).Contents (Elt F)),
    binary main_v6 main_v26 main_v27 (addi : (⟨S1100000, .i32⟩ : BufTy).Contents (Elt F) → (⟨S1100000, .i32⟩ : BufTy).Contents (Elt F) → (⟨S1100000, .i32⟩ : BufTy).Contents (Elt F)),
    ternary main_v25 main_v27 main_v6 main_v28 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    unary main_v28 main_v29 (broadcastInDim S1100000x1 ![0] bcast_S1100000_S1100000x1_0 : (⟨S1100000, .i32⟩ : BufTy).Contents (Elt F) → (⟨S1100000x1, .i32⟩ : BufTy).Contents (Elt F)),
    binary main_v15 main_v29 main_v30 ((fun x i => Host.gather gather_S100000_S1100000x1_S1100000_n_0_n_n_0_1_1 x i) : (⟨S100000, .f32⟩ : BufTy).Contents (Elt F) → (⟨S1100000x1, .i32⟩ : BufTy).Contents (Elt F) → (⟨S1100000, .f32⟩ : BufTy).Contents (Elt F)),
    binary main_v23 main_v30 main_v31 (mulf : (⟨S1100000, .f32⟩ : BufTy).Contents (Elt F) → (⟨S1100000, .f32⟩ : BufTy).Contents (Elt F) → (⟨S1100000, .f32⟩ : BufTy).Contents (Elt F)),
    binary main_arg0 main_arg4 main_v32 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_6 (constantI S_ 32 0#32),
    unary main_c_6 main_v33 (broadcastInDim S1100000 ![] bcast_S_S1100000 : (⟨S_, .i32⟩ : BufTy).Contents (Elt F) → (⟨S1100000, .i32⟩ : BufTy).Contents (Elt F)),
    binary main_v5 main_v33 main_v34 (cmpi .slt : (⟨S1100000, .i32⟩ : BufTy).Contents (Elt F) → (⟨S1100000, .i32⟩ : BufTy).Contents (Elt F) → (⟨S1100000, .i1⟩ : BufTy).Contents (Elt F)),
    nullary main_c_7 (constantI S_ 32 100000#32),
    unary main_c_7 main_v35 (broadcastInDim S1100000 ![] bcast_S_S1100000 : (⟨S_, .i32⟩ : BufTy).Contents (Elt F) → (⟨S1100000, .i32⟩ : BufTy).Contents (Elt F)),
    binary main_v5 main_v35 main_v36 (addi : (⟨S1100000, .i32⟩ : BufTy).Contents (Elt F) → (⟨S1100000, .i32⟩ : BufTy).Contents (Elt F) → (⟨S1100000, .i32⟩ : BufTy).Contents (Elt F)),
    ternary main_v34 main_v36 main_v5 main_v37 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    unary main_v37 main_v38 (broadcastInDim S1100000x1 ![0] bcast_S1100000_S1100000x1_0 : (⟨S1100000, .i32⟩ : BufTy).Contents (Elt F) → (⟨S1100000x1, .i32⟩ : BufTy).Contents (Elt F)),
    binary main_v32 main_v38 main_v39 ((fun x i => Host.gather gather_S100000x128_S1100000x1_S1100000x128_1_0_n_n_0_1_1128 x i) : (⟨S100000x128, .f32⟩ : BufTy).Contents (Elt F) → (⟨S1100000x1, .i32⟩ : BufTy).Contents (Elt F) → (⟨S1100000x128, .f32⟩ : BufTy).Contents (Elt F)),
    unary main_v31 main_v40 (broadcastInDim S1100000x1 ![0] bcast_S1100000_S1100000x1_0 : (⟨S1100000, .f32⟩ : BufTy).Contents (Elt F) → (⟨S1100000x1, .f32⟩ : BufTy).Contents (Elt F)),
    unary main_v40 main_v41 (broadcastInDim S1100000x128 ![0, 1] bcast_S1100000x1_S1100000x128_0_1 : (⟨S1100000x1, .f32⟩ : BufTy).Contents (Elt F) → (⟨S1100000x128, .f32⟩ : BufTy).Contents (Elt F)),
    binary main_v39 main_v41 main_v42 (mulf : (⟨S1100000x128, .f32⟩ : BufTy).Contents (Elt F) → (⟨S1100000x128, .f32⟩ : BufTy).Contents (Elt F) → (⟨S1100000x128, .f32⟩ : BufTy).Contents (Elt F)),
    nullary main_cst_8 (constant S_ .f32 0x00000000#32),
    unary main_cst_8 main_v43 (broadcastInDim S100000x128 ![] bcast_S_S100000x128 : (⟨S_, .f32⟩ : BufTy).Contents (Elt F) → (⟨S100000x128, .f32⟩ : BufTy).Contents (Elt F)),
    unary main_v6 main_v44 (broadcastInDim S1100000x1 ![0] bcast_S1100000_S1100000x1_0 : (⟨S1100000, .i32⟩ : BufTy).Contents (Elt F) → (⟨S1100000x1, .i32⟩ : BufTy).Contents (Elt F)),
    ternary main_v43 main_v44 main_v42 main_v45 ((fun x i u => Host.scatterAdd scatter_S100000x128_S1100000x1_S1100000x128_1_0_0_1 x i u) : (⟨S100000x128, .f32⟩ : BufTy).Contents (Elt F) → (⟨S1100000x1, .i32⟩ : BufTy).Contents (Elt F) → (⟨S1100000x128, .f32⟩ : BufTy).Contents (Elt F) → (⟨S100000x128, .f32⟩ : BufTy).Contents (Elt F)),
    unary main_arg5 main_v46 (broadcastInDim S1x128 ![1] bcast_S128_S1x128_1 : (⟨S128, .f32⟩ : BufTy).Contents (Elt F) → (⟨S1x128, .f32⟩ : BufTy).Contents (Elt F)),
    unary main_v46 main_v47 (broadcastInDim S100000x128 ![0, 1] bcast_S1x128_S100000x128_0_1 : (⟨S1x128, .f32⟩ : BufTy).Contents (Elt F) → (⟨S100000x128, .f32⟩ : BufTy).Contents (Elt F)),
    binary main_v45 main_v47 main_v48 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v48) (TRef.of (T := ⟨S100000x128, .f32⟩) main_call1_v0) (TRef.of (T := ⟨S100000x128, .f32⟩) main_v49) maximumf ]

/-- Layer 2's operations. -/
abbrev ops2 : List (HloOp τ sig (Elt F)) :=
  [ unary main_arg1 main_v50 ((extractStridedSlice S1x1000000 ![0, 0] · slices_S2x1000000_S1x1000000_0_0) : (⟨S2x1000000, .i32⟩ : BufTy).Contents (Elt F) → (⟨S1x1000000, .i32⟩ : BufTy).Contents (Elt F)),
    reshape main_v50 main_v51 rfl shapeCasts_S1x1000000_S1000000,
    unary main_arg1 main_v52 ((extractStridedSlice S1x1000000 ![1, 0] · slices_S2x1000000_S1x1000000_1_0) : (⟨S2x1000000, .i32⟩ : BufTy).Contents (Elt F) → (⟨S1x1000000, .i32⟩ : BufTy).Contents (Elt F)),
    reshape main_v52 main_v53 rfl shapeCasts_S1x1000000_S1000000,
    nullary main_v54 (iotaInDim S100000 32 0),
    binary main_v51 main_v54 main_v55 ((fun a b => concatenate S1100000 0 [⟨S1000000, a⟩, ⟨S100000, b⟩] concatenates_S1000000_S100000_S1100000_d0) : (⟨S1000000, .i32⟩ : BufTy).Contents (Elt F) → (⟨S100000, .i32⟩ : BufTy).Contents (Elt F) → (⟨S1100000, .i32⟩ : BufTy).Contents (Elt F)),
    binary main_v53 main_v54 main_v56 ((fun a b => concatenate S1100000 0 [⟨S1000000, a⟩, ⟨S100000, b⟩] concatenates_S1000000_S100000_S1100000_d0) : (⟨S1000000, .i32⟩ : BufTy).Contents (Elt F) → (⟨S100000, .i32⟩ : BufTy).Contents (Elt F) → (⟨S1100000, .i32⟩ : BufTy).Contents (Elt F)),
    nullary main_cst_9 (constant S_ .f32 0x3F800000#32),
    unary main_cst_9 main_v57 (broadcastInDim S100000 ![] bcast_S_S100000 : (⟨S_, .f32⟩ : BufTy).Contents (Elt F) → (⟨S100000, .f32⟩ : BufTy).Contents (Elt F)),
    binary main_arg2 main_v57 main_v58 ((fun a b => concatenate S1100000 0 [⟨S1000000, a⟩, ⟨S100000, b⟩] concatenates_S1000000_S100000_S1100000_d0) : (⟨S1000000, .f32⟩ : BufTy).Contents (Elt F) → (⟨S100000, .f32⟩ : BufTy).Contents (Elt F) → (⟨S1100000, .f32⟩ : BufTy).Contents (Elt F)),
    nullary main_cst_10 (constant S_ .f32 0x00000000#32),
    unary main_cst_10 main_v59 (broadcastInDim S100000 ![] bcast_S_S100000 : (⟨S_, .f32⟩ : BufTy).Contents (Elt F) → (⟨S100000, .f32⟩ : BufTy).Contents (Elt F)),
    unary main_v56 main_v60 (broadcastInDim S1100000x1 ![0] bcast_S1100000_S1100000x1_0 : (⟨S1100000, .i32⟩ : BufTy).Contents (Elt F) → (⟨S1100000x1, .i32⟩ : BufTy).Contents (Elt F)),
    ternary main_v59 main_v60 main_v58 main_v61 ((fun x i u => Host.scatterAdd scatter_S100000_S1100000x1_S1100000_n_0_0_1 x i u) : (⟨S100000, .f32⟩ : BufTy).Contents (Elt F) → (⟨S1100000x1, .i32⟩ : BufTy).Contents (Elt F) → (⟨S1100000, .f32⟩ : BufTy).Contents (Elt F) → (⟨S100000, .f32⟩ : BufTy).Contents (Elt F)),
    nullary main_cst_11 (constant S_ .f32 0x00000000#32),
    unary main_cst_11 main_v62 (broadcastInDim S100000 ![] bcast_S_S100000 : (⟨S_, .f32⟩ : BufTy).Contents (Elt F) → (⟨S100000, .f32⟩ : BufTy).Contents (Elt F)),
    binary main_v61 main_v62 main_v63 (cmpf .ogt : (⟨S100000, .f32⟩ : BufTy).Contents (Elt F) → (⟨S100000, .f32⟩ : BufTy).Contents (Elt F) → (⟨S100000, .i1⟩ : BufTy).Contents (Elt F)),
    unary main_v61 main_v64 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v63) (TRef.of (T := ⟨S100000, .f32⟩) main_v64) (TRef.of (T := ⟨S100000, .f32⟩) main_call2_v1) (TRef.of (T := ⟨S100000, .f32⟩) main_v65) select,
    nullary main_c_13 (constantI S_ 32 0#32),
    unary main_c_13 main_v66 (broadcastInDim S1100000 ![] bcast_S_S1100000 : (⟨S_, .i32⟩ : BufTy).Contents (Elt F) → (⟨S1100000, .i32⟩ : BufTy).Contents (Elt F)),
    binary main_v55 main_v66 main_v67 (cmpi .slt : (⟨S1100000, .i32⟩ : BufTy).Contents (Elt F) → (⟨S1100000, .i32⟩ : BufTy).Contents (Elt F) → (⟨S1100000, .i1⟩ : BufTy).Contents (Elt F)),
    nullary main_c_14 (constantI S_ 32 100000#32),
    unary main_c_14 main_v68 (broadcastInDim S1100000 ![] bcast_S_S1100000 : (⟨S_, .i32⟩ : BufTy).Contents (Elt F) → (⟨S1100000, .i32⟩ : BufTy).Contents (Elt F)),
    binary main_v55 main_v68 main_v69 (addi : (⟨S1100000, .i32⟩ : BufTy).Contents (Elt F) → (⟨S1100000, .i32⟩ : BufTy).Contents (Elt F) → (⟨S1100000, .i32⟩ : BufTy).Contents (Elt F)),
    ternary main_v67 main_v69 main_v55 main_v70 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    unary main_v70 main_v71 (broadcastInDim S1100000x1 ![0] bcast_S1100000_S1100000x1_0 : (⟨S1100000, .i32⟩ : BufTy).Contents (Elt F) → (⟨S1100000x1, .i32⟩ : BufTy).Contents (Elt F)),
    binary main_v65 main_v71 main_v72 ((fun x i => Host.gather gather_S100000_S1100000x1_S1100000_n_0_n_n_0_1_1 x i) : (⟨S100000, .f32⟩ : BufTy).Contents (Elt F) → (⟨S1100000x1, .i32⟩ : BufTy).Contents (Elt F) → (⟨S1100000, .f32⟩ : BufTy).Contents (Elt F)),
    binary main_v72 main_v58 main_v73 (mulf : (⟨S1100000, .f32⟩ : BufTy).Contents (Elt F) → (⟨S1100000, .f32⟩ : BufTy).Contents (Elt F) → (⟨S1100000, .f32⟩ : BufTy).Contents (Elt F)),
    nullary main_c_15 (constantI S_ 32 0#32),
    unary main_c_15 main_v74 (broadcastInDim S1100000 ![] bcast_S_S1100000 : (⟨S_, .i32⟩ : BufTy).Contents (Elt F) → (⟨S1100000, .i32⟩ : BufTy).Contents (Elt F)),
    binary main_v56 main_v74 main_v75 (cmpi .slt : (⟨S1100000, .i32⟩ : BufTy).Contents (Elt F) → (⟨S1100000, .i32⟩ : BufTy).Contents (Elt F) → (⟨S1100000, .i1⟩ : BufTy).Contents (Elt F)),
    nullary main_c_16 (constantI S_ 32 100000#32),
    unary main_c_16 main_v76 (broadcastInDim S1100000 ![] bcast_S_S1100000 : (⟨S_, .i32⟩ : BufTy).Contents (Elt F) → (⟨S1100000, .i32⟩ : BufTy).Contents (Elt F)),
    binary main_v56 main_v76 main_v77 (addi : (⟨S1100000, .i32⟩ : BufTy).Contents (Elt F) → (⟨S1100000, .i32⟩ : BufTy).Contents (Elt F) → (⟨S1100000, .i32⟩ : BufTy).Contents (Elt F)),
    ternary main_v75 main_v77 main_v56 main_v78 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    unary main_v78 main_v79 (broadcastInDim S1100000x1 ![0] bcast_S1100000_S1100000x1_0 : (⟨S1100000, .i32⟩ : BufTy).Contents (Elt F) → (⟨S1100000x1, .i32⟩ : BufTy).Contents (Elt F)),
    binary main_v65 main_v79 main_v80 ((fun x i => Host.gather gather_S100000_S1100000x1_S1100000_n_0_n_n_0_1_1 x i) : (⟨S100000, .f32⟩ : BufTy).Contents (Elt F) → (⟨S1100000x1, .i32⟩ : BufTy).Contents (Elt F) → (⟨S1100000, .f32⟩ : BufTy).Contents (Elt F)),
    binary main_v73 main_v80 main_v81 (mulf : (⟨S1100000, .f32⟩ : BufTy).Contents (Elt F) → (⟨S1100000, .f32⟩ : BufTy).Contents (Elt F) → (⟨S1100000, .f32⟩ : BufTy).Contents (Elt F)),
    binary main_v49 main_arg6 main_v82 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_17 (constantI S_ 32 0#32),
    unary main_c_17 main_v83 (broadcastInDim S1100000 ![] bcast_S_S1100000 : (⟨S_, .i32⟩ : BufTy).Contents (Elt F) → (⟨S1100000, .i32⟩ : BufTy).Contents (Elt F)),
    binary main_v55 main_v83 main_v84 (cmpi .slt : (⟨S1100000, .i32⟩ : BufTy).Contents (Elt F) → (⟨S1100000, .i32⟩ : BufTy).Contents (Elt F) → (⟨S1100000, .i1⟩ : BufTy).Contents (Elt F)),
    nullary main_c_18 (constantI S_ 32 100000#32),
    unary main_c_18 main_v85 (broadcastInDim S1100000 ![] bcast_S_S1100000 : (⟨S_, .i32⟩ : BufTy).Contents (Elt F) → (⟨S1100000, .i32⟩ : BufTy).Contents (Elt F)),
    binary main_v55 main_v85 main_v86 (addi : (⟨S1100000, .i32⟩ : BufTy).Contents (Elt F) → (⟨S1100000, .i32⟩ : BufTy).Contents (Elt F) → (⟨S1100000, .i32⟩ : BufTy).Contents (Elt F)),
    ternary main_v84 main_v86 main_v55 main_v87 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    unary main_v87 main_v88 (broadcastInDim S1100000x1 ![0] bcast_S1100000_S1100000x1_0 : (⟨S1100000, .i32⟩ : BufTy).Contents (Elt F) → (⟨S1100000x1, .i32⟩ : BufTy).Contents (Elt F)),
    binary main_v82 main_v88 main_v89 ((fun x i => Host.gather gather_S100000x64_S1100000x1_S1100000x64_1_0_n_n_0_1_164 x i) : (⟨S100000x64, .f32⟩ : BufTy).Contents (Elt F) → (⟨S1100000x1, .i32⟩ : BufTy).Contents (Elt F) → (⟨S1100000x64, .f32⟩ : BufTy).Contents (Elt F)),
    unary main_v81 main_v90 (broadcastInDim S1100000x1 ![0] bcast_S1100000_S1100000x1_0 : (⟨S1100000, .f32⟩ : BufTy).Contents (Elt F) → (⟨S1100000x1, .f32⟩ : BufTy).Contents (Elt F)),
    unary main_v90 main_v91 (broadcastInDim S1100000x64 ![0, 1] bcast_S1100000x1_S1100000x64_0_1 : (⟨S1100000x1, .f32⟩ : BufTy).Contents (Elt F) → (⟨S1100000x64, .f32⟩ : BufTy).Contents (Elt F)),
    binary main_v89 main_v91 main_v92 (mulf : (⟨S1100000x64, .f32⟩ : BufTy).Contents (Elt F) → (⟨S1100000x64, .f32⟩ : BufTy).Contents (Elt F) → (⟨S1100000x64, .f32⟩ : BufTy).Contents (Elt F)),
    nullary main_cst_19 (constant S_ .f32 0x00000000#32),
    unary main_cst_19 main_v93 (broadcastInDim S100000x64 ![] bcast_S_S100000x64 : (⟨S_, .f32⟩ : BufTy).Contents (Elt F) → (⟨S100000x64, .f32⟩ : BufTy).Contents (Elt F)),
    unary main_v56 main_v94 (broadcastInDim S1100000x1 ![0] bcast_S1100000_S1100000x1_0 : (⟨S1100000, .i32⟩ : BufTy).Contents (Elt F) → (⟨S1100000x1, .i32⟩ : BufTy).Contents (Elt F)),
    ternary main_v93 main_v94 main_v92 main_v95 ((fun x i u => Host.scatterAdd scatter_S100000x64_S1100000x1_S1100000x64_1_0_0_1 x i u) : (⟨S100000x64, .f32⟩ : BufTy).Contents (Elt F) → (⟨S1100000x1, .i32⟩ : BufTy).Contents (Elt F) → (⟨S1100000x64, .f32⟩ : BufTy).Contents (Elt F) → (⟨S100000x64, .f32⟩ : BufTy).Contents (Elt F)),
    unary main_arg7 main_v96 (broadcastInDim S1x64 ![1] bcast_S64_S1x64_1 : (⟨S64, .f32⟩ : BufTy).Contents (Elt F) → (⟨S1x64, .f32⟩ : BufTy).Contents (Elt F)),
    unary main_v96 main_v97 (broadcastInDim S100000x64 ![0, 1] bcast_S1x64_S100000x64_0_1 : (⟨S1x64, .f32⟩ : BufTy).Contents (Elt F) → (⟨S100000x64, .f32⟩ : BufTy).Contents (Elt F)),
    binary main_v95 main_v97 main_v98 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v98) (TRef.of (T := ⟨S100000x64, .f32⟩) main_call3_v0) (TRef.of (T := ⟨S100000x64, .f32⟩) main_v99) maximumf ]

/-- The class scores' operations. -/
abbrev ops3a : List (HloOp τ sig (Elt F)) :=
  [ binary main_v99 main_arg8 main_v100 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    unary main_arg9 main_v101 (broadcastInDim S1x16 ![1] bcast_S16_S1x16_1 : (⟨S16, .f32⟩ : BufTy).Contents (Elt F) → (⟨S1x16, .f32⟩ : BufTy).Contents (Elt F)),
    unary main_v101 main_v102 (broadcastInDim S100000x16 ![0, 1] bcast_S1x16_S100000x16_0_1 : (⟨S1x16, .f32⟩ : BufTy).Contents (Elt F) → (⟨S100000x16, .f32⟩ : BufTy).Contents (Elt F)),
    binary main_v100 main_v102 main_v103 (addf : (⟨S100000x16, .f32⟩ : BufTy).Contents (Elt F) → (⟨S100000x16, .f32⟩ : BufTy).Contents (Elt F) → (⟨S100000x16, .f32⟩ : BufTy).Contents (Elt F)) ]

/-- The operations that subtract each row's largest score. -/
abbrev ops3b : List (HloOp τ sig (Elt F)) :=
  [ TRef.nullary (TRef.of (T := ⟨S_, .f32⟩) main_call4_cst) (constant S_ .f32 0xFF800000#32),
    TRef.binary (TRef.of (T := ⟨S100000x16, .f32⟩) main_v103) (TRef.of (T := ⟨S_, .f32⟩) main_call4_cst) (TRef.of (T := ⟨S100000, .f32⟩) main_call4_v0) (fun x v => Host.reduce FloatOps.maximumf x v reducesTo_S100000x16_S100000_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S100000, .f32⟩) main_call4_v1) (broadcastInDim S100000 ![] bcast_S_S100000),
    TRef.binary (TRef.of (T := ⟨S100000, .f32⟩) main_call4_v1) (TRef.of (T := ⟨S100000, .f32⟩) main_call4_v0) (TRef.of (T := ⟨S100000, .f32⟩) main_call4_v2) maximumf,
    TRef.unary (TRef.of (T := ⟨S100000, .f32⟩) main_call4_v2) (TRef.of (T := ⟨S100000x1, .f32⟩) main_call4_v3) (broadcastInDim S100000x1 ![0] bcast_S100000_S100000x1_0),
    TRef.unary (TRef.of (T := ⟨S100000x1, .f32⟩) main_call4_v3) (TRef.of (T := ⟨S100000x16, .f32⟩) main_call4_v4) (broadcastInDim S100000x16 ![0, 1] bcast_S100000x1_S100000x16_0_1),
    TRef.binary (TRef.of (T := ⟨S100000x16, .f32⟩) main_v103) (TRef.of (T := ⟨S100000x16, .f32⟩) main_call4_v4) (TRef.of (T := ⟨S100000x16, .f32⟩) main_call4_v5) subf ]

/-- The operations that subtract each row's log-sum-exp. -/
abbrev ops3c : List (HloOp τ sig (Elt F)) :=
  [ TRef.unary (TRef.of (T := ⟨S100000x16, .f32⟩) main_call4_v5) (TRef.of (T := ⟨S100000x16, .f32⟩) main_call4_v6) Host.exp,
    TRef.nullary (TRef.of (T := ⟨S_, .f32⟩) main_call4_cst_1) (constant S_ .f32 0x00000000#32),
    TRef.binary (TRef.of (T := ⟨S100000x16, .f32⟩) main_call4_v6) (TRef.of (T := ⟨S_, .f32⟩) main_call4_cst_1) (TRef.of (T := ⟨S100000, .f32⟩) main_call4_v7) (fun x v => Host.reduceAdd x v reducesTo_S100000x16_S100000_d1 h_S_),
    TRef.unary (TRef.of (T := ⟨S100000, .f32⟩) main_call4_v7) (TRef.of (T := ⟨S100000x1, .f32⟩) main_call4_v8) (broadcastInDim S100000x1 ![0] bcast_S100000_S100000x1_0),
    TRef.unary (TRef.of (T := ⟨S100000x1, .f32⟩) main_call4_v8) (TRef.of (T := ⟨S100000x1, .f32⟩) main_call4_v9) Host.log,
    TRef.unary (TRef.of (T := ⟨S100000x1, .f32⟩) main_call4_v9) (TRef.of (T := ⟨S100000x16, .f32⟩) main_call4_v10) (broadcastInDim S100000x16 ![0, 1] bcast_S100000x1_S100000x16_0_1),
    TRef.binary (TRef.of (T := ⟨S100000x16, .f32⟩) main_call4_v5) (TRef.of (T := ⟨S100000x16, .f32⟩) main_call4_v10) (TRef.of (T := ⟨S100000x16, .f32⟩) main_v104) subf ]

/-- The whole line. -/
abbrev ops : List (HloOp τ sig (Elt F)) := ops1 ++ (ops2 ++ (ops3a ++ (ops3b ++ ops3c)))

set_option maxRecDepth 16384 in
set_option maxHeartbeats 4000000 in
/-- The printed program is that line. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 16384 in
/-- Every operation touches TensorCore buffers only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., reshape_bufs_sub .., unary_bufs_sub .., reshape_bufs_sub .., nullary_bufs_sub .., binary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The fold through a line cut in two is the fold through the second part of the fold through the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

end Cert.ReferenceIdeal.Layers

end
-- ==== Proof.RefLayer1.lean ====
/-
  The reference's first layer: from ANY buffer contents, the fold through its operations leaves the layer's output
  buffer at  relu (Agg (x · W1) + b1)  of the buffers it reads, and writes no argument.
-/
import proofs.«167953_j30932354465858_1_alg».proof.Proof.RefOps

noncomputable section

namespace Cert.ReferenceIdeal.Layers

open Cert.ReferenceIdeal Cert.ReferenceIdeal.Gen Idealize.ShloMosaic Idealize.ShloMosaic.TcCoe Idealize.SL.Sem Idealize.ShloMosaic.StableHlo

variable {F : FTy → Type} [FloatOps F]

variable (W : Valuation τ sig (Elt F))

set_option maxRecDepth 65536 in
set_option maxHeartbeats 4000000 in
theorem ops1_out : after ops1 W (Proc.devRef .tc main_v49)
    = Cert.Gcn.layer1 (W (Proc.devRef .tc main_arg0)) (W (Proc.devRef .tc main_arg1)) (W (Proc.devRef .tc main_arg2)) (W (Proc.devRef .tc main_arg4)) (W (Proc.devRef .tc main_arg5)) := by
  after_results_simp
  rfl

/-! ## The layer writes no argument -/

section Keeps
set_option maxRecDepth 65536
set_option maxHeartbeats 4000000
theorem ops1_keeps_arg0 : after ops1 W (Proc.devRef .tc main_arg0) = W (Proc.devRef .tc main_arg0) := by
  after_results_simp
theorem ops1_keeps_arg1 : after ops1 W (Proc.devRef .tc main_arg1) = W (Proc.devRef .tc main_arg1) := by
  after_results_simp
theorem ops1_keeps_arg2 : after ops1 W (Proc.devRef .tc main_arg2) = W (Proc.devRef .tc main_arg2) := by
  after_results_simp
theorem ops1_keeps_arg3 : after ops1 W (Proc.devRef .tc main_arg3) = W (Proc.devRef .tc main_arg3) := by
  after_results_simp
theorem ops1_keeps_arg4 : after ops1 W (Proc.devRef .tc main_arg4) = W (Proc.devRef .tc main_arg4) := by
  after_results_simp
theorem ops1_keeps_arg5 : after ops1 W (Proc.devRef .tc main_arg5) = W (Proc.devRef .tc main_arg5) := by
  after_results_simp
theorem ops1_keeps_arg6 : after ops1 W (Proc.devRef .tc main_arg6) = W (Proc.devRef .tc main_arg6) := by
  after_results_simp
theorem ops1_keeps_arg7 : after ops1 W (Proc.devRef .tc main_arg7) = W (Proc.devRef .tc main_arg7) := by
  after_results_simp
theorem ops1_keeps_arg8 : after ops1 W (Proc.devRef .tc main_arg8) = W (Proc.devRef .tc main_arg8) := by
  after_results_simp
theorem ops1_keeps_arg9 : after ops1 W (Proc.devRef .tc main_arg9) = W (Proc.devRef .tc main_arg9) := by
  after_results_simp
end Keeps

end Cert.ReferenceIdeal.Layers

end
-- ==== Proof.RefLayer2.lean ====
/-
  The reference's second layer: from ANY buffer contents, the fold through its operations leaves the layer's output
  buffer at  relu (Agg (h · W2) + b2)  of the buffers it reads, and writes no argument.
-/
import proofs.«167953_j30932354465858_1_alg».proof.Proof.RefOps

noncomputable section

namespace Cert.ReferenceIdeal.Layers

open Cert.ReferenceIdeal Cert.ReferenceIdeal.Gen Idealize.ShloMosaic Idealize.ShloMosaic.TcCoe Idealize.SL.Sem Idealize.ShloMosaic.StableHlo

variable {F : FTy → Type} [FloatOps F]

variable (W : Valuation τ sig (Elt F))

set_option maxRecDepth 65536 in
set_option maxHeartbeats 4000000 in
theorem ops2_out : after ops2 W (Proc.devRef .tc main_v99)
    = Cert.Gcn.layer2 (W (Proc.devRef .tc main_v49)) (W (Proc.devRef .tc main_arg1)) (W (Proc.devRef .tc main_arg2)) (W (Proc.devRef .tc main_arg6)) (W (Proc.devRef .tc main_arg7)) := by
  after_results_simp
  rfl

/-! ## The layer writes no argument -/

section Keeps
set_option maxRecDepth 65536
set_option maxHeartbeats 4000000
theorem ops2_keeps_arg0 : after ops2 W (Proc.devRef .tc main_arg0) = W (Proc.devRef .tc main_arg0) := by
  after_results_simp
theorem ops2_keeps_arg1 : after ops2 W (Proc.devRef .tc main_arg1) = W (Proc.devRef .tc main_arg1) := by
  after_results_simp
theorem ops2_keeps_arg2 : after ops2 W (Proc.devRef .tc main_arg2) = W (Proc.devRef .tc main_arg2) := by
  after_results_simp
theorem ops2_keeps_arg3 : after ops2 W (Proc.devRef .tc main_arg3) = W (Proc.devRef .tc main_arg3) := by
  after_results_simp
theorem ops2_keeps_arg4 : after ops2 W (Proc.devRef .tc main_arg4) = W (Proc.devRef .tc main_arg4) := by
  after_results_simp
theorem ops2_keeps_arg5 : after ops2 W (Proc.devRef .tc main_arg5) = W (Proc.devRef .tc main_arg5) := by
  after_results_simp
theorem ops2_keeps_arg6 : after ops2 W (Proc.devRef .tc main_arg6) = W (Proc.devRef .tc main_arg6) := by
  after_results_simp
theorem ops2_keeps_arg7 : after ops2 W (Proc.devRef .tc main_arg7) = W (Proc.devRef .tc main_arg7) := by
  after_results_simp
theorem ops2_keeps_arg8 : after ops2 W (Proc.devRef .tc main_arg8) = W (Proc.devRef .tc main_arg8) := by
  after_results_simp
theorem ops2_keeps_arg9 : after ops2 W (Proc.devRef .tc main_arg9) = W (Proc.devRef .tc main_arg9) := by
  after_results_simp
end Keeps

end Cert.ReferenceIdeal.Layers

end
-- ==== Proof.RefOut.lean ====
/-
  The reference's output layer: from ANY buffer contents, the fold through its operations leaves the class scores,
  then the scores less their row maxima, then the log-softmax, each at the network's stage of the buffers read; and
  writes no argument.
-/
import proofs.«167953_j30932354465858_1_alg».proof.Proof.RefOps

noncomputable section

namespace Cert.ReferenceIdeal.Layers

open Cert.ReferenceIdeal Cert.ReferenceIdeal.Gen Idealize.ShloMosaic Idealize.ShloMosaic.TcCoe Idealize.SL.Sem Idealize.ShloMosaic.StableHlo

variable {F : FTy → Type} [FloatOps F]

/-- Contents moved to a buffer's own type and back are the contents. -/
theorem ofBuf_toBuf {T : BufTy} (x : TRef sig T) (v : T.Contents (Elt F)) : x.ofBuf (x.toBuf v) = v := by
  obtain ⟨r, h, h1, h2⟩ := x
  subst h
  rfl

variable (W : Valuation τ sig (Elt F))

set_option maxRecDepth 65536 in
set_option maxHeartbeats 4000000 in
/-- The class scores. -/
theorem ops3a_out : after ops3a W (Proc.devRef .tc main_v103)
    = Cert.Gcn.logits (W (Proc.devRef .tc main_v99)) (W (Proc.devRef .tc main_arg8)) (W (Proc.devRef .tc main_arg9)) := by
  after_results_simp
  rfl

set_option maxRecDepth 65536 in
set_option maxHeartbeats 4000000 in
/-- The scores less their row's largest. -/
theorem ops3b_out : after ops3b W (Proc.devRef .tc main_call4_v5) = Cert.Gcn.shifted (W (Proc.devRef .tc main_v103)) := by
  after_results_simp
  simp only [ofBuf_toBuf]
  rfl

set_option maxRecDepth 65536 in
set_option maxHeartbeats 4000000 in
/-- Less their row's log-sum-exp. -/
theorem ops3c_out : after ops3c W (Proc.devRef .tc main_v104)
    = subf (W (Proc.devRef .tc main_call4_v5)) (broadcastInDim S100000x16 ![0, 1] bcast_S100000x1_S100000x16_0_1 (Cert.Gcn.logSumExp (W (Proc.devRef .tc main_call4_v5)))) := by
  after_results_simp
  simp only [ofBuf_toBuf]
  rfl

/-- The three together: the output layer. -/
theorem ops3_out : after (ops3a ++ (ops3b ++ ops3c)) W (Proc.devRef .tc main_v104)
    = Cert.Gcn.outLayer (W (Proc.devRef .tc main_v99)) (W (Proc.devRef .tc main_arg8)) (W (Proc.devRef .tc main_arg9)) := by
  rw [after_append, after_append, ops3c_out, ops3b_out, ops3a_out]
  rfl

/-! ## The layer writes no argument -/

section Keeps
set_option maxRecDepth 65536
set_option maxHeartbeats 4000000
theorem ops3a_keeps_arg0 : after ops3a W (Proc.devRef .tc main_arg0) = W (Proc.devRef .tc main_arg0) := by
  after_results_simp
theorem ops3a_keeps_arg1 : after ops3a W (Proc.devRef .tc main_arg1) = W (Proc.devRef .tc main_arg1) := by
  after_results_simp
theorem ops3a_keeps_arg2 : after ops3a W (Proc.devRef .tc main_arg2) = W (Proc.devRef .tc main_arg2) := by
  after_results_simp
theorem ops3a_keeps_arg3 : after ops3a W (Proc.devRef .tc main_arg3) = W (Proc.devRef .tc main_arg3) := by
  after_results_simp
theorem ops3a_keeps_arg4 : after ops3a W (Proc.devRef .tc main_arg4) = W (Proc.devRef .tc main_arg4) := by
  after_results_simp
theorem ops3a_keeps_arg5 : after ops3a W (Proc.devRef .tc main_arg5) = W (Proc.devRef .tc main_arg5) := by
  after_results_simp
theorem ops3a_keeps_arg6 : after ops3a W (Proc.devRef .tc main_arg6) = W (Proc.devRef .tc main_arg6) := by
  after_results_simp
theorem ops3a_keeps_arg7 : after ops3a W (Proc.devRef .tc main_arg7) = W (Proc.devRef .tc main_arg7) := by
  after_results_simp
theorem ops3a_keeps_arg8 : after ops3a W (Proc.devRef .tc main_arg8) = W (Proc.devRef .tc main_arg8) := by
  after_results_simp
theorem ops3a_keeps_arg9 : after ops3a W (Proc.devRef .tc main_arg9) = W (Proc.devRef .tc main_arg9) := by
  after_results_simp
end Keeps

/-! ## The layer writes no argument -/

section KeepsB
set_option maxRecDepth 65536
set_option maxHeartbeats 4000000
theorem ops3b_keeps_arg0 : after ops3b W (Proc.devRef .tc main_arg0) = W (Proc.devRef .tc main_arg0) := by
  after_results_simp
theorem ops3b_keeps_arg1 : after ops3b W (Proc.devRef .tc main_arg1) = W (Proc.devRef .tc main_arg1) := by
  after_results_simp
theorem ops3b_keeps_arg2 : after ops3b W (Proc.devRef .tc main_arg2) = W (Proc.devRef .tc main_arg2) := by
  after_results_simp
theorem ops3b_keeps_arg3 : after ops3b W (Proc.devRef .tc main_arg3) = W (Proc.devRef .tc main_arg3) := by
  after_results_simp
theorem ops3b_keeps_arg4 : after ops3b W (Proc.devRef .tc main_arg4) = W (Proc.devRef .tc main_arg4) := by
  after_results_simp
theorem ops3b_keeps_arg5 : after ops3b W (Proc.devRef .tc main_arg5) = W (Proc.devRef .tc main_arg5) := by
  after_results_simp
theorem ops3b_keeps_arg6 : after ops3b W (Proc.devRef .tc main_arg6) = W (Proc.devRef .tc main_arg6) := by
  after_results_simp
theorem ops3b_keeps_arg7 : after ops3b W (Proc.devRef .tc main_arg7) = W (Proc.devRef .tc main_arg7) := by
  after_results_simp
theorem ops3b_keeps_arg8 : after ops3b W (Proc.devRef .tc main_arg8) = W (Proc.devRef .tc main_arg8) := by
  after_results_simp
theorem ops3b_keeps_arg9 : after ops3b W (Proc.devRef .tc main_arg9) = W (Proc.devRef .tc main_arg9) := by
  after_results_simp
end KeepsB

/-! ## The layer writes no argument -/

section KeepsC
set_option maxRecDepth 65536
set_option maxHeartbeats 4000000
theorem ops3c_keeps_arg0 : after ops3c W (Proc.devRef .tc main_arg0) = W (Proc.devRef .tc main_arg0) := by
  after_results_simp
theorem ops3c_keeps_arg1 : after ops3c W (Proc.devRef .tc main_arg1) = W (Proc.devRef .tc main_arg1) := by
  after_results_simp
theorem ops3c_keeps_arg2 : after ops3c W (Proc.devRef .tc main_arg2) = W (Proc.devRef .tc main_arg2) := by
  after_results_simp
theorem ops3c_keeps_arg3 : after ops3c W (Proc.devRef .tc main_arg3) = W (Proc.devRef .tc main_arg3) := by
  after_results_simp
theorem ops3c_keeps_arg4 : after ops3c W (Proc.devRef .tc main_arg4) = W (Proc.devRef .tc main_arg4) := by
  after_results_simp
theorem ops3c_keeps_arg5 : after ops3c W (Proc.devRef .tc main_arg5) = W (Proc.devRef .tc main_arg5) := by
  after_results_simp
theorem ops3c_keeps_arg6 : after ops3c W (Proc.devRef .tc main_arg6) = W (Proc.devRef .tc main_arg6) := by
  after_results_simp
theorem ops3c_keeps_arg7 : after ops3c W (Proc.devRef .tc main_arg7) = W (Proc.devRef .tc main_arg7) := by
  after_results_simp
theorem ops3c_keeps_arg8 : after ops3c W (Proc.devRef .tc main_arg8) = W (Proc.devRef .tc main_arg8) := by
  after_results_simp
theorem ops3c_keeps_arg9 : after ops3c W (Proc.devRef .tc main_arg9) = W (Proc.devRef .tc main_arg9) := by
  after_results_simp
end KeepsC

end Cert.ReferenceIdeal.Layers

end
-- ==== Proof.RefRun.lean ====
/-
  The reference program's run, read back as the network of its arguments.

  Every weakly fair execution of a straight line of host operations terminates with each buffer at the fold of the
  operations' results over the launch contents.  The fold through one layer, from any contents, leaves the layer's
  output buffer at the layer's function of the buffers it reads and writes no argument; composing the layers gives
  the result buffer at the whole network of the arguments.
-/
import proofs.«167953_j30932354465858_1_alg».proof.Proof.RefLayer1
import proofs.«167953_j30932354465858_1_alg».proof.Proof.RefLayer2
import proofs.«167953_j30932354465858_1_alg».proof.Proof.RefOut

noncomputable section

namespace Cert.ReferenceIdeal.Layers

open Cert.ReferenceIdeal Cert.ReferenceIdeal.Gen Idealize.ShloMosaic Idealize.ShloMosaic.TcCoe Idealize.SL.Sem Idealize.ShloMosaic.StableHlo

variable {F : FTy → Type} [FloatOps F]

variable (W : Valuation τ sig (Elt F))

/-- Argument 0 is as it was after the whole line. -/
theorem ops_keeps_arg0 : after ops W (Proc.devRef .tc main_arg0) = W (Proc.devRef .tc main_arg0) := by
  rw [show (ops : List (HloOp τ sig (Elt F))) = ops1 ++ (ops2 ++ (ops3a ++ (ops3b ++ ops3c))) from rfl, after_append, after_append, after_append, after_append,
    ops3c_keeps_arg0, ops3b_keeps_arg0, ops3a_keeps_arg0, ops2_keeps_arg0, ops1_keeps_arg0]
/-- Argument 1 is as it was after the whole line. -/
theorem ops_keeps_arg1 : after ops W (Proc.devRef .tc main_arg1) = W (Proc.devRef .tc main_arg1) := by
  rw [show (ops : List (HloOp τ sig (Elt F))) = ops1 ++ (ops2 ++ (ops3a ++ (ops3b ++ ops3c))) from rfl, after_append, after_append, after_append, after_append,
    ops3c_keeps_arg1, ops3b_keeps_arg1, ops3a_keeps_arg1, ops2_keeps_arg1, ops1_keeps_arg1]
/-- Argument 2 is as it was after the whole line. -/
theorem ops_keeps_arg2 : after ops W (Proc.devRef .tc main_arg2) = W (Proc.devRef .tc main_arg2) := by
  rw [show (ops : List (HloOp τ sig (Elt F))) = ops1 ++ (ops2 ++ (ops3a ++ (ops3b ++ ops3c))) from rfl, after_append, after_append, after_append, after_append,
    ops3c_keeps_arg2, ops3b_keeps_arg2, ops3a_keeps_arg2, ops2_keeps_arg2, ops1_keeps_arg2]
/-- Argument 3 is as it was after the whole line. -/
theorem ops_keeps_arg3 : after ops W (Proc.devRef .tc main_arg3) = W (Proc.devRef .tc main_arg3) := by
  rw [show (ops : List (HloOp τ sig (Elt F))) = ops1 ++ (ops2 ++ (ops3a ++ (ops3b ++ ops3c))) from rfl, after_append, after_append, after_append, after_append,
    ops3c_keeps_arg3, ops3b_keeps_arg3, ops3a_keeps_arg3, ops2_keeps_arg3, ops1_keeps_arg3]
/-- Argument 4 is as it was after the whole line. -/
theorem ops_keeps_arg4 : after ops W (Proc.devRef .tc main_arg4) = W (Proc.devRef .tc main_arg4) := by
  rw [show (ops : List (HloOp τ sig (Elt F))) = ops1 ++ (ops2 ++ (ops3a ++ (ops3b ++ ops3c))) from rfl, after_append, after_append, after_append, after_append,
    ops3c_keeps_arg4, ops3b_keeps_arg4, ops3a_keeps_arg4, ops2_keeps_arg4, ops1_keeps_arg4]
/-- Argument 5 is as it was after the whole line. -/
theorem ops_keeps_arg5 : after ops W (Proc.devRef .tc main_arg5) = W (Proc.devRef .tc main_arg5) := by
  rw [show (ops : List (HloOp τ sig (Elt F))) = ops1 ++ (ops2 ++ (ops3a ++ (ops3b ++ ops3c))) from rfl, after_append, after_append, after_append, after_append,
    ops3c_keeps_arg5, ops3b_keeps_arg5, ops3a_keeps_arg5, ops2_keeps_arg5, ops1_keeps_arg5]
/-- Argument 6 is as it was after the whole line. -/
theorem ops_keeps_arg6 : after ops W (Proc.devRef .tc main_arg6) = W (Proc.devRef .tc main_arg6) := by
  rw [show (ops : List (HloOp τ sig (Elt F))) = ops1 ++ (ops2 ++ (ops3a ++ (ops3b ++ ops3c))) from rfl, after_append, after_append, after_append, after_append,
    ops3c_keeps_arg6, ops3b_keeps_arg6, ops3a_keeps_arg6, ops2_keeps_arg6, ops1_keeps_arg6]
/-- Argument 7 is as it was after the whole line. -/
theorem ops_keeps_arg7 : after ops W (Proc.devRef .tc main_arg7) = W (Proc.devRef .tc main_arg7) := by
  rw [show (ops : List (HloOp τ sig (Elt F))) = ops1 ++ (ops2 ++ (ops3a ++ (ops3b ++ ops3c))) from rfl, after_append, after_append, after_append, after_append,
    ops3c_keeps_arg7, ops3b_keeps_arg7, ops3a_keeps_arg7, ops2_keeps_arg7, ops1_keeps_arg7]
/-- Argument 8 is as it was after the whole line. -/
theorem ops_keeps_arg8 : after ops W (Proc.devRef .tc main_arg8) = W (Proc.devRef .tc main_arg8) := by
  rw [show (ops : List (HloOp τ sig (Elt F))) = ops1 ++ (ops2 ++ (ops3a ++ (ops3b ++ ops3c))) from rfl, after_append, after_append, after_append, after_append,
    ops3c_keeps_arg8, ops3b_keeps_arg8, ops3a_keeps_arg8, ops2_keeps_arg8, ops1_keeps_arg8]
/-- Argument 9 is as it was after the whole line. -/
theorem ops_keeps_arg9 : after ops W (Proc.devRef .tc main_arg9) = W (Proc.devRef .tc main_arg9) := by
  rw [show (ops : List (HloOp τ sig (Elt F))) = ops1 ++ (ops2 ++ (ops3a ++ (ops3b ++ ops3c))) from rfl, after_append, after_append, after_append, after_append,
    ops3c_keeps_arg9, ops3b_keeps_arg9, ops3a_keeps_arg9, ops2_keeps_arg9, ops1_keeps_arg9]

/-- The whole line leaves the result buffer at the network of the arguments. -/
theorem ops_out : after ops W (Proc.devRef .tc main_v104)
    = Cert.Gcn.net (W (Proc.devRef .tc main_arg0)) (W (Proc.devRef .tc main_arg1)) (W (Proc.devRef .tc main_arg2)) (W (Proc.devRef .tc main_arg4)) (W (Proc.devRef .tc main_arg5))
        (W (Proc.devRef .tc main_arg6)) (W (Proc.devRef .tc main_arg7)) (W (Proc.devRef .tc main_arg8)) (W (Proc.devRef .tc main_arg9)) := by
  rw [show (ops : List (HloOp τ sig (Elt F))) = ops1 ++ (ops2 ++ (ops3a ++ (ops3b ++ ops3c))) from rfl, after_append, after_append, ops3_out, ops2_out, ops1_out,
    ops2_keeps_arg8, ops2_keeps_arg9, ops1_keeps_arg8, ops1_keeps_arg9, ops1_keeps_arg1, ops1_keeps_arg2, ops1_keeps_arg6, ops1_keeps_arg7]
  rfl

/-- On every device, from any memory with zero counters: every weakly fair execution of the reference program
    terminates with the result buffer at the network of the argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v104)
        = Cert.Gcn.net (m ((c.tc : Thread nD τ).loc main_arg0)) (m ((c.tc : Thread nD τ).loc main_arg1)) (m ((c.tc : Thread nD τ).loc main_arg2))
            (m ((c.tc : Thread nD τ).loc main_arg4)) (m ((c.tc : Thread nD τ).loc main_arg5)) (m ((c.tc : Thread nD τ).loc main_arg6))
            (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v104).trans ((ops_out _).trans rfl),
      (h c main_arg0).trans ((ops_keeps_arg0 _).trans rfl),
      (h c main_arg1).trans ((ops_keeps_arg1 _).trans rfl),
      (h c main_arg2).trans ((ops_keeps_arg2 _).trans rfl),
      (h c main_arg3).trans ((ops_keeps_arg3 _).trans rfl),
      (h c main_arg4).trans ((ops_keeps_arg4 _).trans rfl),
      (h c main_arg5).trans ((ops_keeps_arg5 _).trans rfl),
      (h c main_arg6).trans ((ops_keeps_arg6 _).trans rfl),
      (h c main_arg7).trans ((ops_keeps_arg7 _).trans rfl),
      (h c main_arg8).trans ((ops_keeps_arg8 _).trans rfl),
      (h c main_arg9).trans ((ops_keeps_arg9 _).trans rfl)⟩)
    (run_seq scopedRefs_eq scopedSems_eq defs main (fun _ => ops) main_eq (fun _ => ops_sub) m ρ)

end Cert.ReferenceIdeal.Layers

end
-- ==== Proof.lean ====
/-
  The certificate of a two-layer graph-convolution network with a log-softmax output: the kernel program (five
  kernel launches among host operations) against its plain reference, at the exact values.

  Both programs compute  log_softmax (relu (Agg (relu (Agg (x · W1) + b1) · W2) + b2) · W3 + b3):  the kernel program
  does the three dense products, the two bias-and-rectifier steps and the log-softmax in kernel launches, ten row
  blocks each, and the edge aggregation  Agg  on the host, by the very operations the reference uses.  A kernel
  launch's matrix product into a zero accumulator is the host's product; its changes of float format are the
  identity at the exact values; its lane maximum and lane sum are the host's reductions of a row; so every launch
  leaves its output array at the reference's stage of the launch's inputs (Lin1, Act1, Lin2, Act2, OutLayer), the
  host stretches are the reference's stages literally (KernelHost), and the kernel program's result buffer ends at
  the network of the arguments (KernelValue over the run with its result named, KernelRun), as the reference's
  does (RefRun).  No law of real arithmetic beyond  0 + x = x  and  max (-inf, x) = x  is used, so the input's
  finiteness is never opened.  The three frames are the generated frames and the reference's run; the idealization
  rewrote nothing.
-/
import proofs.«167953_j30932354465858_1_alg».proof.Defs
import proofs.«167953_j30932354465858_1_alg».proof.Proof.Gen.Kernel
import proofs.«167953_j30932354465858_1_alg».proof.Proof.Gen.Kernel.Frame
import proofs.«167953_j30932354465858_1_alg».proof.Proof.Gen.KernelIdeal
import proofs.«167953_j30932354465858_1_alg».proof.Proof.Gen.KernelIdeal.Frame
import proofs.«167953_j30932354465858_1_alg».proof.Proof.Gen.ReferenceIdeal
import proofs.«167953_j30932354465858_1_alg».proof.Proof.Gen.Pre_finite_inputs
import proofs.«167953_j30932354465858_1_alg».proof.Proof.KernelRun
import proofs.«167953_j30932354465858_1_alg».proof.Proof.KernelValue
import proofs.«167953_j30932354465858_1_alg».proof.Proof.Act1
import proofs.«167953_j30932354465858_1_alg».proof.Proof.Act2
import proofs.«167953_j30932354465858_1_alg».proof.Proof.OutLayer
import proofs.«167953_j30932354465858_1_alg».proof.Proof.RefRun
import Idealize.ShloMosaic.Adequacy
import Idealize.ShloMosaic.Init

noncomputable section

namespace Cert.Proof

open Idealize.ShloMosaic Idealize.SL.Sem

/-- The kernel program as printed runs and keeps its arguments: the generated frame. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Layers.run (F := Ideal) m ρ)

/-- The idealization rewrote no operation. -/
theorem preserves : Cert.preserves_Kernel_KernelIdeal := trivial

/-- The kernel program's result buffer ends at the network of its arguments. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W12 m ρ c (Proc.devRef .tc Cert.KernelIdeal.main_v97)
      = Cert.Gcn.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
          (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) :=
  Cert.KernelIdeal.Whole.result_of_regions m ρ c Cert.Gcn.act1_region Cert.Gcn.act2_region Cert.Gcn.out_region

/-- Both programs end with the network of the (agreeing) arguments in their result buffers. -/
theorem algebraic : Cert.algebraic_KernelIdeal_ReferenceIdeal := by
  intro m ρ m' ρ' _ hagree
  refine ⟨fun c => Cert.Gcn.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun r h c => ⟨(h c).1.trans (kernel_result m ρ c), (h c).2⟩)
      (Cert.KernelIdeal.Named.run_named m ρ)
  · refine (θ_run Cert.ReferenceIdeal.defs _ _).mono (fun _ h c => ⟨(h c).1.trans ?_, (h c).2⟩)
      (Cert.ReferenceIdeal.Layers.run (F := Ideal) m' ρ')
    obtain ⟨e0, e1, e2, e3, e4, e5, e6, e7, e8, e9⟩ := hagree c
    rw [e0, e1, e2, e4, e5, e6, e7, e8, e9]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
